-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S512 : Shape := ⟨1, ![512]⟩
abbrev S64x256 : Shape := ⟨2, ![64, 256]⟩
abbrev S256 : Shape := ⟨1, ![256]⟩
abbrev S256x256 : Shape := ⟨2, ![256, 256]⟩
abbrev S768x256 : Shape := ⟨2, ![768, 256]⟩
abbrev S256x1 : Shape := ⟨2, ![256, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg11 : FVec F S768x256 .f32) (main_arg12 : FVec F S256 .f32) (main_arg13 : FVec F S256x1 .f32) (main_arg14 : FVec F S1 .f32) (main_v33 : IVec S_ 1) : IVec S_ 1 :=
  let main_v34 : FVec F S768x256 .f32 := Host.absf main_arg11
  let main_cst_12 : FVec F S_ .f32 := constant S_ .f32 0x7F800000#32
  let main_v35 : FVec F S768x256 .f32 := broadcastInDim S768x256 ![] bcast_S_S768x256 main_cst_12
  let main_v36 : IVec S768x256 1 := cmpf .olt main_v34 main_v35
  let main_c_13 : IVec S_ 1 := constantI S_ 1 1#1
  let main_v37 : IVec S_ 1 := (fun x v => Host.reduce IntOp.andi x v reducesTo_S768x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg13
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg14
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg8 : FVec F S256 .f32) (main_arg9 : FVec F S256x256 .f32) (main_arg10 : FVec F S256 .f32) (main_arg11 : FVec F S768x256 .f32) (main_arg12 : FVec F S256 .f32) (main_arg13 : FVec F S256x1 .f32) (main_arg14 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg9
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_v33

def fn {F : FTy → Type} [FloatOps F] (main_arg0 : FVec F S50000x64 .f32) (main_arg1 : IVec S2x800000 32) (main_arg2 : IVec S50000 32) (main_arg3 : IVec S512 32) (main_arg4 : IVec S512 32) (main_arg5 : FVec F S64x256 .f32) (main_arg6 : FVec F S256 .f32) (main_arg7 : FVec F S256x256 .f32) (main_arg8 : FVec F S256 .f32) (main_arg9 : FVec F S256x256 .f32) (main_arg10 : FVec F S256 .f32) (main_arg11 : FVec F S768x256 .f32) (main_arg12 : FVec F S256 .f32) (main_arg13 : FVec F S256x1 .f32) (main_arg14 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x256 .f32 := Host.absf main_arg5
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg8 main_arg9 main_arg10 main_arg11 main_arg12 main_arg13 main_arg14 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S512 : Shape := ⟨1, ![512]⟩
abbrev S64x256 : Shape := ⟨2, ![64, 256]⟩
abbrev S256 : Shape := ⟨1, ![256]⟩
abbrev S256x256 : Shape := ⟨2, ![256, 256]⟩
abbrev S768x256 : Shape := ⟨2, ![768, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x64 : Shape := ⟨2, ![800000, 64]⟩
abbrev S1x256 : Shape := ⟨2, ![1, 256]⟩
abbrev S50000x256 : Shape := ⟨2, ![50000, 256]⟩
abbrev S2000x64 : Shape := ⟨2, ![2000, 64]⟩
abbrev S2000x1 : Shape := ⟨2, ![2000, 1]⟩
abbrev S2000x256 : Shape := ⟨2, ![2000, 256]⟩
abbrev S800000x256 : Shape := ⟨2, ![800000, 256]⟩
abbrev S512x256 : Shape := ⟨2, ![512, 256]⟩
abbrev S512x1 : Shape := ⟨2, ![512, 1]⟩
abbrev S512x768 : Shape := ⟨2, ![512, 768]⟩
abbrev S1x1 : Shape := ⟨2, ![1, 1]⟩

abbrev nBuf : Space → Nat
  | .hbm => 148
  | .vmem => 36
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S512, .i32⟩
  | 4 => ⟨S512, .i32⟩
  | 5 => ⟨S64x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S768x256, .f32⟩
  | 12 => ⟨S256, .f32⟩
  | 13 => ⟨S256x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S_, .f32⟩
  | 29 => ⟨S50000, .f32⟩
  | 30 => ⟨S50000, .f32⟩
  | 31 => ⟨S50000, .f32⟩
  | 32 => ⟨S50000, .f32⟩
  | 33 => ⟨S50000x1, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x64, .f32⟩
  | 62 => ⟨S800000x1, .f32⟩
  | 63 => ⟨S800000x64, .f32⟩
  | 64 => ⟨S800000x64, .f32⟩
  | 65 => ⟨S_, .f32⟩
  | 66 => ⟨S50000x64, .f32⟩
  | 67 => ⟨S800000x1, .i32⟩
  | 68 => ⟨S50000x64, .f32⟩
  | 69 => ⟨S1x256, .f32⟩
  | 70 => ⟨S50000x256, .bf16⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x256, .bf16⟩
  | 80 => ⟨S800000x256, .f32⟩
  | 81 => ⟨S800000x1, .f32⟩
  | 82 => ⟨S800000x256, .f32⟩
  | 83 => ⟨S800000x256, .f32⟩
  | 84 => ⟨S_, .f32⟩
  | 85 => ⟨S50000x256, .f32⟩
  | 86 => ⟨S800000x1, .i32⟩
  | 87 => ⟨S50000x256, .f32⟩
  | 88 => ⟨S1x256, .f32⟩
  | 89 => ⟨S50000x256, .bf16⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x256, .bf16⟩
  | 99 => ⟨S800000x256, .f32⟩
  | 100 => ⟨S800000x1, .f32⟩
  | 101 => ⟨S800000x256, .f32⟩
  | 102 => ⟨S800000x256, .f32⟩
  | 103 => ⟨S_, .f32⟩
  | 104 => ⟨S50000x256, .f32⟩
  | 105 => ⟨S800000x1, .i32⟩
  | 106 => ⟨S50000x256, .f32⟩
  | 107 => ⟨S1x256, .f32⟩
  | 108 => ⟨S50000x256, .f32⟩
  | 109 => ⟨S_, .f32⟩
  | 110 => ⟨S50000, .f32⟩
  | 111 => ⟨S_, .f32⟩
  | 112 => ⟨S512, .f32⟩
  | 113 => ⟨S50000x1, .i32⟩
  | 114 => ⟨S512, .f32⟩
  | 115 => ⟨S_, .f32⟩
  | 116 => ⟨S512x256, .f32⟩
  | 117 => ⟨S50000x1, .i32⟩
  | 118 => ⟨S512x256, .f32⟩
  | 119 => ⟨S_, .f32⟩
  | 120 => ⟨S512, .f32⟩
  | 121 => ⟨S512, .f32⟩
  | 122 => ⟨S512x1, .f32⟩
  | 123 => ⟨S512x256, .f32⟩
  | 124 => ⟨S512x256, .f32⟩
  | 125 => ⟨S_, .i32⟩
  | 126 => ⟨S512, .i32⟩
  | 127 => ⟨S512, .i1⟩
  | _ => ⟨S50000x64, .f32⟩

abbrev hbmTy0_1 (i : Nat) : BufTy := match i % 128 with
  | 0 => ⟨S_, .i32⟩
  | 1 => ⟨S512, .i32⟩
  | 2 => ⟨S512, .i32⟩
  | 3 => ⟨S512, .i32⟩
  | 4 => ⟨S512x1, .i32⟩
  | 5 => ⟨S512x256, .f32⟩
  | 6 => ⟨S_, .i32⟩
  | 7 => ⟨S512, .i32⟩
  | 8 => ⟨S512, .i1⟩
  | 9 => ⟨S_, .i32⟩
  | 10 => ⟨S512, .i32⟩
  | 11 => ⟨S512, .i32⟩
  | 12 => ⟨S512, .i32⟩
  | 13 => ⟨S512x1, .i32⟩
  | 14 => ⟨S512x256, .f32⟩
  | 15 => ⟨S512x768, .f32⟩
  | 16 => ⟨S1x256, .f32⟩
  | 17 => ⟨S1x1, .f32⟩
  | 18 => ⟨S512x1, .f32⟩
  | 19 => ⟨S512, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S64x256, .f32⟩
  | .local _ .vmem, ⟨7, _⟩ => ⟨S1x256, .f32⟩
  | .local _ .vmem, ⟨8, _⟩ => ⟨S2000x256, .bf16⟩
  | .local _ .vmem, ⟨9, _⟩ => ⟨S2000x256, .bf16⟩
  | .local _ .vmem, ⟨10, _⟩ => ⟨S2000x256, .f32⟩
  | .local _ .vmem, ⟨11, _⟩ => ⟨S2000x256, .f32⟩
  | .local _ .vmem, ⟨12, _⟩ => ⟨S2000x256, .bf16⟩
  | .local _ .vmem, ⟨13, _⟩ => ⟨S2000x256, .bf16⟩
  | .local _ .vmem, ⟨14, _⟩ => ⟨S2000x1, .f32⟩
  | .local _ .vmem, ⟨15, _⟩ => ⟨S2000x1, .f32⟩
  | .local _ .vmem, ⟨16, _⟩ => ⟨S256x256, .f32⟩
  | .local _ .vmem, ⟨17, _⟩ => ⟨S1x256, .f32⟩
  | .local _ .vmem, ⟨18, _⟩ => ⟨S2000x256, .bf16⟩
  | .local _ .vmem, ⟨19, _⟩ => ⟨S2000x256, .bf16⟩
  | .local _ .vmem, ⟨20, _⟩ => ⟨S2000x256, .f32⟩
  | .local _ .vmem, ⟨21, _⟩ => ⟨S2000x256, .f32⟩
  | .local _ .vmem, ⟨22, _⟩ => ⟨S2000x256, .bf16⟩
  | .local _ .vmem, ⟨23, _⟩ => ⟨S2000x256, .bf16⟩
  | .local _ .vmem, ⟨24, _⟩ => ⟨S2000x1, .f32⟩
  | .local _ .vmem, ⟨25, _⟩ => ⟨S2000x1, .f32⟩
  | .local _ .vmem, ⟨26, _⟩ => ⟨S256x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S512x768, .f32⟩
  | .local _ .vmem, ⟨31, _⟩ => ⟨S768x256, .f32⟩
  | .local _ .vmem, ⟨32, _⟩ => ⟨S1x256, .f32⟩
  | .local _ .vmem, ⟨33, _⟩ => ⟨S256x1, .f32⟩
  | .local _ .vmem, ⟨34, _⟩ => ⟨S1x1, .f32⟩
  | .local _ .vmem, ⟨35, _⟩ => ⟨S512x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_15 : Ref sig .tc := ⟨.hbm, 109, rfl⟩
abbrev main_v77 : Ref sig .tc := ⟨.hbm, 110, rfl⟩
abbrev main_cst_16 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_19 : Ref sig .tc := ⟨.hbm, 125, rfl⟩
abbrev main_v89 : Ref sig .tc := ⟨.hbm, 126, rfl⟩
abbrev main_v90 : Ref sig .tc := ⟨.hbm, 127, rfl⟩
abbrev main_c_20 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_c_21 : Ref sig .tc := ⟨.hbm, 134, rfl⟩
abbrev main_v96 : Ref sig .tc := ⟨.hbm, 135, rfl⟩
abbrev main_v97 : Ref sig .tc := ⟨.hbm, 136, rfl⟩
abbrev main_c_22 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x768 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S768x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S256_S1x256 : S256.ShapeCasts S1x256
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  bcast_S_S512 : S_.BroadcastsInDim S512 (![] : Fin 0 → Fin S512.rank)
  bcast_S50000_S50000x1_0 : S50000.BroadcastsInDim S50000x1 (![0] : Fin 1 → Fin S50000x1.rank)
  bcast_S_S512x256 : S_.BroadcastsInDim S512x256 (![] : Fin 0 → Fin S512x256.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  concatenates_S512x256_S512x256_S512x256_S512x768_d1 : Shape.Concatenates [S512x256, S512x256, S512x256] S512x768 1
  shapeCasts_S1_S1x1 : S1.ShapeCasts S1x1
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x256_S768x256_0_0 : ∀ a, (![0, 0] : Fin 2 → Nat) a + S768x256.size a ≤ S768x256.size a
  h_S768x256 : 0 < S768x256.numel
  broadcasts_S1x256_S512x256 : S1x256.Broadcasts S512x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S512x1_S512 : S512x1.ShapeCasts S512
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x256_S2000x256_1_0_0_1_n_n_wf : DotDims.WF S2000x64 S64x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  scatter_S512_S50000x1_S50000_n_0_0_1_wf : ScatterDims.WF S512 S50000x1 S50000 [] [0] [0] 1
  scatter_S512x256_S50000x1_S50000x256_1_0_0_1_wf : ScatterDims.WF S512x256 S50000x1 S50000x256 [1] [0] [0] 1
  gather_S50000x256_S512x1_S512x256_1_0_n_n_0_1_1256_wf : GatherDims.WF S50000x256 S512x1 S512x256 [1] [0] [] [0] [] 1 ![1, 256]
  dot_S512x768_S768x256_S512x256_1_0_0_1_n_n_wf : DotDims.WF S512x768 S768x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .bf16 = 32 ∨ (Rect.block (s := S50000x256) S2000x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .bf16 = 32 ∨ (Rect.block (s := S50000x256) S2000x256.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .bf16 = 32 ∨ (Rect.block (s := S50000x256) S2000x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x768.size a ≤ S512x768.size a
  hwx3_0 : ∀ i : grid3.Coords, EltTy.bits .f32 = 32 ∨ (Rect.block (s := S512x768) S512x768.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S768x256.size a ≤ S768x256.size a
  hwx3_1 : ∀ i : grid3.Coords, EltTy.bits .f32 = 32 ∨ (Rect.block (s := S768x256) S768x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x1.size a ≤ S256x1.size a
  hwx3_3 : ∀ i : grid3.Coords, EltTy.bits .f32 = 32 ∨ (Rect.block (s := S256x1) S256x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x1.size a ≤ S512x1.size a
  hwx3_5 : ∀ i : grid3.Coords, EltTy.bits .f32 = 32 ∨ (Rect.block (s := S512x1) S512x1.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def gather_S50000x256_S512x1_S512x256_1_0_n_n_0_1_1256 : GatherDims S50000x256 S512x1 S512x256 where
  offsetDims := [1]
  collapsedSliceDims := [0]
  operandBatchingDims := []
  startIndicesBatchingDims := []
  startIndexMap := [0]
  indexVectorDim := 1
  sliceSizes := ![1, 256]
  wf := gather_S50000x256_S512x1_S512x256_1_0_n_n_0_1_1256_wf
def dot_S512x768_S768x256_S512x256_1_0_0_1_n_n : DotDims S512x768 S768x256 S512x256 where
  lhsContracting := [1]
  rhsContracting := [0]
  lhsNonContracting := [0]
  rhsNonContracting := [1]
  lhsBatch := []
  rhsBatch := []
  wf := dot_S512x768_S768x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_v42) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v58) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v74) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v75) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v76) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v103) S512x768.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S768x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v104) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S256x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v105) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v106) S512x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S512 : Shape := ⟨1, ![512]⟩
abbrev S64x256 : Shape := ⟨2, ![64, 256]⟩
abbrev S256 : Shape := ⟨1, ![256]⟩
abbrev S256x256 : Shape := ⟨2, ![256, 256]⟩
abbrev S768x256 : Shape := ⟨2, ![768, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S50000x256 : Shape := ⟨2, ![50000, 256]⟩
abbrev S1x256 : Shape := ⟨2, ![1, 256]⟩
abbrev S850000x256 : Shape := ⟨2, ![850000, 256]⟩
abbrev S50000x1 : Shape := ⟨2, ![50000, 1]⟩
abbrev S512x256 : Shape := ⟨2, ![512, 256]⟩
abbrev S512x1 : Shape := ⟨2, ![512, 1]⟩
abbrev S512x768 : Shape := ⟨2, ![512, 768]⟩
abbrev S1x1 : Shape := ⟨2, ![1, 1]⟩

abbrev nBuf : Space → Nat
  | .hbm => 164
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S512, .i32⟩
  | 4 => ⟨S512, .i32⟩
  | 5 => ⟨S64x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S768x256, .f32⟩
  | 12 => ⟨S256, .f32⟩
  | 13 => ⟨S256x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S50000, .i32⟩
  | 20 => ⟨S850000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x64, .f32⟩
  | 60 => ⟨S850000x1, .f32⟩
  | 61 => ⟨S850000x64, .f32⟩
  | 62 => ⟨S850000x64, .f32⟩
  | 63 => ⟨S_, .f32⟩
  | 64 => ⟨S50000x64, .f32⟩
  | 65 => ⟨S850000x1, .i32⟩
  | 66 => ⟨S50000x64, .f32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x256, .f32⟩
  | 83 => ⟨S850000x1, .f32⟩
  | 84 => ⟨S850000x256, .f32⟩
  | 85 => ⟨S850000x256, .f32⟩
  | 86 => ⟨S_, .f32⟩
  | 87 => ⟨S50000x256, .f32⟩
  | 88 => ⟨S850000x1, .i32⟩
  | 89 => ⟨S50000x256, .f32⟩
  | 90 => ⟨S50000x256, .f32⟩
  | 91 => ⟨S1x256, .f32⟩
  | 92 => ⟨S50000x256, .f32⟩
  | 93 => ⟨S50000x256, .f32⟩
  | 94 => ⟨S_, .f32⟩
  | 95 => ⟨S50000x256, .f32⟩
  | 96 => ⟨S50000x256, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x256, .f32⟩
  | 106 => ⟨S850000x1, .f32⟩
  | 107 => ⟨S850000x256, .f32⟩
  | 108 => ⟨S850000x256, .f32⟩
  | 109 => ⟨S_, .f32⟩
  | 110 => ⟨S50000x256, .f32⟩
  | 111 => ⟨S850000x1, .i32⟩
  | 112 => ⟨S50000x256, .f32⟩
  | 113 => ⟨S50000x256, .f32⟩
  | 114 => ⟨S1x256, .f32⟩
  | 115 => ⟨S50000x256, .f32⟩
  | 116 => ⟨S50000x256, .f32⟩
  | 117 => ⟨S_, .f32⟩
  | 118 => ⟨S50000, .f32⟩
  | 119 => ⟨S_, .f32⟩
  | 120 => ⟨S512, .f32⟩
  | 121 => ⟨S50000x1, .i32⟩
  | 122 => ⟨S512, .f32⟩
  | 123 => ⟨S_, .f32⟩
  | 124 => ⟨S512x256, .f32⟩
  | 125 => ⟨S50000x1, .i32⟩
  | 126 => ⟨S512x256, .f32⟩
  | 127 => ⟨S_, .f32⟩
  | _ => ⟨S50000x64, .f32⟩

abbrev hbmTy0_1 (i : Nat) : BufTy := match i % 128 with
  | 0 => ⟨S512, .f32⟩
  | 1 => ⟨S512, .f32⟩
  | 2 => ⟨S512x1, .f32⟩
  | 3 => ⟨S512x256, .f32⟩
  | 4 => ⟨S512x256, .f32⟩
  | 5 => ⟨S_, .i32⟩
  | 6 => ⟨S512, .i32⟩
  | 7 => ⟨S512, .i1⟩
  | 8 => ⟨S_, .i32⟩
  | 9 => ⟨S512, .i32⟩
  | 10 => ⟨S512, .i32⟩
  | 11 => ⟨S512, .i32⟩
  | 12 => ⟨S512x1, .i32⟩
  | 13 => ⟨S512x256, .f32⟩
  | 14 => ⟨S_, .i32⟩
  | 15 => ⟨S512, .i32⟩
  | 16 => ⟨S512, .i1⟩
  | 17 => ⟨S_, .i32⟩
  | 18 => ⟨S512, .i32⟩
  | 19 => ⟨S512, .i32⟩
  | 20 => ⟨S512, .i32⟩
  | 21 => ⟨S512x1, .i32⟩
  | 22 => ⟨S512x256, .f32⟩
  | 23 => ⟨S512x768, .f32⟩
  | 24 => ⟨S512x256, .f32⟩
  | 25 => ⟨S1x256, .f32⟩
  | 26 => ⟨S512x256, .f32⟩
  | 27 => ⟨S512x256, .f32⟩
  | 28 => ⟨S_, .f32⟩
  | 29 => ⟨S512x256, .f32⟩
  | 30 => ⟨S512x256, .f32⟩
  | 31 => ⟨S512x1, .f32⟩
  | 32 => ⟨S1x1, .f32⟩
  | 33 => ⟨S512x1, .f32⟩
  | 34 => ⟨S512x1, .f32⟩
  | 35 => ⟨S512, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call0_cst : Ref sig .tc := ⟨.hbm, 71, rfl⟩
abbrev main_call0_v0 : Ref sig .tc := ⟨.hbm, 72, rfl⟩
abbrev main_v46 : Ref sig .tc := ⟨.hbm, 73, rfl⟩
abbrev main_c_8 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call1_cst : Ref sig .tc := ⟨.hbm, 94, rfl⟩
abbrev main_call1_v0 : Ref sig .tc := ⟨.hbm, 95, rfl⟩
abbrev main_v64 : Ref sig .tc := ⟨.hbm, 96, rfl⟩
abbrev main_c_11 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_13 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_14 : Ref sig .tc := ⟨.hbm, 117, rfl⟩
abbrev main_v82 : Ref sig .tc := ⟨.hbm, 118, rfl⟩
abbrev main_cst_15 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_17 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_c_18 : Ref sig .tc := ⟨.hbm, 133, rfl⟩
abbrev main_v94 : Ref sig .tc := ⟨.hbm, 134, rfl⟩
abbrev main_v95 : Ref sig .tc := ⟨.hbm, 135, rfl⟩
abbrev main_c_19 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_c_20 : Ref sig .tc := ⟨.hbm, 142, rfl⟩
abbrev main_v101 : Ref sig .tc := ⟨.hbm, 143, rfl⟩
abbrev main_v102 : Ref sig .tc := ⟨.hbm, 144, rfl⟩
abbrev main_c_21 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_call2_cst : Ref sig .tc := ⟨.hbm, 156, rfl⟩
abbrev main_call2_v0 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S850000x1_S850000x256_0_1 : S850000x1.BroadcastsInDim S850000x256 (![0, 1] : Fin 2 → Fin S850000x256.rank)
  bcast_S_S512 : S_.BroadcastsInDim S512 (![] : Fin 0 → Fin S512.rank)
  bcast_S50000_S50000x1_0 : S50000.BroadcastsInDim S50000x1 (![0] : Fin 1 → Fin S50000x1.rank)
  bcast_S_S512x256 : S_.BroadcastsInDim S512x256 (![] : Fin 0 → Fin S512x256.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  concatenates_S512x256_S512x256_S512x256_S512x768_d1 : Shape.Concatenates [S512x256, S512x256, S512x256] S512x768 1
  bcast_S1x256_S512x256_0_1 : S1x256.BroadcastsInDim S512x256 (![0, 1] : Fin 2 → Fin S512x256.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x256_S50000x256_1_0_0_1_n_n_wf : DotDims.WF S50000x64 S64x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  scatter_S512_S50000x1_S50000_n_0_0_1_wf : ScatterDims.WF S512 S50000x1 S50000 [] [0] [0] 1
  scatter_S512x256_S50000x1_S50000x256_1_0_0_1_wf : ScatterDims.WF S512x256 S50000x1 S50000x256 [1] [0] [0] 1
  gather_S50000x256_S512x1_S512x256_1_0_n_n_0_1_1256_wf : GatherDims.WF S50000x256 S512x1 S512x256 [1] [0] [] [0] [] 1 ![1, 256]
  dot_S512x768_S768x256_S512x256_1_0_0_1_n_n_wf : DotDims.WF S512x768 S768x256 S512x256 [1] [0] [0] [1] [] []
  dot_S512x256_S256x1_S512x1_1_0_0_1_n_n_wf : DotDims.WF S512x256 S256x1 S512x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def gather_S50000x256_S512x1_S512x256_1_0_n_n_0_1_1256 : GatherDims S50000x256 S512x1 S512x256 where
  offsetDims := [1]
  collapsedSliceDims := [0]
  operandBatchingDims := []
  startIndicesBatchingDims := []
  startIndexMap := [0]
  indexVectorDim := 1
  sliceSizes := ![1, 256]
  wf := gather_S50000x256_S512x1_S512x256_1_0_n_n_0_1_1256_wf
def dot_S512x768_S768x256_S512x256_1_0_0_1_n_n : DotDims S512x768 S768x256 S512x256 where
  lhsContracting := [1]
  rhsContracting := [0]
  lhsNonContracting := [0]
  rhsNonContracting := [1]
  lhsBatch := []
  rhsBatch := []
  wf := dot_S512x768_S768x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.KIData0.lean ====
import proofs.«175804_j6906307412089_2_alg».proof.Proof.Gen.KernelIdeal.Launch
import proofs.«175804_j6906307412089_2_alg».proof.Proof.Gen.KernelIdeal.Skeleton
import proofs.«175804_j6906307412089_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The first dense layer's pipeline: its proof data

The first pallas_call walks 25 row blocks of 2000 rows.  At each point the body reads five staged
blocks (the aggregated features, the node features, the inverse degrees, the weight matrix and the
bias row) and overwrites the output block with one function of them.  The data below say exactly
that: every input window keeps its block, the output window ends at that function of the inputs'
blocks. -/

-- the TensorCore's buffer contents when the region is entered
variable (V : (c : Dev nD) → (b : Ref sig .tc) → Buf (Elt F) ((c : Thread nD τ).loc b))

/-- Window `w`'s block of its array at grid point `t`, read off the entry contents. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The output block as a function of the five input blocks. -/
def out0 (x0 : Vec F S2000x64 .f32) (x1 : Vec F S2000x64 .f32) (x2 : Vec F S2000x1 .f32)
    (x3 : Vec F S64x256 .f32) (x4 : Vec F S1x256 .f32) : Vec F S2000x256 .bf16 :=
  k0_pay1 x0 x1 x2 x3 x4

/-- The proof data on core `c`: arrays as found; inputs left in place, the output block at `out0` of
    the input blocks; the invariant only carries the scoped buffers no window stages and the generator
    register; nothing is owed and every array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t
      = out0 (iblk0 V c 0 t) (iblk0 V c 1 t) (iblk0 V c 2 t) (iblk0 V c 3 t) (iblk0 V c 4 t) := by
  dsimp only [dat0]

end Cert.KernelIdeal.Hand

end
-- ==== Proof.KIRegion0.lean ====
import proofs.«175804_j6906307412089_2_alg».proof.Proof.KIData0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first dense layer's pipeline: the body at every point

First the body as a program on six whole staging memrefs; then what each window's current buffer holds when
the body is called at a grid point; then the obligation the pipeline rule asks for. -/

/-- The offsets of a whole-block access are all zero. -/
theorem zero_offsets0 : (![0, 0] : Fin 2 → Nat) = fun _ => 0 := by
  funext a; fin_cases a <;> rfl

set_option maxHeartbeats 1000000 in
/-- The body on whole staging memrefs: the five inputs' at known contents, the output's at anything.  It loads
    the inputs, loads (and ignores) the output buffer, and stores the result over the whole output block; the
    inputs come back as they were and the output holds `out0` of them: one store that covers the block
    leaves its payload, and a load through the whole block reads the contents. -/
theorem sound_kernel0 (c : Dev nD) (E : Set ℕ) (i : grid0.Coords)
    (arg1 : Memref sig .tc .vmem S2000x64 .f32) (harg1 : arg1.IsWhole)
    (arg2 : Memref sig .tc .vmem S2000x64 .f32) (harg2 : arg2.IsWhole)
    (arg3 : Memref sig .tc .vmem S2000x1 .f32) (harg3 : arg3.IsWhole)
    (arg4 : Memref sig .tc .vmem S64x256 .f32) (harg4 : arg4.IsWhole)
    (arg5 : Memref sig .tc .vmem S1x256 .f32) (harg5 : arg5.IsWhole)
    (arg6 : Memref sig .tc .vmem S2000x256 .bf16) (harg6 : arg6.IsWhole)
    (x0 : Vec F S2000x64 .f32) (x1 : Vec F S2000x64 .f32) (x2 : Vec F S2000x1 .f32) (x3 : Vec F S64x256 .f32) (x4 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out0 x0 x1 x2 x3 x4)) -∗ K ⟨⟩))
      ⊢ wp frame (wpE (defs₀ (F := F)) Variants.none c none) E
          (cc0__linear_kernel i arg1 harg1 arg2 harg2 arg3 harg3 arg4 harg4 arg5 harg5 arg6 harg6) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _
      (fun y => ⟨_, List.mem_singleton_self _, View.mem_set_unit_zero zero_offsets0 inb_S2000x256_S2000x256_0_0 y⟩),
    View.canon_unit_zero zero_offsets0]
  rw [
    show View.readAt (Elt F) arg1.view (Rect.unit ![0, 0] S2000x64.size inb_S2000x64_S2000x64_0_0).toLoadRect f0
        = View.read (Elt F) arg1.view f0 from View.ld_unit_zero (S := S2000x64) zero_offsets0 _ _,
    show View.readAt (Elt F) arg2.view (Rect.unit ![0, 0] S2000x64.size inb_S2000x64_S2000x64_0_0).toLoadRect f1
        = View.read (Elt F) arg2.view f1 from View.ld_unit_zero (S := S2000x64) zero_offsets0 _ _,
    show View.readAt (Elt F) arg3.view (Rect.unit ![0, 0] S2000x1.size inb_S2000x1_S2000x1_0_0).toLoadRect f2
        = View.read (Elt F) arg3.view f2 from View.ld_unit_zero (S := S2000x1) zero_offsets0 _ _,
    show View.readAt (Elt F) arg4.view (Rect.unit ![0, 0] S64x256.size inb_S64x256_S64x256_0_0).toLoadRect f3
        = View.read (Elt F) arg4.view f3 from View.ld_unit_zero (S := S64x256) zero_offsets0 _ _,
    show View.readAt (Elt F) arg5.view (Rect.unit ![0, 0] S1x256.size inb_S1x256_S1x256_0_0).toLoadRect f4
        = View.read (Elt F) arg5.view f4 from View.ld_unit_zero (S := S1x256) zero_offsets0 _ _]
  rfl

/-! ## What the body finds in each window's current buffer -/

-- the TensorCore's buffer contents when the region is entered
variable (V : (c : Dev nD) → (b : Ref sig .tc) → Buf (Elt F) ((c : Thread nD τ).loc b))

-- An input window holds its block of the array at every point, fetched there or not: an unfetched window's
-- block index has not moved, and the body leaves the block in place.
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- The output window is written back at every point, so its current buffer is fresh whenever the body runs:
    it holds whatever it held. -/
theorem before0_5 (c : Dev nD) (t : Fin cfg0.N) (d) : (dat0 V c).before 5 t d = d :=
  (dat0 V c).before_out_reset 5 rfl t
    (by
      by_cases h0 : t.val = 0
      · exact .inl h0
      · exact .inr ⟨h0, flush0_5 _⟩) d

/-! ## The obligation -/

/-- The body at any point: the inputs' buffers hold their blocks, the output's anything, so `sound_kernel0`
    applies; the invariant and what the core owes pass through untouched. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t)
        ∗ owns (c : Thread nD τ) (st0_4 t) fullShare ((dat0 V c).after 4 t)
        ∗ owns (c : Thread nD τ) (st0_5 t) fullShare ((dat0 V c).after 5 t))) := by
  unfold bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.KIData1.lean ====
import proofs.«175804_j6906307412089_2_alg».proof.Proof.Gen.KernelIdeal.Launch
import proofs.«175804_j6906307412089_2_alg».proof.Proof.Gen.KernelIdeal.Skeleton
import proofs.«175804_j6906307412089_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The second dense layer's pipeline: its proof data

The second pallas_call walks the same 25 row blocks.  At each point the body reads five staged blocks
(the aggregated hidden features, the previous layer's output, the inverse degrees, the weight matrix and
the bias row) and overwrites the output block with one function of them.
The data below say exactly that: every input window keeps its block, the output window ends at that
function of the inputs' blocks. -/

-- the TensorCore's buffer contents when the region is entered
variable (V : (c : Dev nD) → (b : Ref sig .tc) → Buf (Elt F) ((c : Thread nD τ).loc b))

/-- Window `w`'s block of its array at grid point `t`, read off the entry contents. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The output block as a function of the five input blocks. -/
def out1 (x0 : Vec F S2000x256 .f32) (x1 : Vec F S2000x256 .bf16) (x2 : Vec F S2000x1 .f32) (x3 : Vec F S256x256 .f32) (x4 : Vec F S1x256 .f32) : Vec F S2000x256 .bf16 :=
  k1_pay1 x0 x1 x2 x3 x4

/-- The proof data on core `c`: arrays as found; inputs left in place, the output block at `out1` of
    the input blocks; the invariant only carries the scoped buffers no window stages and the generator
    register; nothing is owed and every array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t
      = out1 (iblk1 V c 0 t) (iblk1 V c 1 t) (iblk1 V c 2 t) (iblk1 V c 3 t) (iblk1 V c 4 t) := by
  dsimp only [dat1]

end Cert.KernelIdeal.Hand

end
-- ==== Proof.KIRegion1.lean ====
import proofs.«175804_j6906307412089_2_alg».proof.Proof.KIData1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second dense layer's pipeline: the body at every point

First the body as a program on six whole staging memrefs; then what each window's current buffer holds when
the body is called at a grid point; then the obligation the pipeline rule asks for. -/

/-- The offsets of a whole-block access are all zero. -/
theorem zero_offsets1 : (![0, 0] : Fin 2 → Nat) = fun _ => 0 := by
  funext a; fin_cases a <;> rfl

set_option maxHeartbeats 1000000 in
/-- The body on whole staging memrefs: the five inputs' at known contents, the output's at anything.  It loads
    the inputs, loads (and ignores) the output buffer, and stores the result over the whole output block; the
    inputs come back as they were and the output holds `out1` of them: one store that covers the block
    leaves its payload, and a load through the whole block reads the contents. -/
theorem sound_kernel1 (c : Dev nD) (E : Set ℕ) (i : grid1.Coords)
    (arg1 : Memref sig .tc .vmem S2000x256 .f32) (harg1 : arg1.IsWhole)
    (arg2 : Memref sig .tc .vmem S2000x256 .bf16) (harg2 : arg2.IsWhole)
    (arg3 : Memref sig .tc .vmem S2000x1 .f32) (harg3 : arg3.IsWhole)
    (arg4 : Memref sig .tc .vmem S256x256 .f32) (harg4 : arg4.IsWhole)
    (arg5 : Memref sig .tc .vmem S1x256 .f32) (harg5 : arg5.IsWhole)
    (arg6 : Memref sig .tc .vmem S2000x256 .bf16) (harg6 : arg6.IsWhole)
    (x0 : Vec F S2000x256 .f32) (x1 : Vec F S2000x256 .bf16) (x2 : Vec F S2000x1 .f32) (x3 : Vec F S256x256 .f32) (x4 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1 x0 x1 x2 x3 x4)) -∗ K ⟨⟩))
      ⊢ wp frame (wpE (defs₀ (F := F)) Variants.none c none) E
          (cc1__linear_kernel i arg1 harg1 arg2 harg2 arg3 harg3 arg4 harg4 arg5 harg5 arg6 harg6) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _
      (fun y => ⟨_, List.mem_singleton_self _, View.mem_set_unit_zero zero_offsets1 inb_S2000x256_S2000x256_0_0 y⟩),
    View.canon_unit_zero zero_offsets1]
  rw [
    show View.readAt (Elt F) arg1.view (Rect.unit ![0, 0] S2000x256.size inb_S2000x256_S2000x256_0_0).toLoadRect f0
        = View.read (Elt F) arg1.view f0 from View.ld_unit_zero (S := S2000x256) zero_offsets1 _ _,
    show View.readAt (Elt F) arg2.view (Rect.unit ![0, 0] S2000x256.size inb_S2000x256_S2000x256_0_0).toLoadRect f1
        = View.read (Elt F) arg2.view f1 from View.ld_unit_zero (S := S2000x256) zero_offsets1 _ _,
    show View.readAt (Elt F) arg3.view (Rect.unit ![0, 0] S2000x1.size inb_S2000x1_S2000x1_0_0).toLoadRect f2
        = View.read (Elt F) arg3.view f2 from View.ld_unit_zero (S := S2000x1) zero_offsets1 _ _,
    show View.readAt (Elt F) arg4.view (Rect.unit ![0, 0] S256x256.size inb_S256x256_S256x256_0_0).toLoadRect f3
        = View.read (Elt F) arg4.view f3 from View.ld_unit_zero (S := S256x256) zero_offsets1 _ _,
    show View.readAt (Elt F) arg5.view (Rect.unit ![0, 0] S1x256.size inb_S1x256_S1x256_0_0).toLoadRect f4
        = View.read (Elt F) arg5.view f4 from View.ld_unit_zero (S := S1x256) zero_offsets1 _ _]
  rfl

/-! ## What the body finds in each window's current buffer -/

-- the TensorCore's buffer contents when the region is entered
variable (V : (c : Dev nD) → (b : Ref sig .tc) → Buf (Elt F) ((c : Thread nD τ).loc b))

-- An input window holds its block of the array at every point, fetched there or not: an unfetched window's
-- block index has not moved, and the body leaves the block in place.
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- The output window is written back at every point, so its current buffer is fresh whenever the body runs:
    it holds whatever it held. -/
theorem before1_5 (c : Dev nD) (t : Fin cfg1.N) (d) : (dat1 V c).before 5 t d = d :=
  (dat1 V c).before_out_reset 5 rfl t
    (by
      by_cases h0 : t.val = 0
      · exact .inl h0
      · exact .inr ⟨h0, flush1_5 _⟩) d

/-! ## The obligation -/

/-- The body at any point: the inputs' buffers hold their blocks, the output's anything, so `sound_kernel1`
    applies; the invariant and what the core owes pass through untouched. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t)
        ∗ owns (c : Thread nD τ) (st1_5 t) fullShare ((dat1 V c).after 5 t))) := by
  unfold bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.KIData2.lean ====
import proofs.«175804_j6906307412089_2_alg».proof.Proof.Gen.KernelIdeal.Launch
import proofs.«175804_j6906307412089_2_alg».proof.Proof.Gen.KernelIdeal.Skeleton
import proofs.«175804_j6906307412089_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The third dense layer's pipeline: its proof data

The third pallas_call walks the same 25 row blocks.  At each point the body reads five staged blocks
(the aggregated hidden features, the previous layer's output, the inverse degrees, the weight matrix and
the bias row) and overwrites the output block with one function of them (no rectifier, no rounding).
The data below say exactly that: every input window keeps its block, the output window ends at that
function of the inputs' blocks. -/

-- the TensorCore's buffer contents when the region is entered
variable (V : (c : Dev nD) → (b : Ref sig .tc) → Buf (Elt F) ((c : Thread nD τ).loc b))

/-- Window `w`'s block of its array at grid point `t`, read off the entry contents. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The output block as a function of the five input blocks. -/
def out2 (x0 : Vec F S2000x256 .f32) (x1 : Vec F S2000x256 .bf16) (x2 : Vec F S2000x1 .f32) (x3 : Vec F S256x256 .f32) (x4 : Vec F S1x256 .f32) : Vec F S2000x256 .f32 :=
  k2_pay1 x0 x1 x2 x3 x4

/-- The proof data on core `c`: arrays as found; inputs left in place, the output block at `out2` of
    the input blocks; the invariant only carries the scoped buffers no window stages and the generator
    register; nothing is owed and every array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t
      = out2 (iblk2 V c 0 t) (iblk2 V c 1 t) (iblk2 V c 2 t) (iblk2 V c 3 t) (iblk2 V c 4 t) := by
  dsimp only [dat2]

end Cert.KernelIdeal.Hand

end
-- ==== Proof.KIRegion2.lean ====
import proofs.«175804_j6906307412089_2_alg».proof.Proof.KIData2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third dense layer's pipeline: the body at every point

First the body as a program on six whole staging memrefs; then what each window's current buffer holds when
the body is called at a grid point; then the obligation the pipeline rule asks for. -/

/-- The offsets of a whole-block access are all zero. -/
theorem zero_offsets2 : (![0, 0] : Fin 2 → Nat) = fun _ => 0 := by
  funext a; fin_cases a <;> rfl

set_option maxHeartbeats 1000000 in
/-- The body on whole staging memrefs: the five inputs' at known contents, the output's at anything.  It loads
    the inputs, loads (and ignores) the output buffer, and stores the result over the whole output block; the
    inputs come back as they were and the output holds `out2` of them: one store that covers the block
    leaves its payload, and a load through the whole block reads the contents. -/
theorem sound_kernel2 (c : Dev nD) (E : Set ℕ) (i : grid2.Coords)
    (arg1 : Memref sig .tc .vmem S2000x256 .f32) (harg1 : arg1.IsWhole)
    (arg2 : Memref sig .tc .vmem S2000x256 .bf16) (harg2 : arg2.IsWhole)
    (arg3 : Memref sig .tc .vmem S2000x1 .f32) (harg3 : arg3.IsWhole)
    (arg4 : Memref sig .tc .vmem S256x256 .f32) (harg4 : arg4.IsWhole)
    (arg5 : Memref sig .tc .vmem S1x256 .f32) (harg5 : arg5.IsWhole)
    (arg6 : Memref sig .tc .vmem S2000x256 .f32) (harg6 : arg6.IsWhole)
    (x0 : Vec F S2000x256 .f32) (x1 : Vec F S2000x256 .bf16) (x2 : Vec F S2000x1 .f32) (x3 : Vec F S256x256 .f32) (x4 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out2 x0 x1 x2 x3 x4)) -∗ K ⟨⟩))
      ⊢ wp frame (wpE (defs₀ (F := F)) Variants.none c none) E
          (cc2__linear_kernel i arg1 harg1 arg2 harg2 arg3 harg3 arg4 harg4 arg5 harg5 arg6 harg6) K := by
  simp only [cc2__linear_kernel_eq_skeleton]; unfold cc2__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _
      (fun y => ⟨_, List.mem_singleton_self _, View.mem_set_unit_zero zero_offsets2 inb_S2000x256_S2000x256_0_0 y⟩),
    View.canon_unit_zero zero_offsets2]
  rw [
    show View.readAt (Elt F) arg1.view (Rect.unit ![0, 0] S2000x256.size inb_S2000x256_S2000x256_0_0).toLoadRect f0
        = View.read (Elt F) arg1.view f0 from View.ld_unit_zero (S := S2000x256) zero_offsets2 _ _,
    show View.readAt (Elt F) arg2.view (Rect.unit ![0, 0] S2000x256.size inb_S2000x256_S2000x256_0_0).toLoadRect f1
        = View.read (Elt F) arg2.view f1 from View.ld_unit_zero (S := S2000x256) zero_offsets2 _ _,
    show View.readAt (Elt F) arg3.view (Rect.unit ![0, 0] S2000x1.size inb_S2000x1_S2000x1_0_0).toLoadRect f2
        = View.read (Elt F) arg3.view f2 from View.ld_unit_zero (S := S2000x1) zero_offsets2 _ _,
    show View.readAt (Elt F) arg4.view (Rect.unit ![0, 0] S256x256.size inb_S256x256_S256x256_0_0).toLoadRect f3
        = View.read (Elt F) arg4.view f3 from View.ld_unit_zero (S := S256x256) zero_offsets2 _ _,
    show View.readAt (Elt F) arg5.view (Rect.unit ![0, 0] S1x256.size inb_S1x256_S1x256_0_0).toLoadRect f4
        = View.read (Elt F) arg5.view f4 from View.ld_unit_zero (S := S1x256) zero_offsets2 _ _]
  rfl

/-! ## What the body finds in each window's current buffer -/

-- the TensorCore's buffer contents when the region is entered
variable (V : (c : Dev nD) → (b : Ref sig .tc) → Buf (Elt F) ((c : Thread nD τ).loc b))

-- An input window holds its block of the array at every point, fetched there or not: an unfetched window's
-- block index has not moved, and the body leaves the block in place.
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-- The output window is written back at every point, so its current buffer is fresh whenever the body runs:
    it holds whatever it held. -/
theorem before2_5 (c : Dev nD) (t : Fin cfg2.N) (d) : (dat2 V c).before 5 t d = d :=
  (dat2 V c).before_out_reset 5 rfl t
    (by
      by_cases h0 : t.val = 0
      · exact .inl h0
      · exact .inr ⟨h0, flush2_5 _⟩) d

/-! ## The obligation -/

/-- The body at any point: the inputs' buffers hold their blocks, the output's anything, so `sound_kernel2`
    applies; the invariant and what the core owes pass through untouched. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)
        ∗ owns (c : Thread nD τ) (st2_4 t) fullShare ((dat2 V c).after 4 t)
        ∗ owns (c : Thread nD τ) (st2_5 t) fullShare ((dat2 V c).after 5 t))) := by
  unfold bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation2 (c : Dev nD) :
    BodyObligation (dat2 (F := F) V c) (defs₀ (F := F)) Variants.none () Set.univ := fun t => by
  rw [bigSep_W2, bigSep_W2]
  exact sound_body2 V c t

end Cert.KernelIdeal.Hand

end
-- ==== Proof.KIData3.lean ====
import proofs.«175804_j6906307412089_2_alg».proof.Proof.Gen.KernelIdeal.Launch
import proofs.«175804_j6906307412089_2_alg».proof.Proof.Gen.KernelIdeal.Skeleton
import proofs.«175804_j6906307412089_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The read-out network's pipeline: its proof data

The last pallas_call has a single grid point.  Its body reads five whole arrays (the pooled features,
the two weight matrices and the two biases) and overwrites the whole output with one function of them.
The data below say exactly that: every input window keeps its block, the output window ends at that
function of the inputs' blocks. -/

-- the TensorCore's buffer contents when the region is entered
variable (V : (c : Dev nD) → (b : Ref sig .tc) → Buf (Elt F) ((c : Thread nD τ).loc b))

/-- Window `w`'s block of its array at grid point `t`, read off the entry contents. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The output block as a function of the five input blocks. -/
def out3 (x0 : Vec F S512x768 .f32) (x1 : Vec F S768x256 .f32) (x2 : Vec F S1x256 .f32) (x3 : Vec F S256x1 .f32) (x4 : Vec F S1x1 .f32) : Vec F S512x1 .f32 :=
  k3_pay1 x0 x1 x2 x3 x4

/-- The proof data on core `c`: arrays as found; inputs left in place, the output block at `out3` of
    the input blocks; the invariant only carries the scoped buffers no window stages and the generator
    register; nothing is owed and every array is held whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t
      = out3 (iblk3 V c 0 t) (iblk3 V c 1 t) (iblk3 V c 2 t) (iblk3 V c 3 t) (iblk3 V c 4 t) := by
  dsimp only [dat3]

end Cert.KernelIdeal.Hand

end
-- ==== Proof.KIRegion3.lean ====
import proofs.«175804_j6906307412089_2_alg».proof.Proof.KIData3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The read-out network's pipeline: the body at every point

First the body as a program on six whole staging memrefs; then what each window's current buffer holds when
the body is called at a grid point; then the obligation the pipeline rule asks for. -/

/-- The offsets of a whole-block access are all zero. -/
theorem zero_offsets3 : (![0, 0] : Fin 2 → Nat) = fun _ => 0 := by
  funext a; fin_cases a <;> rfl

set_option maxHeartbeats 1000000 in
/-- The body on whole staging memrefs: the five inputs' at known contents, the output's at anything.  It loads
    the inputs, loads (and ignores) the output buffer, and stores the result over the whole output block; the
    inputs come back as they were and the output holds `out3` of them: one store that covers the block
    leaves its payload, and a load through the whole block reads the contents. -/
theorem sound_kernel3 (c : Dev nD) (E : Set ℕ) (i : grid3.Coords)
    (arg1 : Memref sig .tc .vmem S512x768 .f32) (harg1 : arg1.IsWhole)
    (arg2 : Memref sig .tc .vmem S768x256 .f32) (harg2 : arg2.IsWhole)
    (arg3 : Memref sig .tc .vmem S1x256 .f32) (harg3 : arg3.IsWhole)
    (arg4 : Memref sig .tc .vmem S256x1 .f32) (harg4 : arg4.IsWhole)
    (arg5 : Memref sig .tc .vmem S1x1 .f32) (harg5 : arg5.IsWhole)
    (arg6 : Memref sig .tc .vmem S512x1 .f32) (harg6 : arg6.IsWhole)
    (x0 : Vec F S512x768 .f32) (x1 : Vec F S768x256 .f32) (x2 : Vec F S1x256 .f32) (x3 : Vec F S256x1 .f32) (x4 : Vec F S1x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out3 x0 x1 x2 x3 x4)) -∗ K ⟨⟩))
      ⊢ wp frame (wpE (defs₀ (F := F)) Variants.none c none) E
          (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _
      (fun y => ⟨_, List.mem_singleton_self _, View.mem_set_unit_zero zero_offsets3 inb_S512x1_S512x1_0_0 y⟩),
    View.canon_unit_zero zero_offsets3]
  rw [
    show View.readAt (Elt F) arg1.view (Rect.unit ![0, 0] S512x768.size inb_S512x768_S512x768_0_0).toLoadRect f0
        = View.read (Elt F) arg1.view f0 from View.ld_unit_zero (S := S512x768) zero_offsets3 _ _,
    show View.readAt (Elt F) arg2.view (Rect.unit ![0, 0] S768x256.size inb_S768x256_S768x256_0_0).toLoadRect f1
        = View.read (Elt F) arg2.view f1 from View.ld_unit_zero (S := S768x256) zero_offsets3 _ _,
    show View.readAt (Elt F) arg3.view (Rect.unit ![0, 0] S1x256.size inb_S1x256_S1x256_0_0).toLoadRect f2
        = View.read (Elt F) arg3.view f2 from View.ld_unit_zero (S := S1x256) zero_offsets3 _ _,
    show View.readAt (Elt F) arg4.view (Rect.unit ![0, 0] S256x1.size inb_S256x1_S256x1_0_0).toLoadRect f3
        = View.read (Elt F) arg4.view f3 from View.ld_unit_zero (S := S256x1) zero_offsets3 _ _,
    show View.readAt (Elt F) arg5.view (Rect.unit ![0, 0] S1x1.size inb_S1x1_S1x1_0_0).toLoadRect f4
        = View.read (Elt F) arg5.view f4 from View.ld_unit_zero (S := S1x1) zero_offsets3 _ _]
  rfl

/-! ## What the body finds in each window's current buffer -/

-- the TensorCore's buffer contents when the region is entered
variable (V : (c : Dev nD) → (b : Ref sig .tc) → Buf (Elt F) ((c : Thread nD τ).loc b))

-- An input window holds its block of the array at every point, fetched there or not: an unfetched window's
-- block index has not moved, and the body leaves the block in place.
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-- The output window is written back at every point, so its current buffer is fresh whenever the body runs:
    it holds whatever it held. -/
theorem before3_5 (c : Dev nD) (t : Fin cfg3.N) (d) : (dat3 V c).before 5 t d = d :=
  (dat3 V c).before_out_reset 5 rfl t
    (by
      by_cases h0 : t.val = 0
      · exact .inl h0
      · exact .inr ⟨h0, flush3_5 _⟩) d

/-! ## The obligation -/

/-- The body at any point: the inputs' buffers hold their blocks, the output's anything, so `sound_kernel3`
    applies; the invariant and what the core owes pass through untouched. -/
theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d))
      ∗ (∃ d, owns (c : Thread nD τ) (st3_4 t) fullShare ((dat3 V c).before 4 t d))
      ∗ (∃ d, owns (c : Thread nD τ) (st3_5 t) fullShare ((dat3 V c).before 5 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare ((dat3 V c).after 0 t)
        ∗ owns (c : Thread nD τ) (st3_1 t) fullShare ((dat3 V c).after 1 t)
        ∗ owns (c : Thread nD τ) (st3_2 t) fullShare ((dat3 V c).after 2 t)
        ∗ owns (c : Thread nD τ) (st3_3 t) fullShare ((dat3 V c).after 3 t)
        ∗ owns (c : Thread nD τ) (st3_4 t) fullShare ((dat3 V c).after 4 t)
        ∗ owns (c : Thread nD τ) (st3_5 t) fullShare ((dat3 V c).after 5 t))) := by
  unfold bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation3 (c : Dev nD) :
    BodyObligation (dat3 (F := F) V c) (defs₀ (F := F)) Variants.none () Set.univ := fun t => by
  rw [bigSep_W3, bigSep_W3]
  exact sound_body3 V c t

end Cert.KernelIdeal.Hand

end
-- ==== Proof.KIRecord.lean ====
import proofs.«175804_j6906307412089_2_alg».proof.Proof.Gen.KernelIdeal.Regions
import Idealize.ShloMosaic.Lib.Pipeline.Frame
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # A kernel region of the program as a segment, once for all four

Every pallas_call of this program is of the simplest kind: all its operands are staged by the pipeline, it has
no semaphore or scratch of its own, it owes no other core anything, and its invariant is only "the scoped
buffers that are no staging buffer, and the generator register".  So the four segment records differ only in
the pipeline index, its proof data and the two valuations of the unscoped buffers around it.  The record is
built here once, from the facts about the data that each region supplies. -/

/-- No core ever owes another anything: no level is assigned. -/
abbrev noLevels : GSem nD τ sig → Finset Unit := fun _ => ∅
abbrev levelZero : GSem nD τ sig → Unit → ℕ := fun _ _ => 0

/-- What travels beside the unscoped buffers through the whole program: the generator register at some
    state, and the core owing nothing. -/
abbrev beside (c : Dev nD) : sProp 𝕄 :=
  iprop((∃ r, prngReg c r) ∗ ∃ W, owes (c : Thread nD τ) (0 : CellTallies nD τ sig Unit) W)

section Record

variable (pd : (p : Fin 4) → (c : Dev nD) → Dat τ (Elt F) Unit ℕ (UR sig nD τ) ℕ (cfgs p) c) (p : Fin 4)
  (lf : Pipeline.LaunchFacts (nD := nD) (τ := τ) cfgs p)
  (Vin Vout : (c : Dev nD) → Valuation τ sig (Elt F))
  (hΦ : ∀ c t, (pd p c).Φ t = Pipeline.ΦA (cfgs p).spec c)
  (hq : ∀ c w, (pd p c).q w = fullShare)
  (howed : ∀ c t, (pd p c).owed t = 0)
  (hrec : ∀ c t, (pd p c).recorded t = Set.univ)
  (hA : ∀ c w, (pd p c).A w = Vin c (Pipeline.arrRef (cfgs p).spec w))
  (hF : ∀ c w, (pd p c).arrAt w (cfgs p).N = Vout c (Pipeline.arrRef (cfgs p).spec w))
  (hrest : ∀ c (b : Ref sig .tc), b ∉ Finset.univ.image (Pipeline.arrRef (cfgs p).spec) → Vout c b = Vin c b)
  (hbody : ∀ c, BodyObligationLoose (pd p c) (defs₀ (F := F)) Variants.none () Set.univ)

set_option backward.isDefEq.respectTransparency.types false in
/-- Region `p` as a segment entered with every unscoped buffer at `Vin` and left with them at `Vout`: the
    windows' arrays are split out of the unscoped buffers at the entry and put back, at what the write-backs
    left, at the exit; the generator register goes into the invariant and comes back; nothing is owed. -/
def regionRecord : Pipeline.RegionSeg (pcfgs (F := F)) adm pd () defs₀ Variants.none noLevels levelZero p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ noLevels levelZero p howed
  pre c := iprop(StableHlo.held (c : Thread nD τ) (Pipeline.ucRefs τ sig) (Vin c) ∗ beside c)
  post c := iprop(StableHlo.held (c : Thread nD τ) (Pipeline.ucRefs τ sig) (Vout c) ∗ beside c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm pd lf.win lf.arr_whole c
      ((pd p c).share_full (hq c)) (fun b => Vin c b) (hA c)
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      rw [howed c]
      icases Howes with ⟨%W, Howes⟩; iexists W; isplitr
      · ipureintro; intro x _; exact Or.inl (by rw [hrec c]; trivial)
      iexact Howes
    isplitl [Hprng]; · iexact Hprng
    iexact Hrest
  hin c := by
    rw [hΦ c]; unfold Pipeline.ΦA
    iintro ⟨Hprng, -, Hscoped⟩
    isplitl [Hscoped]; · iexact Hscoped
    iexact Hprng
  hout c := by
    rw [Pipeline.ownSems0_none, hΦ c]; unfold Pipeline.ΦA
    iintro ⟨Hscoped, Hprng⟩
    isplitl [Hprng]; · iexact Hprng
    isplitr; · iempintro
    iexact Hscoped
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => Vin c b) (fun b => Vout c b) ((pd p c).arrAt · (cfgs p).N) (hF c) (hrest c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    rw [howed c]
    icases Howes with ⟨%W, -, Howes⟩; iexists W; iexact Howes

end Record

end Cert.KernelIdeal.Hand

end
-- ==== Proof.KIRun.lean ====
import proofs.«175804_j6906307412089_2_alg».proof.Proof.KIRegion0
import proofs.«175804_j6906307412089_2_alg».proof.Proof.KIRegion1
import proofs.«175804_j6906307412089_2_alg».proof.Proof.KIRegion2
import proofs.«175804_j6906307412089_2_alg».proof.Proof.KIRegion3
import proofs.«175804_j6906307412089_2_alg».proof.Proof.KIRecord

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

variable {F : FTy → Type} [FloatOps F]

local notation "𝕄" => MT nD τ sig Unit (Elt F) ℕ (UR sig nD τ) ℕ

/-! # The run of the whole program

@main is nine items: a stretch of host operations, then four times a kernel region followed by a stretch of
host operations.  Between two items every unscoped buffer of the TensorCore is held at a known valuation:
the launch memory, then what each host stretch computes from the valuation before it, then — after a region —
the same valuation with the region's output array replaced by the fold of the pipeline's write-backs.  The
regions are the segment records of the generic construction, the host stretches the generated ones. -/

variable (m : (ℓ : Loc nD τ sig) → Buf (Elt F) ℓ)

/-- A valuation of the unscoped buffers read at the TensorCore's references: what a region's proof data take. -/
abbrev atTc (W : Dev nD → Valuation τ sig (Elt F)) :
    (c : Dev nD) → (b : Ref sig .tc) → Buf (Elt F) ((c : Thread nD τ).loc b) := fun c b => W c b

/-! ## The valuations between the items, written without any unknown -/

abbrev bufs1 (c : Dev nD) : Valuation τ sig (Elt F) := V1 m c
def bufs2 (c : Dev nD) : Valuation τ sig (Elt F) :=
  Function.update (bufs1 m c) main_v44 ((dat0 (atTc (bufs1 m)) c).arrAt 5 cfg0.N)
abbrev bufs3 (c : Dev nD) : Valuation τ sig (Elt F) := StableHlo.after hostOps1 (bufs2 m c)
def bufs4 (c : Dev nD) : Valuation τ sig (Elt F) :=
  Function.update (bufs3 m c) main_v60 ((dat1 (atTc (bufs3 m)) c).arrAt 5 cfg1.N)
abbrev bufs5 (c : Dev nD) : Valuation τ sig (Elt F) := StableHlo.after hostOps2 (bufs4 m c)
def bufs6 (c : Dev nD) : Valuation τ sig (Elt F) :=
  Function.update (bufs5 m c) main_v76 ((dat2 (atTc (bufs5 m)) c).arrAt 5 cfg2.N)
abbrev bufs7 (c : Dev nD) : Valuation τ sig (Elt F) := StableHlo.after hostOps3 (bufs6 m c)
def bufs8 (c : Dev nD) : Valuation τ sig (Elt F) :=
  Function.update (bufs7 m c) main_v106 ((dat3 (atTc (bufs7 m)) c).arrAt 5 cfg3.N)

/-- What the four regions leave in their output arrays, as the generated valuations want it: read off the
    valuations above. -/
def outs : Outs (F := F) := fun J r c =>
  match J with
  | 2 => bufs2 m c r
  | 4 => bufs4 m c r
  | 6 => bufs6 m c r
  | _ => bufs8 m c r

/-! The generated valuations at these contents are the ones above. -/

theorem V2_eq (c : Dev nD) : V2 m (outs m) c = bufs2 m c := by
  show Function.update (V1 m c) _ (bufs2 m c main_v44) = bufs2 m c
  unfold bufs2; rw [Function.update_self]
theorem V3_eq (c : Dev nD) : V3 m (outs m) c = bufs3 m c := by
  show StableHlo.after hostOps1 (V2 m (outs m) c) = _; rw [V2_eq]
theorem V4_eq (c : Dev nD) : V4 m (outs m) c = bufs4 m c := by
  show Function.update (V3 m (outs m) c) _ (bufs4 m c main_v60) = bufs4 m c
  rw [V3_eq]; unfold bufs4; rw [Function.update_self]
theorem V5_eq (c : Dev nD) : V5 m (outs m) c = bufs5 m c := by
  show StableHlo.after hostOps2 (V4 m (outs m) c) = _; rw [V4_eq]
theorem V6_eq (c : Dev nD) : V6 m (outs m) c = bufs6 m c := by
  show Function.update (V5 m (outs m) c) _ (bufs6 m c main_v76) = bufs6 m c
  rw [V5_eq]; unfold bufs6; rw [Function.update_self]
theorem V7_eq (c : Dev nD) : V7 m (outs m) c = bufs7 m c := by
  show StableHlo.after hostOps3 (V6 m (outs m) c) = _; rw [V6_eq]
theorem V8_eq (c : Dev nD) : V8 m (outs m) c = bufs8 m c := by
  show Function.update (V7 m (outs m) c) _ (bufs8 m c main_v106) = bufs8 m c
  rw [V7_eq]; unfold bufs8; rw [Function.update_self]

/-! ## Each region's entry contents, and what it leaves -/

abbrev entryBufs0 : (c : Dev nD) → (b : Ref sig .tc) → Buf (Elt F) ((c : Thread nD τ).loc b) := atTc (V1 m)
abbrev entryBufs1 : (c : Dev nD) → (b : Ref sig .tc) → Buf (Elt F) ((c : Thread nD τ).loc b) := atTc (V3 m (outs m))
abbrev entryBufs2 : (c : Dev nD) → (b : Ref sig .tc) → Buf (Elt F) ((c : Thread nD τ).loc b) := atTc (V5 m (outs m))
abbrev entryBufs3 : (c : Dev nD) → (b : Ref sig .tc) → Buf (Elt F) ((c : Thread nD τ).loc b) := atTc (V7 m (outs m))

theorem entry0 : entryBufs0 m = atTc (bufs1 m) := rfl
theorem entry1 : entryBufs1 m = atTc (bufs3 m) := by funext c b; show V3 m (outs m) c b = _; rw [V3_eq]
theorem entry2 : entryBufs2 m = atTc (bufs5 m) := by funext c b; show V5 m (outs m) c b = _; rw [V5_eq]
theorem entry3 : entryBufs3 m = atTc (bufs7 m) := by funext c b; show V7 m (outs m) c b = _; rw [V7_eq]

/-- What region 0 leaves in its output array: the fold of its write-backs from the valuation before it. -/
theorem outs_2 (c : Dev nD) : outs m 2 main_v44 c = (dat0 (entryBufs0 m) c).arrAt 5 cfg0.N := by
  show bufs2 m c main_v44 = _; unfold bufs2; rw [Function.update_self]
theorem outs_4 (c : Dev nD) : outs m 4 main_v60 c = (dat1 (entryBufs1 m) c).arrAt 5 cfg1.N := by
  rw [entry1]; show bufs4 m c main_v60 = _; unfold bufs4; rw [Function.update_self]
theorem outs_6 (c : Dev nD) : outs m 6 main_v76 c = (dat2 (entryBufs2 m) c).arrAt 5 cfg2.N := by
  rw [entry2]; show bufs6 m c main_v76 = _; unfold bufs6; rw [Function.update_self]
theorem outs_8 (c : Dev nD) : outs m 8 main_v106 c = (dat3 (entryBufs3 m) c).arrAt 5 cfg3.N := by
  rw [entry3]; show bufs8 m c main_v106 = _; unfold bufs8; rw [Function.update_self]

set_option maxHeartbeats 4000000 in
/-- At region 0's exit every array of its windows holds what the valuation after it says: an input array is
    never written and is not the output's; the output array holds the fold of the write-backs. -/
theorem exit0 (c : Dev nD) (w : Fin cfg0.W) :
    (dat0 (entryBufs0 m) c).arrAt w cfg0.N = V2 m (outs m) c (Pipeline.arrRef spec0 w) := by
  match w with
  | ⟨0, _⟩ =>
    show (dat0 (entryBufs0 m) c).arrAt 0 cfg0.N = V2 m (outs m) c main_v42
    rw [(dat0 (entryBufs0 m) c).arrAt_in 0 rfl, A_eq0]
    exact (V2_of m (outs m) c main_v42 (by decide)).symm
  | ⟨1, _⟩ =>
    show (dat0 (entryBufs0 m) c).arrAt 1 cfg0.N = V2 m (outs m) c main_arg0
    rw [(dat0 (entryBufs0 m) c).arrAt_in 1 rfl, A_eq0]
    exact (V2_of m (outs m) c main_arg0 (by decide)).symm
  | ⟨2, _⟩ =>
    show (dat0 (entryBufs0 m) c).arrAt 2 cfg0.N = V2 m (outs m) c main_v14
    rw [(dat0 (entryBufs0 m) c).arrAt_in 2 rfl, A_eq0]
    exact (V2_of m (outs m) c main_v14 (by decide)).symm
  | ⟨3, _⟩ =>
    show (dat0 (entryBufs0 m) c).arrAt 3 cfg0.N = V2 m (outs m) c main_arg5
    rw [(dat0 (entryBufs0 m) c).arrAt_in 3 rfl, A_eq0]
    exact (V2_of m (outs m) c main_arg5 (by decide)).symm
  | ⟨4, _⟩ =>
    show (dat0 (entryBufs0 m) c).arrAt 4 cfg0.N = V2 m (outs m) c main_v43
    rw [(dat0 (entryBufs0 m) c).arrAt_in 4 rfl, A_eq0]
    exact (V2_of m (outs m) c main_v43 (by decide)).symm
  | ⟨5, _⟩ =>
    show (dat0 (entryBufs0 m) c).arrAt 5 cfg0.N = V2 m (outs m) c main_v44
    rw [← outs_2 m c]
    simp only [V2, Function.update_self]

/-- and every other unscoped buffer holds what it held at the entry. -/
theorem rest0 (c : Dev nD) (b : Ref sig .tc) (hb : b ∉ Finset.univ.image (Pipeline.arrRef spec0)) :
    V2 m (outs m) c b = V1 m c b :=
  V2_of m (outs m) c b fun h => hb (by
    rw [List.mem_singleton] at h; subst h
    exact Finset.mem_image.mpr ⟨5, Finset.mem_univ _, rfl⟩)

set_option maxHeartbeats 4000000 in
/-- At region 1's exit every array of its windows holds what the valuation after it says: an input array is
    never written and is not the output's; the output array holds the fold of the write-backs. -/
theorem exit1 (c : Dev nD) (w : Fin cfg1.W) :
    (dat1 (entryBufs1 m) c).arrAt w cfg1.N = V4 m (outs m) c (Pipeline.arrRef spec1 w) := by
  match w with
  | ⟨0, _⟩ =>
    show (dat1 (entryBufs1 m) c).arrAt 0 cfg1.N = V4 m (outs m) c main_v58
    rw [(dat1 (entryBufs1 m) c).arrAt_in 0 rfl, A_eq1]
    exact (V4_of m (outs m) c main_v58 (by decide)).symm
  | ⟨1, _⟩ =>
    show (dat1 (entryBufs1 m) c).arrAt 1 cfg1.N = V4 m (outs m) c main_v44
    rw [(dat1 (entryBufs1 m) c).arrAt_in 1 rfl, A_eq1]
    exact (V4_of m (outs m) c main_v44 (by decide)).symm
  | ⟨2, _⟩ =>
    show (dat1 (entryBufs1 m) c).arrAt 2 cfg1.N = V4 m (outs m) c main_v14
    rw [(dat1 (entryBufs1 m) c).arrAt_in 2 rfl, A_eq1]
    exact (V4_of m (outs m) c main_v14 (by decide)).symm
  | ⟨3, _⟩ =>
    show (dat1 (entryBufs1 m) c).arrAt 3 cfg1.N = V4 m (outs m) c main_arg7
    rw [(dat1 (entryBufs1 m) c).arrAt_in 3 rfl, A_eq1]
    exact (V4_of m (outs m) c main_arg7 (by decide)).symm
  | ⟨4, _⟩ =>
    show (dat1 (entryBufs1 m) c).arrAt 4 cfg1.N = V4 m (outs m) c main_v59
    rw [(dat1 (entryBufs1 m) c).arrAt_in 4 rfl, A_eq1]
    exact (V4_of m (outs m) c main_v59 (by decide)).symm
  | ⟨5, _⟩ =>
    show (dat1 (entryBufs1 m) c).arrAt 5 cfg1.N = V4 m (outs m) c main_v60
    rw [← outs_4 m c]
    simp only [V4, Function.update_self]

/-- and every other unscoped buffer holds what it held at the entry. -/
theorem rest1 (c : Dev nD) (b : Ref sig .tc) (hb : b ∉ Finset.univ.image (Pipeline.arrRef spec1)) :
    V4 m (outs m) c b = V3 m (outs m) c b :=
  V4_of m (outs m) c b fun h => hb (by
    rw [List.mem_singleton] at h; subst h
    exact Finset.mem_image.mpr ⟨5, Finset.mem_univ _, rfl⟩)

set_option maxHeartbeats 4000000 in
/-- At region 2's exit every array of its windows holds what the valuation after it says: an input array is
    never written and is not the output's; the output array holds the fold of the write-backs. -/
theorem exit2 (c : Dev nD) (w : Fin cfg2.W) :
    (dat2 (entryBufs2 m) c).arrAt w cfg2.N = V6 m (outs m) c (Pipeline.arrRef spec2 w) := by
  match w with
  | ⟨0, _⟩ =>
    show (dat2 (entryBufs2 m) c).arrAt 0 cfg2.N = V6 m (outs m) c main_v74
    rw [(dat2 (entryBufs2 m) c).arrAt_in 0 rfl, A_eq2]
    exact (V6_of m (outs m) c main_v74 (by decide)).symm
  | ⟨1, _⟩ =>
    show (dat2 (entryBufs2 m) c).arrAt 1 cfg2.N = V6 m (outs m) c main_v60
    rw [(dat2 (entryBufs2 m) c).arrAt_in 1 rfl, A_eq2]
    exact (V6_of m (outs m) c main_v60 (by decide)).symm
  | ⟨2, _⟩ =>
    show (dat2 (entryBufs2 m) c).arrAt 2 cfg2.N = V6 m (outs m) c main_v14
    rw [(dat2 (entryBufs2 m) c).arrAt_in 2 rfl, A_eq2]
    exact (V6_of m (outs m) c main_v14 (by decide)).symm
  | ⟨3, _⟩ =>
    show (dat2 (entryBufs2 m) c).arrAt 3 cfg2.N = V6 m (outs m) c main_arg9
    rw [(dat2 (entryBufs2 m) c).arrAt_in 3 rfl, A_eq2]
    exact (V6_of m (outs m) c main_arg9 (by decide)).symm
  | ⟨4, _⟩ =>
    show (dat2 (entryBufs2 m) c).arrAt 4 cfg2.N = V6 m (outs m) c main_v75
    rw [(dat2 (entryBufs2 m) c).arrAt_in 4 rfl, A_eq2]
    exact (V6_of m (outs m) c main_v75 (by decide)).symm
  | ⟨5, _⟩ =>
    show (dat2 (entryBufs2 m) c).arrAt 5 cfg2.N = V6 m (outs m) c main_v76
    rw [← outs_6 m c]
    simp only [V6, Function.update_self]

/-- and every other unscoped buffer holds what it held at the entry. -/
theorem rest2 (c : Dev nD) (b : Ref sig .tc) (hb : b ∉ Finset.univ.image (Pipeline.arrRef spec2)) :
    V6 m (outs m) c b = V5 m (outs m) c b :=
  V6_of m (outs m) c b fun h => hb (by
    rw [List.mem_singleton] at h; subst h
    exact Finset.mem_image.mpr ⟨5, Finset.mem_univ _, rfl⟩)

set_option maxHeartbeats 4000000 in
/-- At region 3's exit every array of its windows holds what the valuation after it says: an input array is
    never written and is not the output's; the output array holds the fold of the write-backs. -/
theorem exit3 (c : Dev nD) (w : Fin cfg3.W) :
    (dat3 (entryBufs3 m) c).arrAt w cfg3.N = V8 m (outs m) c (Pipeline.arrRef spec3 w) := by
  match w with
  | ⟨0, _⟩ =>
    show (dat3 (entryBufs3 m) c).arrAt 0 cfg3.N = V8 m (outs m) c main_v103
    rw [(dat3 (entryBufs3 m) c).arrAt_in 0 rfl, A_eq3]
    exact (V8_of m (outs m) c main_v103 (by decide)).symm
  | ⟨1, _⟩ =>
    show (dat3 (entryBufs3 m) c).arrAt 1 cfg3.N = V8 m (outs m) c main_arg11
    rw [(dat3 (entryBufs3 m) c).arrAt_in 1 rfl, A_eq3]
    exact (V8_of m (outs m) c main_arg11 (by decide)).symm
  | ⟨2, _⟩ =>
    show (dat3 (entryBufs3 m) c).arrAt 2 cfg3.N = V8 m (outs m) c main_v104
    rw [(dat3 (entryBufs3 m) c).arrAt_in 2 rfl, A_eq3]
    exact (V8_of m (outs m) c main_v104 (by decide)).symm
  | ⟨3, _⟩ =>
    show (dat3 (entryBufs3 m) c).arrAt 3 cfg3.N = V8 m (outs m) c main_arg13
    rw [(dat3 (entryBufs3 m) c).arrAt_in 3 rfl, A_eq3]
    exact (V8_of m (outs m) c main_arg13 (by decide)).symm
  | ⟨4, _⟩ =>
    show (dat3 (entryBufs3 m) c).arrAt 4 cfg3.N = V8 m (outs m) c main_v105
    rw [(dat3 (entryBufs3 m) c).arrAt_in 4 rfl, A_eq3]
    exact (V8_of m (outs m) c main_v105 (by decide)).symm
  | ⟨5, _⟩ =>
    show (dat3 (entryBufs3 m) c).arrAt 5 cfg3.N = V8 m (outs m) c main_v106
    rw [← outs_8 m c]
    simp only [V8, Function.update_self]

/-- and every other unscoped buffer holds what it held at the entry. -/
theorem rest3 (c : Dev nD) (b : Ref sig .tc) (hb : b ∉ Finset.univ.image (Pipeline.arrRef spec3)) :
    V8 m (outs m) c b = V7 m (outs m) c b :=
  V8_of m (outs m) c b fun h => hb (by
    rw [List.mem_singleton] at h; subst h
    exact Finset.mem_image.mpr ⟨5, Finset.mem_univ _, rfl⟩)

/-! ## The regions' proof data and segment records -/

/-- Every pipeline's proof data, each at its region's entry contents (a literal match on the pipeline, so
    that the data of a numbered pipeline reduce to the region's own). -/
def regionData : (p : Fin 4) → (c : Dev nD) → Dat τ (Elt F) Unit ℕ (UR sig nD τ) ℕ (cfgs p) c
  | ⟨0, _⟩ => fun c => dat0 (entryBufs0 m) c
  | ⟨1, _⟩ => fun c => dat1 (entryBufs1 m) c
  | ⟨2, _⟩ => fun c => dat2 (entryBufs2 m) c
  | ⟨3, _⟩ => fun c => dat3 (entryBufs3 m) c

/-- Region 0 as a segment, between the valuations before and after it. -/
def region0 : RegionSeg (pcfgs (F := F)) adm (regionData m) () defs₀ Variants.none noLevels levelZero 0 :=
  regionRecord (regionData m) 0 launch0 (V1 m) (V2 m (outs m))
    (fun _ _ => rfl) (fun _ _ => rfl) (fun _ _ => rfl) (fun _ _ => rfl)
    (fun c w => A_eq0 (entryBufs0 m) c w) (exit0 m) (rest0 m)
    (fun c => (body_obligation0 (entryBufs0 m) c).loose)

/-- Region 1 as a segment, between the valuations before and after it. -/
def region1 : RegionSeg (pcfgs (F := F)) adm (regionData m) () defs₀ Variants.none noLevels levelZero 1 :=
  regionRecord (regionData m) 1 launch1 (V3 m (outs m)) (V4 m (outs m))
    (fun _ _ => rfl) (fun _ _ => rfl) (fun _ _ => rfl) (fun _ _ => rfl)
    (fun c w => A_eq1 (entryBufs1 m) c w) (exit1 m) (rest1 m)
    (fun c => (body_obligation1 (entryBufs1 m) c).loose)

/-- Region 2 as a segment, between the valuations before and after it. -/
def region2 : RegionSeg (pcfgs (F := F)) adm (regionData m) () defs₀ Variants.none noLevels levelZero 2 :=
  regionRecord (regionData m) 2 launch2 (V5 m (outs m)) (V6 m (outs m))
    (fun _ _ => rfl) (fun _ _ => rfl) (fun _ _ => rfl) (fun _ _ => rfl)
    (fun c w => A_eq2 (entryBufs2 m) c w) (exit2 m) (rest2 m)
    (fun c => (body_obligation2 (entryBufs2 m) c).loose)

/-- Region 3 as a segment, between the valuations before and after it. -/
def region3 : RegionSeg (pcfgs (F := F)) adm (regionData m) () defs₀ Variants.none noLevels levelZero 3 :=
  regionRecord (regionData m) 3 launch3 (V7 m (outs m)) (V8 m (outs m))
    (fun _ _ => rfl) (fun _ _ => rfl) (fun _ _ => rfl) (fun _ _ => rfl)
    (fun c w => A_eq3 (entryBufs3 m) c w) (exit3 m) (rest3 m)
    (fun c => (body_obligation3 (entryBufs3 m) c).loose)

/-! ## The run -/

/-- The last thread state, regrouped: the buffers and the generator register, beside the core owing nothing. -/
theorem last_state (c : Dev nD) :
    iprop(StableHlo.held (c : Thread nD τ) (Pipeline.ucRefs τ sig) (V9 m (outs m) c) ∗ beside c)
      ⊢ (iprop((StableHlo.held (c : Thread nD τ) (Pipeline.ucRefs τ sig) (V9 m (outs m) c) ∗ ∃ r, prngReg c r)
          ∗ ∃ W, owes (c : Thread nD τ) (0 : CellTallies nD τ sig Unit) W) : sProp 𝕄) := by
  iintro ⟨Hh, Hp, Ho⟩
  isplitl [Hh Hp]
  · isplitl [Hh]; · iexact Hh
    iexact Hp
  iexact Ho

set_option backward.isDefEq.respectTransparency.types false in
/-- Every weakly fair execution of @main from memory `m` with zero counters terminates without a fault; at the
    end the result buffer holds what the last valuation says and every argument array is as launched. -/
theorem run_val (ρ : Dev nD → PrngReg) :
    θ_run defs (onTc (τ := τ) (main (F := F))) ⟨m, fun _ => 0, ρ⟩ (fun r => ∀ c : Dev nD,
      r.2.mem ((c.tc : Thread nD τ).loc main_v107) = V9 m (outs m) c main_v107
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) adm (regionData m) () cellOf_inj emb₁ defs₀ Variants.none noLevels levelZero m ρ main
    (segs m (outs m) Variants.none noLevels levelZero (fun _ => beside) () (regionData m) (region0 m) (region1 m) (region2 m) (region3 m))
    (fun c Q => by
      rewrite [main_chain c, Seg.run_eq_chain,
        show (segs m (outs m) Variants.none noLevels levelZero (fun _ => beside) () (regionData m) (region0 m) (region1 m) (region2 m) (region3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    (fun _ => 0) (fun _ _ => rfl) (fun _ => iprop(emp))
    (initOf (Pipeline.cells cfgs cellOf_inj) (Pipeline.launchToks cfgs cellOf_inj))
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => iprop(StableHlo.held (c : Thread nD τ) (Pipeline.ucRefs τ sig) (V9 m (outs m) c) ∗ ∃ r, prngReg c r))
    (hch := fun c => ⟨.rfl, .rfl, .rfl, .rfl, .rfl, .rfl, .rfl, .rfl, .rfl, last_state m c⟩)
    (hinit := ?_)
    (QY := fun c s => s.mem ((c.tc : Thread nD τ).loc main_v107) = V9 m (outs m) c main_v107
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14))
    (hfin := fun c s' => ?_) (hQ := fun _ h => h)
  · -- the launch: each core's unscoped buffers are held at the launch memory; its generator register and its
    -- owing nothing ride along
    refine Pipeline.initEach noLevels levelZero fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, Ho, -, Hp, -⟩, -⟩
    imodintro
    isplitl [Hh]; · iexact Hh
    isplitl [Hp]; · iexists _; iexact Hp
    iexists ∅; iexact Ho
  · -- the end: the result buffer and each argument's buffer read off the last valuation
    unfold StableHlo.held
    iintro ⟨⟨Hh, -⟩, HSI⟩
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imodintro
    isplitr
    · ipureintro
      exact ⟨h (Proc.devRef .tc main_v107) (Finset.mem_filter.mpr ⟨StableHlo.devRef_mem_tcRefs main_v107, by decide⟩),
        (h (Proc.devRef .tc main_arg0) (Finset.mem_filter.mpr ⟨StableHlo.devRef_mem_tcRefs main_arg0, by decide⟩)).trans (V9_main_arg0 m (outs m) c),
        (h (Proc.devRef .tc main_arg1) (Finset.mem_filter.mpr ⟨StableHlo.devRef_mem_tcRefs main_arg1, by decide⟩)).trans (V9_main_arg1 m (outs m) c),
        (h (Proc.devRef .tc main_arg2) (Finset.mem_filter.mpr ⟨StableHlo.devRef_mem_tcRefs main_arg2, by decide⟩)).trans (V9_main_arg2 m (outs m) c),
        (h (Proc.devRef .tc main_arg3) (Finset.mem_filter.mpr ⟨StableHlo.devRef_mem_tcRefs main_arg3, by decide⟩)).trans (V9_main_arg3 m (outs m) c),
        (h (Proc.devRef .tc main_arg4) (Finset.mem_filter.mpr ⟨StableHlo.devRef_mem_tcRefs main_arg4, by decide⟩)).trans (V9_main_arg4 m (outs m) c),
        (h (Proc.devRef .tc main_arg5) (Finset.mem_filter.mpr ⟨StableHlo.devRef_mem_tcRefs main_arg5, by decide⟩)).trans (V9_main_arg5 m (outs m) c),
        (h (Proc.devRef .tc main_arg6) (Finset.mem_filter.mpr ⟨StableHlo.devRef_mem_tcRefs main_arg6, by decide⟩)).trans (V9_main_arg6 m (outs m) c),
        (h (Proc.devRef .tc main_arg7) (Finset.mem_filter.mpr ⟨StableHlo.devRef_mem_tcRefs main_arg7, by decide⟩)).trans (V9_main_arg7 m (outs m) c),
        (h (Proc.devRef .tc main_arg8) (Finset.mem_filter.mpr ⟨StableHlo.devRef_mem_tcRefs main_arg8, by decide⟩)).trans (V9_main_arg8 m (outs m) c),
        (h (Proc.devRef .tc main_arg9) (Finset.mem_filter.mpr ⟨StableHlo.devRef_mem_tcRefs main_arg9, by decide⟩)).trans (V9_main_arg9 m (outs m) c),
        (h (Proc.devRef .tc main_arg10) (Finset.mem_filter.mpr ⟨StableHlo.devRef_mem_tcRefs main_arg10, by decide⟩)).trans (V9_main_arg10 m (outs m) c),
        (h (Proc.devRef .tc main_arg11) (Finset.mem_filter.mpr ⟨StableHlo.devRef_mem_tcRefs main_arg11, by decide⟩)).trans (V9_main_arg11 m (outs m) c),
        (h (Proc.devRef .tc main_arg12) (Finset.mem_filter.mpr ⟨StableHlo.devRef_mem_tcRefs main_arg12, by decide⟩)).trans (V9_main_arg12 m (outs m) c),
        (h (Proc.devRef .tc main_arg13) (Finset.mem_filter.mpr ⟨StableHlo.devRef_mem_tcRefs main_arg13, by decide⟩)).trans (V9_main_arg13 m (outs m) c),
        (h (Proc.devRef .tc main_arg14) (Finset.mem_filter.mpr ⟨StableHlo.devRef_mem_tcRefs main_arg14, by decide⟩)).trans (V9_main_arg14 m (outs m) c)⟩
    · iexact HSI

/-- The frame: every weakly fair execution terminates without a fault and leaves the argument arrays as
    launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_val m ρ)

end Cert.KernelIdeal.Hand

end
-- ==== Proof.KData0.lean ====
import proofs.«175804_j6906307412089_2_alg».proof.Proof.Gen.Kernel.Launch
import proofs.«175804_j6906307412089_2_alg».proof.Proof.Gen.Kernel.Skeleton
import proofs.«175804_j6906307412089_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The first dense layer's pipeline: its proof data

The first pallas_call walks 25 row blocks of 2000 rows.  At each point the body reads five staged
blocks (the aggregated features, the node features, the inverse degrees, the weight matrix and the
bias row) and overwrites the output block with one function of them.  The data below say exactly
that: every input window keeps its block, the output window ends at that function of the inputs'
blocks. -/

-- the TensorCore's buffer contents when the region is entered
variable (V : (c : Dev nD) → (b : Ref sig .tc) → Buf (Elt F) ((c : Thread nD τ).loc b))

/-- Window `w`'s block of its array at grid point `t`, read off the entry contents. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The output block as a function of the five input blocks. -/
def out0 (x0 : Vec F S2000x64 .f32) (x1 : Vec F S2000x64 .f32) (x2 : Vec F S2000x1 .f32)
    (x3 : Vec F S64x256 .f32) (x4 : Vec F S1x256 .f32) : Vec F S2000x256 .bf16 :=
  k0_pay1 x0 x1 x2 x3 x4

/-- The proof data on core `c`: arrays as found; inputs left in place, the output block at `out0` of
    the input blocks; the invariant only carries the scoped buffers no window stages and the generator
    register; nothing is owed and every array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t
      = out0 (iblk0 V c 0 t) (iblk0 V c 1 t) (iblk0 V c 2 t) (iblk0 V c 3 t) (iblk0 V c 4 t) := by
  dsimp only [dat0]

end Cert.Kernel.Hand

end
-- ==== Proof.KRegion0.lean ====
import proofs.«175804_j6906307412089_2_alg».proof.Proof.KData0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first dense layer's pipeline: the body at every point

First the body as a program on six whole staging memrefs; then what each window's current buffer holds when
the body is called at a grid point; then the obligation the pipeline rule asks for. -/

/-- The offsets of a whole-block access are all zero. -/
theorem zero_offsets0 : (![0, 0] : Fin 2 → Nat) = fun _ => 0 := by
  funext a; fin_cases a <;> rfl

set_option maxHeartbeats 1000000 in
/-- The body on whole staging memrefs: the five inputs' at known contents, the output's at anything.  It loads
    the inputs, loads (and ignores) the output buffer, and stores the result over the whole output block; the
    inputs come back as they were and the output holds `out0` of them: one store that covers the block
    leaves its payload, and a load through the whole block reads the contents. -/
theorem sound_kernel0 (c : Dev nD) (E : Set ℕ) (i : grid0.Coords)
    (arg1 : Memref sig .tc .vmem S2000x64 .f32) (harg1 : arg1.IsWhole)
    (arg2 : Memref sig .tc .vmem S2000x64 .f32) (harg2 : arg2.IsWhole)
    (arg3 : Memref sig .tc .vmem S2000x1 .f32) (harg3 : arg3.IsWhole)
    (arg4 : Memref sig .tc .vmem S64x256 .f32) (harg4 : arg4.IsWhole)
    (arg5 : Memref sig .tc .vmem S1x256 .f32) (harg5 : arg5.IsWhole)
    (arg6 : Memref sig .tc .vmem S2000x256 .bf16) (harg6 : arg6.IsWhole)
    (x0 : Vec F S2000x64 .f32) (x1 : Vec F S2000x64 .f32) (x2 : Vec F S2000x1 .f32) (x3 : Vec F S64x256 .f32) (x4 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out0 x0 x1 x2 x3 x4)) -∗ K ⟨⟩))
      ⊢ wp frame (wpE (defs₀ (F := F)) Variants.none c none) E
          (cc0__linear_kernel i arg1 harg1 arg2 harg2 arg3 harg3 arg4 harg4 arg5 harg5 arg6 harg6) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _
      (fun y => ⟨_, List.mem_singleton_self _, View.mem_set_unit_zero zero_offsets0 inb_S2000x256_S2000x256_0_0 y⟩),
    View.canon_unit_zero zero_offsets0]
  rw [
    show View.readAt (Elt F) arg1.view (Rect.unit ![0, 0] S2000x64.size inb_S2000x64_S2000x64_0_0).toLoadRect f0
        = View.read (Elt F) arg1.view f0 from View.ld_unit_zero (S := S2000x64) zero_offsets0 _ _,
    show View.readAt (Elt F) arg2.view (Rect.unit ![0, 0] S2000x64.size inb_S2000x64_S2000x64_0_0).toLoadRect f1
        = View.read (Elt F) arg2.view f1 from View.ld_unit_zero (S := S2000x64) zero_offsets0 _ _,
    show View.readAt (Elt F) arg3.view (Rect.unit ![0, 0] S2000x1.size inb_S2000x1_S2000x1_0_0).toLoadRect f2
        = View.read (Elt F) arg3.view f2 from View.ld_unit_zero (S := S2000x1) zero_offsets0 _ _,
    show View.readAt (Elt F) arg4.view (Rect.unit ![0, 0] S64x256.size inb_S64x256_S64x256_0_0).toLoadRect f3
        = View.read (Elt F) arg4.view f3 from View.ld_unit_zero (S := S64x256) zero_offsets0 _ _,
    show View.readAt (Elt F) arg5.view (Rect.unit ![0, 0] S1x256.size inb_S1x256_S1x256_0_0).toLoadRect f4
        = View.read (Elt F) arg5.view f4 from View.ld_unit_zero (S := S1x256) zero_offsets0 _ _]
  rfl

/-! ## What the body finds in each window's current buffer -/

-- the TensorCore's buffer contents when the region is entered
variable (V : (c : Dev nD) → (b : Ref sig .tc) → Buf (Elt F) ((c : Thread nD τ).loc b))

-- An input window holds its block of the array at every point, fetched there or not: an unfetched window's
-- block index has not moved, and the body leaves the block in place.
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- The output window is written back at every point, so its current buffer is fresh whenever the body runs:
    it holds whatever it held. -/
theorem before0_5 (c : Dev nD) (t : Fin cfg0.N) (d) : (dat0 V c).before 5 t d = d :=
  (dat0 V c).before_out_reset 5 rfl t
    (by
      by_cases h0 : t.val = 0
      · exact .inl h0
      · exact .inr ⟨h0, flush0_5 _⟩) d

/-! ## The obligation -/

/-- The body at any point: the inputs' buffers hold their blocks, the output's anything, so `sound_kernel0`
    applies; the invariant and what the core owes pass through untouched. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t)
        ∗ owns (c : Thread nD τ) (st0_4 t) fullShare ((dat0 V c).after 4 t)
        ∗ owns (c : Thread nD τ) (st0_5 t) fullShare ((dat0 V c).after 5 t))) := by
  unfold bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.KData1.lean ====
import proofs.«175804_j6906307412089_2_alg».proof.Proof.Gen.Kernel.Launch
import proofs.«175804_j6906307412089_2_alg».proof.Proof.Gen.Kernel.Skeleton
import proofs.«175804_j6906307412089_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The second dense layer's pipeline: its proof data

The second pallas_call walks the same 25 row blocks.  At each point the body reads five staged blocks
(the aggregated hidden features, the previous layer's output, the inverse degrees, the weight matrix and
the bias row) and overwrites the output block with one function of them.
The data below say exactly that: every input window keeps its block, the output window ends at that
function of the inputs' blocks. -/

-- the TensorCore's buffer contents when the region is entered
variable (V : (c : Dev nD) → (b : Ref sig .tc) → Buf (Elt F) ((c : Thread nD τ).loc b))

/-- Window `w`'s block of its array at grid point `t`, read off the entry contents. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The output block as a function of the five input blocks. -/
def out1 (x0 : Vec F S2000x256 .f32) (x1 : Vec F S2000x256 .bf16) (x2 : Vec F S2000x1 .f32) (x3 : Vec F S256x256 .f32) (x4 : Vec F S1x256 .f32) : Vec F S2000x256 .bf16 :=
  k1_pay1 x0 x1 x2 x3 x4

/-- The proof data on core `c`: arrays as found; inputs left in place, the output block at `out1` of
    the input blocks; the invariant only carries the scoped buffers no window stages and the generator
    register; nothing is owed and every array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t
      = out1 (iblk1 V c 0 t) (iblk1 V c 1 t) (iblk1 V c 2 t) (iblk1 V c 3 t) (iblk1 V c 4 t) := by
  dsimp only [dat1]

end Cert.Kernel.Hand

end
-- ==== Proof.KRegion1.lean ====
import proofs.«175804_j6906307412089_2_alg».proof.Proof.KData1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second dense layer's pipeline: the body at every point

First the body as a program on six whole staging memrefs; then what each window's current buffer holds when
the body is called at a grid point; then the obligation the pipeline rule asks for. -/

/-- The offsets of a whole-block access are all zero. -/
theorem zero_offsets1 : (![0, 0] : Fin 2 → Nat) = fun _ => 0 := by
  funext a; fin_cases a <;> rfl

set_option maxHeartbeats 1000000 in
/-- The body on whole staging memrefs: the five inputs' at known contents, the output's at anything.  It loads
    the inputs, loads (and ignores) the output buffer, and stores the result over the whole output block; the
    inputs come back as they were and the output holds `out1` of them: one store that covers the block
    leaves its payload, and a load through the whole block reads the contents. -/
theorem sound_kernel1 (c : Dev nD) (E : Set ℕ) (i : grid1.Coords)
    (arg1 : Memref sig .tc .vmem S2000x256 .f32) (harg1 : arg1.IsWhole)
    (arg2 : Memref sig .tc .vmem S2000x256 .bf16) (harg2 : arg2.IsWhole)
    (arg3 : Memref sig .tc .vmem S2000x1 .f32) (harg3 : arg3.IsWhole)
    (arg4 : Memref sig .tc .vmem S256x256 .f32) (harg4 : arg4.IsWhole)
    (arg5 : Memref sig .tc .vmem S1x256 .f32) (harg5 : arg5.IsWhole)
    (arg6 : Memref sig .tc .vmem S2000x256 .bf16) (harg6 : arg6.IsWhole)
    (x0 : Vec F S2000x256 .f32) (x1 : Vec F S2000x256 .bf16) (x2 : Vec F S2000x1 .f32) (x3 : Vec F S256x256 .f32) (x4 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1 x0 x1 x2 x3 x4)) -∗ K ⟨⟩))
      ⊢ wp frame (wpE (defs₀ (F := F)) Variants.none c none) E
          (cc1__linear_kernel i arg1 harg1 arg2 harg2 arg3 harg3 arg4 harg4 arg5 harg5 arg6 harg6) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _
      (fun y => ⟨_, List.mem_singleton_self _, View.mem_set_unit_zero zero_offsets1 inb_S2000x256_S2000x256_0_0 y⟩),
    View.canon_unit_zero zero_offsets1]
  rw [
    show View.readAt (Elt F) arg1.view (Rect.unit ![0, 0] S2000x256.size inb_S2000x256_S2000x256_0_0).toLoadRect f0
        = View.read (Elt F) arg1.view f0 from View.ld_unit_zero (S := S2000x256) zero_offsets1 _ _,
    show View.readAt (Elt F) arg2.view (Rect.unit ![0, 0] S2000x256.size inb_S2000x256_S2000x256_0_0).toLoadRect f1
        = View.read (Elt F) arg2.view f1 from View.ld_unit_zero (S := S2000x256) zero_offsets1 _ _,
    show View.readAt (Elt F) arg3.view (Rect.unit ![0, 0] S2000x1.size inb_S2000x1_S2000x1_0_0).toLoadRect f2
        = View.read (Elt F) arg3.view f2 from View.ld_unit_zero (S := S2000x1) zero_offsets1 _ _,
    show View.readAt (Elt F) arg4.view (Rect.unit ![0, 0] S256x256.size inb_S256x256_S256x256_0_0).toLoadRect f3
        = View.read (Elt F) arg4.view f3 from View.ld_unit_zero (S := S256x256) zero_offsets1 _ _,
    show View.readAt (Elt F) arg5.view (Rect.unit ![0, 0] S1x256.size inb_S1x256_S1x256_0_0).toLoadRect f4
        = View.read (Elt F) arg5.view f4 from View.ld_unit_zero (S := S1x256) zero_offsets1 _ _]
  rfl

/-! ## What the body finds in each window's current buffer -/

-- the TensorCore's buffer contents when the region is entered
variable (V : (c : Dev nD) → (b : Ref sig .tc) → Buf (Elt F) ((c : Thread nD τ).loc b))

-- An input window holds its block of the array at every point, fetched there or not: an unfetched window's
-- block index has not moved, and the body leaves the block in place.
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- The output window is written back at every point, so its current buffer is fresh whenever the body runs:
    it holds whatever it held. -/
theorem before1_5 (c : Dev nD) (t : Fin cfg1.N) (d) : (dat1 V c).before 5 t d = d :=
  (dat1 V c).before_out_reset 5 rfl t
    (by
      by_cases h0 : t.val = 0
      · exact .inl h0
      · exact .inr ⟨h0, flush1_5 _⟩) d

/-! ## The obligation -/

/-- The body at any point: the inputs' buffers hold their blocks, the output's anything, so `sound_kernel1`
    applies; the invariant and what the core owes pass through untouched. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t)
        ∗ owns (c : Thread nD τ) (st1_5 t) fullShare ((dat1 V c).after 5 t))) := by
  unfold bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.KData2.lean ====
import proofs.«175804_j6906307412089_2_alg».proof.Proof.Gen.Kernel.Launch
import proofs.«175804_j6906307412089_2_alg».proof.Proof.Gen.Kernel.Skeleton
import proofs.«175804_j6906307412089_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The third dense layer's pipeline: its proof data

The third pallas_call walks the same 25 row blocks.  At each point the body reads five staged blocks
(the aggregated hidden features, the previous layer's output, the inverse degrees, the weight matrix and
the bias row) and overwrites the output block with one function of them (no rectifier, no rounding).
The data below say exactly that: every input window keeps its block, the output window ends at that
function of the inputs' blocks. -/

-- the TensorCore's buffer contents when the region is entered
variable (V : (c : Dev nD) → (b : Ref sig .tc) → Buf (Elt F) ((c : Thread nD τ).loc b))

/-- Window `w`'s block of its array at grid point `t`, read off the entry contents. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The output block as a function of the five input blocks. -/
def out2 (x0 : Vec F S2000x256 .f32) (x1 : Vec F S2000x256 .bf16) (x2 : Vec F S2000x1 .f32) (x3 : Vec F S256x256 .f32) (x4 : Vec F S1x256 .f32) : Vec F S2000x256 .f32 :=
  k2_pay1 x0 x1 x2 x3 x4

/-- The proof data on core `c`: arrays as found; inputs left in place, the output block at `out2` of
    the input blocks; the invariant only carries the scoped buffers no window stages and the generator
    register; nothing is owed and every array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t
      = out2 (iblk2 V c 0 t) (iblk2 V c 1 t) (iblk2 V c 2 t) (iblk2 V c 3 t) (iblk2 V c 4 t) := by
  dsimp only [dat2]

end Cert.Kernel.Hand

end
-- ==== Proof.KRegion2.lean ====
import proofs.«175804_j6906307412089_2_alg».proof.Proof.KData2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third dense layer's pipeline: the body at every point

First the body as a program on six whole staging memrefs; then what each window's current buffer holds when
the body is called at a grid point; then the obligation the pipeline rule asks for. -/

/-- The offsets of a whole-block access are all zero. -/
theorem zero_offsets2 : (![0, 0] : Fin 2 → Nat) = fun _ => 0 := by
  funext a; fin_cases a <;> rfl

set_option maxHeartbeats 1000000 in
/-- The body on whole staging memrefs: the five inputs' at known contents, the output's at anything.  It loads
    the inputs, loads (and ignores) the output buffer, and stores the result over the whole output block; the
    inputs come back as they were and the output holds `out2` of them: one store that covers the block
    leaves its payload, and a load through the whole block reads the contents. -/
theorem sound_kernel2 (c : Dev nD) (E : Set ℕ) (i : grid2.Coords)
    (arg1 : Memref sig .tc .vmem S2000x256 .f32) (harg1 : arg1.IsWhole)
    (arg2 : Memref sig .tc .vmem S2000x256 .bf16) (harg2 : arg2.IsWhole)
    (arg3 : Memref sig .tc .vmem S2000x1 .f32) (harg3 : arg3.IsWhole)
    (arg4 : Memref sig .tc .vmem S256x256 .f32) (harg4 : arg4.IsWhole)
    (arg5 : Memref sig .tc .vmem S1x256 .f32) (harg5 : arg5.IsWhole)
    (arg6 : Memref sig .tc .vmem S2000x256 .f32) (harg6 : arg6.IsWhole)
    (x0 : Vec F S2000x256 .f32) (x1 : Vec F S2000x256 .bf16) (x2 : Vec F S2000x1 .f32) (x3 : Vec F S256x256 .f32) (x4 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out2 x0 x1 x2 x3 x4)) -∗ K ⟨⟩))
      ⊢ wp frame (wpE (defs₀ (F := F)) Variants.none c none) E
          (cc2__linear_kernel i arg1 harg1 arg2 harg2 arg3 harg3 arg4 harg4 arg5 harg5 arg6 harg6) K := by
  simp only [cc2__linear_kernel_eq_skeleton]; unfold cc2__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _
      (fun y => ⟨_, List.mem_singleton_self _, View.mem_set_unit_zero zero_offsets2 inb_S2000x256_S2000x256_0_0 y⟩),
    View.canon_unit_zero zero_offsets2]
  rw [
    show View.readAt (Elt F) arg1.view (Rect.unit ![0, 0] S2000x256.size inb_S2000x256_S2000x256_0_0).toLoadRect f0
        = View.read (Elt F) arg1.view f0 from View.ld_unit_zero (S := S2000x256) zero_offsets2 _ _,
    show View.readAt (Elt F) arg2.view (Rect.unit ![0, 0] S2000x256.size inb_S2000x256_S2000x256_0_0).toLoadRect f1
        = View.read (Elt F) arg2.view f1 from View.ld_unit_zero (S := S2000x256) zero_offsets2 _ _,
    show View.readAt (Elt F) arg3.view (Rect.unit ![0, 0] S2000x1.size inb_S2000x1_S2000x1_0_0).toLoadRect f2
        = View.read (Elt F) arg3.view f2 from View.ld_unit_zero (S := S2000x1) zero_offsets2 _ _,
    show View.readAt (Elt F) arg4.view (Rect.unit ![0, 0] S256x256.size inb_S256x256_S256x256_0_0).toLoadRect f3
        = View.read (Elt F) arg4.view f3 from View.ld_unit_zero (S := S256x256) zero_offsets2 _ _,
    show View.readAt (Elt F) arg5.view (Rect.unit ![0, 0] S1x256.size inb_S1x256_S1x256_0_0).toLoadRect f4
        = View.read (Elt F) arg5.view f4 from View.ld_unit_zero (S := S1x256) zero_offsets2 _ _]
  rfl

/-! ## What the body finds in each window's current buffer -/

-- the TensorCore's buffer contents when the region is entered
variable (V : (c : Dev nD) → (b : Ref sig .tc) → Buf (Elt F) ((c : Thread nD τ).loc b))

-- An input window holds its block of the array at every point, fetched there or not: an unfetched window's
-- block index has not moved, and the body leaves the block in place.
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-- The output window is written back at every point, so its current buffer is fresh whenever the body runs:
    it holds whatever it held. -/
theorem before2_5 (c : Dev nD) (t : Fin cfg2.N) (d) : (dat2 V c).before 5 t d = d :=
  (dat2 V c).before_out_reset 5 rfl t
    (by
      by_cases h0 : t.val = 0
      · exact .inl h0
      · exact .inr ⟨h0, flush2_5 _⟩) d

/-! ## The obligation -/

/-- The body at any point: the inputs' buffers hold their blocks, the output's anything, so `sound_kernel2`
    applies; the invariant and what the core owes pass through untouched. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t)
        ∗ owns (c : Thread nD τ) (st2_4 t) fullShare ((dat2 V c).after 4 t)
        ∗ owns (c : Thread nD τ) (st2_5 t) fullShare ((dat2 V c).after 5 t))) := by
  unfold bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation2 (c : Dev nD) :
    BodyObligation (dat2 (F := F) V c) (defs₀ (F := F)) Variants.none () Set.univ := fun t => by
  rw [bigSep_W2, bigSep_W2]
  exact sound_body2 V c t

end Cert.Kernel.Hand

end
-- ==== Proof.KData3.lean ====
import proofs.«175804_j6906307412089_2_alg».proof.Proof.Gen.Kernel.Launch
import proofs.«175804_j6906307412089_2_alg».proof.Proof.Gen.Kernel.Skeleton
import proofs.«175804_j6906307412089_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The read-out network's pipeline: its proof data

The last pallas_call has a single grid point.  Its body reads five whole arrays (the pooled features,
the two weight matrices and the two biases) and overwrites the whole output with one function of them.
The data below say exactly that: every input window keeps its block, the output window ends at that
function of the inputs' blocks. -/

-- the TensorCore's buffer contents when the region is entered
variable (V : (c : Dev nD) → (b : Ref sig .tc) → Buf (Elt F) ((c : Thread nD τ).loc b))

/-- Window `w`'s block of its array at grid point `t`, read off the entry contents. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The output block as a function of the five input blocks. -/
def out3 (x0 : Vec F S512x768 .f32) (x1 : Vec F S768x256 .f32) (x2 : Vec F S1x256 .f32) (x3 : Vec F S256x1 .f32) (x4 : Vec F S1x1 .f32) : Vec F S512x1 .f32 :=
  k3_pay1 x0 x1 x2 x3 x4

/-- The proof data on core `c`: arrays as found; inputs left in place, the output block at `out3` of
    the input blocks; the invariant only carries the scoped buffers no window stages and the generator
    register; nothing is owed and every array is held whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t
      = out3 (iblk3 V c 0 t) (iblk3 V c 1 t) (iblk3 V c 2 t) (iblk3 V c 3 t) (iblk3 V c 4 t) := by
  dsimp only [dat3]

end Cert.Kernel.Hand

end
-- ==== Proof.KRegion3.lean ====
import proofs.«175804_j6906307412089_2_alg».proof.Proof.KData3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The read-out network's pipeline: the body at every point

First the body as a program on six whole staging memrefs; then what each window's current buffer holds when
the body is called at a grid point; then the obligation the pipeline rule asks for. -/

/-- The offsets of a whole-block access are all zero. -/
theorem zero_offsets3 : (![0, 0] : Fin 2 → Nat) = fun _ => 0 := by
  funext a; fin_cases a <;> rfl

set_option maxHeartbeats 1000000 in
/-- The body on whole staging memrefs: the five inputs' at known contents, the output's at anything.  It loads
    the inputs, loads (and ignores) the output buffer, and stores the result over the whole output block; the
    inputs come back as they were and the output holds `out3` of them: one store that covers the block
    leaves its payload, and a load through the whole block reads the contents. -/
theorem sound_kernel3 (c : Dev nD) (E : Set ℕ) (i : grid3.Coords)
    (arg1 : Memref sig .tc .vmem S512x768 .f32) (harg1 : arg1.IsWhole)
    (arg2 : Memref sig .tc .vmem S768x256 .f32) (harg2 : arg2.IsWhole)
    (arg3 : Memref sig .tc .vmem S1x256 .f32) (harg3 : arg3.IsWhole)
    (arg4 : Memref sig .tc .vmem S256x1 .f32) (harg4 : arg4.IsWhole)
    (arg5 : Memref sig .tc .vmem S1x1 .f32) (harg5 : arg5.IsWhole)
    (arg6 : Memref sig .tc .vmem S512x1 .f32) (harg6 : arg6.IsWhole)
    (x0 : Vec F S512x768 .f32) (x1 : Vec F S768x256 .f32) (x2 : Vec F S1x256 .f32) (x3 : Vec F S256x1 .f32) (x4 : Vec F S1x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out3 x0 x1 x2 x3 x4)) -∗ K ⟨⟩))
      ⊢ wp frame (wpE (defs₀ (F := F)) Variants.none c none) E
          (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _
      (fun y => ⟨_, List.mem_singleton_self _, View.mem_set_unit_zero zero_offsets3 inb_S512x1_S512x1_0_0 y⟩),
    View.canon_unit_zero zero_offsets3]
  rw [
    show View.readAt (Elt F) arg1.view (Rect.unit ![0, 0] S512x768.size inb_S512x768_S512x768_0_0).toLoadRect f0
        = View.read (Elt F) arg1.view f0 from View.ld_unit_zero (S := S512x768) zero_offsets3 _ _,
    show View.readAt (Elt F) arg2.view (Rect.unit ![0, 0] S768x256.size inb_S768x256_S768x256_0_0).toLoadRect f1
        = View.read (Elt F) arg2.view f1 from View.ld_unit_zero (S := S768x256) zero_offsets3 _ _,
    show View.readAt (Elt F) arg3.view (Rect.unit ![0, 0] S1x256.size inb_S1x256_S1x256_0_0).toLoadRect f2
        = View.read (Elt F) arg3.view f2 from View.ld_unit_zero (S := S1x256) zero_offsets3 _ _,
    show View.readAt (Elt F) arg4.view (Rect.unit ![0, 0] S256x1.size inb_S256x1_S256x1_0_0).toLoadRect f3
        = View.read (Elt F) arg4.view f3 from View.ld_unit_zero (S := S256x1) zero_offsets3 _ _,
    show View.readAt (Elt F) arg5.view (Rect.unit ![0, 0] S1x1.size inb_S1x1_S1x1_0_0).toLoadRect f4
        = View.read (Elt F) arg5.view f4 from View.ld_unit_zero (S := S1x1) zero_offsets3 _ _]
  rfl

/-! ## What the body finds in each window's current buffer -/

-- the TensorCore's buffer contents when the region is entered
variable (V : (c : Dev nD) → (b : Ref sig .tc) → Buf (Elt F) ((c : Thread nD τ).loc b))

-- An input window holds its block of the array at every point, fetched there or not: an unfetched window's
-- block index has not moved, and the body leaves the block in place.
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-- The output window is written back at every point, so its current buffer is fresh whenever the body runs:
    it holds whatever it held. -/
theorem before3_5 (c : Dev nD) (t : Fin cfg3.N) (d) : (dat3 V c).before 5 t d = d :=
  (dat3 V c).before_out_reset 5 rfl t
    (by
      by_cases h0 : t.val = 0
      · exact .inl h0
      · exact .inr ⟨h0, flush3_5 _⟩) d

/-! ## The obligation -/

/-- The body at any point: the inputs' buffers hold their blocks, the output's anything, so `sound_kernel3`
    applies; the invariant and what the core owes pass through untouched. -/
theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d))
      ∗ (∃ d, owns (c : Thread nD τ) (st3_4 t) fullShare ((dat3 V c).before 4 t d))
      ∗ (∃ d, owns (c : Thread nD τ) (st3_5 t) fullShare ((dat3 V c).before 5 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare ((dat3 V c).after 0 t)
        ∗ owns (c : Thread nD τ) (st3_1 t) fullShare ((dat3 V c).after 1 t)
        ∗ owns (c : Thread nD τ) (st3_2 t) fullShare ((dat3 V c).after 2 t)
        ∗ owns (c : Thread nD τ) (st3_3 t) fullShare ((dat3 V c).after 3 t)
        ∗ owns (c : Thread nD τ) (st3_4 t) fullShare ((dat3 V c).after 4 t)
        ∗ owns (c : Thread nD τ) (st3_5 t) fullShare ((dat3 V c).after 5 t))) := by
  unfold bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation3 (c : Dev nD) :
    BodyObligation (dat3 (F := F) V c) (defs₀ (F := F)) Variants.none () Set.univ := fun t => by
  rw [bigSep_W3, bigSep_W3]
  exact sound_body3 V c t

end Cert.Kernel.Hand

end
-- ==== Proof.KRecord.lean ====
import proofs.«175804_j6906307412089_2_alg».proof.Proof.Gen.Kernel.Regions
import Idealize.ShloMosaic.Lib.Pipeline.Frame
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # A kernel region of the program as a segment, once for all four

Every pallas_call of this program is of the simplest kind: all its operands are staged by the pipeline, it has
no semaphore or scratch of its own, it owes no other core anything, and its invariant is only "the scoped
buffers that are no staging buffer, and the generator register".  So the four segment records differ only in
the pipeline index, its proof data and the two valuations of the unscoped buffers around it.  The record is
built here once, from the facts about the data that each region supplies. -/

/-- No core ever owes another anything: no level is assigned. -/
abbrev noLevels : GSem nD τ sig → Finset Unit := fun _ => ∅
abbrev levelZero : GSem nD τ sig → Unit → ℕ := fun _ _ => 0

/-- What travels beside the unscoped buffers through the whole program: the generator register at some
    state, and the core owing nothing. -/
abbrev beside (c : Dev nD) : sProp 𝕄 :=
  iprop((∃ r, prngReg c r) ∗ ∃ W, owes (c : Thread nD τ) (0 : CellTallies nD τ sig Unit) W)

section Record

variable (pd : (p : Fin 4) → (c : Dev nD) → Dat τ (Elt F) Unit ℕ (UR sig nD τ) ℕ (cfgs p) c) (p : Fin 4)
  (lf : Pipeline.LaunchFacts (nD := nD) (τ := τ) cfgs p)
  (Vin Vout : (c : Dev nD) → Valuation τ sig (Elt F))
  (hΦ : ∀ c t, (pd p c).Φ t = Pipeline.ΦA (cfgs p).spec c)
  (hq : ∀ c w, (pd p c).q w = fullShare)
  (howed : ∀ c t, (pd p c).owed t = 0)
  (hrec : ∀ c t, (pd p c).recorded t = Set.univ)
  (hA : ∀ c w, (pd p c).A w = Vin c (Pipeline.arrRef (cfgs p).spec w))
  (hF : ∀ c w, (pd p c).arrAt w (cfgs p).N = Vout c (Pipeline.arrRef (cfgs p).spec w))
  (hrest : ∀ c (b : Ref sig .tc), b ∉ Finset.univ.image (Pipeline.arrRef (cfgs p).spec) → Vout c b = Vin c b)
  (hbody : ∀ c, BodyObligationLoose (pd p c) (defs₀ (F := F)) Variants.none () Set.univ)

set_option backward.isDefEq.respectTransparency.types false in
/-- Region `p` as a segment entered with every unscoped buffer at `Vin` and left with them at `Vout`: the
    windows' arrays are split out of the unscoped buffers at the entry and put back, at what the write-backs
    left, at the exit; the generator register goes into the invariant and comes back; nothing is owed. -/
def regionRecord : Pipeline.RegionSeg (pcfgs (F := F)) adm pd () defs₀ Variants.none noLevels levelZero p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ noLevels levelZero p howed
  pre c := iprop(StableHlo.held (c : Thread nD τ) (Pipeline.ucRefs τ sig) (Vin c) ∗ beside c)
  post c := iprop(StableHlo.held (c : Thread nD τ) (Pipeline.ucRefs τ sig) (Vout c) ∗ beside c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm pd lf.win lf.arr_whole c
      ((pd p c).share_full (hq c)) (fun b => Vin c b) (hA c)
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      rw [howed c]
      icases Howes with ⟨%W, Howes⟩; iexists W; isplitr
      · ipureintro; intro x _; exact Or.inl (by rw [hrec c]; trivial)
      iexact Howes
    isplitl [Hprng]; · iexact Hprng
    iexact Hrest
  hin c := by
    rw [hΦ c]; unfold Pipeline.ΦA
    iintro ⟨Hprng, -, Hscoped⟩
    isplitl [Hscoped]; · iexact Hscoped
    iexact Hprng
  hout c := by
    rw [Pipeline.ownSems0_none, hΦ c]; unfold Pipeline.ΦA
    iintro ⟨Hscoped, Hprng⟩
    isplitl [Hprng]; · iexact Hprng
    isplitr; · iempintro
    iexact Hscoped
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => Vin c b) (fun b => Vout c b) ((pd p c).arrAt · (cfgs p).N) (hF c) (hrest c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    rw [howed c]
    icases Howes with ⟨%W, -, Howes⟩; iexists W; iexact Howes

end Record

end Cert.Kernel.Hand

end
-- ==== Proof.KRun.lean ====
import proofs.«175804_j6906307412089_2_alg».proof.Proof.KRegion0
import proofs.«175804_j6906307412089_2_alg».proof.Proof.KRegion1
import proofs.«175804_j6906307412089_2_alg».proof.Proof.KRegion2
import proofs.«175804_j6906307412089_2_alg».proof.Proof.KRegion3
import proofs.«175804_j6906307412089_2_alg».proof.Proof.KRecord

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

variable {F : FTy → Type} [FloatOps F]

local notation "𝕄" => MT nD τ sig Unit (Elt F) ℕ (UR sig nD τ) ℕ

/-! # The run of the whole program

@main is nine items: a stretch of host operations, then four times a kernel region followed by a stretch of
host operations.  Between two items every unscoped buffer of the TensorCore is held at a known valuation:
the launch memory, then what each host stretch computes from the valuation before it, then — after a region —
the same valuation with the region's output array replaced by the fold of the pipeline's write-backs.  The
regions are the segment records of the generic construction, the host stretches the generated ones. -/

variable (m : (ℓ : Loc nD τ sig) → Buf (Elt F) ℓ)

/-- A valuation of the unscoped buffers read at the TensorCore's references: what a region's proof data take. -/
abbrev atTc (W : Dev nD → Valuation τ sig (Elt F)) :
    (c : Dev nD) → (b : Ref sig .tc) → Buf (Elt F) ((c : Thread nD τ).loc b) := fun c b => W c b

/-! ## The valuations between the items, written without any unknown -/

abbrev bufs1 (c : Dev nD) : Valuation τ sig (Elt F) := V1 m c
def bufs2 (c : Dev nD) : Valuation τ sig (Elt F) :=
  Function.update (bufs1 m c) main_v44 ((dat0 (atTc (bufs1 m)) c).arrAt 5 cfg0.N)
abbrev bufs3 (c : Dev nD) : Valuation τ sig (Elt F) := StableHlo.after hostOps1 (bufs2 m c)
def bufs4 (c : Dev nD) : Valuation τ sig (Elt F) :=
  Function.update (bufs3 m c) main_v60 ((dat1 (atTc (bufs3 m)) c).arrAt 5 cfg1.N)
abbrev bufs5 (c : Dev nD) : Valuation τ sig (Elt F) := StableHlo.after hostOps2 (bufs4 m c)
def bufs6 (c : Dev nD) : Valuation τ sig (Elt F) :=
  Function.update (bufs5 m c) main_v76 ((dat2 (atTc (bufs5 m)) c).arrAt 5 cfg2.N)
abbrev bufs7 (c : Dev nD) : Valuation τ sig (Elt F) := StableHlo.after hostOps3 (bufs6 m c)
def bufs8 (c : Dev nD) : Valuation τ sig (Elt F) :=
  Function.update (bufs7 m c) main_v106 ((dat3 (atTc (bufs7 m)) c).arrAt 5 cfg3.N)

/-- What the four regions leave in their output arrays, as the generated valuations want it: read off the
    valuations above. -/
def outs : Outs (F := F) := fun J r c =>
  match J with
  | 2 => bufs2 m c r
  | 4 => bufs4 m c r
  | 6 => bufs6 m c r
  | _ => bufs8 m c r

/-! The generated valuations at these contents are the ones above. -/

theorem V2_eq (c : Dev nD) : V2 m (outs m) c = bufs2 m c := by
  show Function.update (V1 m c) _ (bufs2 m c main_v44) = bufs2 m c
  unfold bufs2; rw [Function.update_self]
theorem V3_eq (c : Dev nD) : V3 m (outs m) c = bufs3 m c := by
  show StableHlo.after hostOps1 (V2 m (outs m) c) = _; rw [V2_eq]
theorem V4_eq (c : Dev nD) : V4 m (outs m) c = bufs4 m c := by
  show Function.update (V3 m (outs m) c) _ (bufs4 m c main_v60) = bufs4 m c
  rw [V3_eq]; unfold bufs4; rw [Function.update_self]
theorem V5_eq (c : Dev nD) : V5 m (outs m) c = bufs5 m c := by
  show StableHlo.after hostOps2 (V4 m (outs m) c) = _; rw [V4_eq]
theorem V6_eq (c : Dev nD) : V6 m (outs m) c = bufs6 m c := by
  show Function.update (V5 m (outs m) c) _ (bufs6 m c main_v76) = bufs6 m c
  rw [V5_eq]; unfold bufs6; rw [Function.update_self]
theorem V7_eq (c : Dev nD) : V7 m (outs m) c = bufs7 m c := by
  show StableHlo.after hostOps3 (V6 m (outs m) c) = _; rw [V6_eq]
theorem V8_eq (c : Dev nD) : V8 m (outs m) c = bufs8 m c := by
  show Function.update (V7 m (outs m) c) _ (bufs8 m c main_v106) = bufs8 m c
  rw [V7_eq]; unfold bufs8; rw [Function.update_self]

/-! ## Each region's entry contents, and what it leaves -/

abbrev entryBufs0 : (c : Dev nD) → (b : Ref sig .tc) → Buf (Elt F) ((c : Thread nD τ).loc b) := atTc (V1 m)
abbrev entryBufs1 : (c : Dev nD) → (b : Ref sig .tc) → Buf (Elt F) ((c : Thread nD τ).loc b) := atTc (V3 m (outs m))
abbrev entryBufs2 : (c : Dev nD) → (b : Ref sig .tc) → Buf (Elt F) ((c : Thread nD τ).loc b) := atTc (V5 m (outs m))
abbrev entryBufs3 : (c : Dev nD) → (b : Ref sig .tc) → Buf (Elt F) ((c : Thread nD τ).loc b) := atTc (V7 m (outs m))

theorem entry0 : entryBufs0 m = atTc (bufs1 m) := rfl
theorem entry1 : entryBufs1 m = atTc (bufs3 m) := by funext c b; show V3 m (outs m) c b = _; rw [V3_eq]
theorem entry2 : entryBufs2 m = atTc (bufs5 m) := by funext c b; show V5 m (outs m) c b = _; rw [V5_eq]
theorem entry3 : entryBufs3 m = atTc (bufs7 m) := by funext c b; show V7 m (outs m) c b = _; rw [V7_eq]

/-- What region 0 leaves in its output array: the fold of its write-backs from the valuation before it. -/
theorem outs_2 (c : Dev nD) : outs m 2 main_v44 c = (dat0 (entryBufs0 m) c).arrAt 5 cfg0.N := by
  show bufs2 m c main_v44 = _; unfold bufs2; rw [Function.update_self]
theorem outs_4 (c : Dev nD) : outs m 4 main_v60 c = (dat1 (entryBufs1 m) c).arrAt 5 cfg1.N := by
  rw [entry1]; show bufs4 m c main_v60 = _; unfold bufs4; rw [Function.update_self]
theorem outs_6 (c : Dev nD) : outs m 6 main_v76 c = (dat2 (entryBufs2 m) c).arrAt 5 cfg2.N := by
  rw [entry2]; show bufs6 m c main_v76 = _; unfold bufs6; rw [Function.update_self]
theorem outs_8 (c : Dev nD) : outs m 8 main_v106 c = (dat3 (entryBufs3 m) c).arrAt 5 cfg3.N := by
  rw [entry3]; show bufs8 m c main_v106 = _; unfold bufs8; rw [Function.update_self]

set_option maxHeartbeats 4000000 in
/-- At region 0's exit every array of its windows holds what the valuation after it says: an input array is
    never written and is not the output's; the output array holds the fold of the write-backs. -/
theorem exit0 (c : Dev nD) (w : Fin cfg0.W) :
    (dat0 (entryBufs0 m) c).arrAt w cfg0.N = V2 m (outs m) c (Pipeline.arrRef spec0 w) := by
  match w with
  | ⟨0, _⟩ =>
    show (dat0 (entryBufs0 m) c).arrAt 0 cfg0.N = V2 m (outs m) c main_v42
    rw [(dat0 (entryBufs0 m) c).arrAt_in 0 rfl, A_eq0]
    exact (V2_of m (outs m) c main_v42 (by decide)).symm
  | ⟨1, _⟩ =>
    show (dat0 (entryBufs0 m) c).arrAt 1 cfg0.N = V2 m (outs m) c main_arg0
    rw [(dat0 (entryBufs0 m) c).arrAt_in 1 rfl, A_eq0]
    exact (V2_of m (outs m) c main_arg0 (by decide)).symm
  | ⟨2, _⟩ =>
    show (dat0 (entryBufs0 m) c).arrAt 2 cfg0.N = V2 m (outs m) c main_v14
    rw [(dat0 (entryBufs0 m) c).arrAt_in 2 rfl, A_eq0]
    exact (V2_of m (outs m) c main_v14 (by decide)).symm
  | ⟨3, _⟩ =>
    show (dat0 (entryBufs0 m) c).arrAt 3 cfg0.N = V2 m (outs m) c main_arg5
    rw [(dat0 (entryBufs0 m) c).arrAt_in 3 rfl, A_eq0]
    exact (V2_of m (outs m) c main_arg5 (by decide)).symm
  | ⟨4, _⟩ =>
    show (dat0 (entryBufs0 m) c).arrAt 4 cfg0.N = V2 m (outs m) c main_v43
    rw [(dat0 (entryBufs0 m) c).arrAt_in 4 rfl, A_eq0]
    exact (V2_of m (outs m) c main_v43 (by decide)).symm
  | ⟨5, _⟩ =>
    show (dat0 (entryBufs0 m) c).arrAt 5 cfg0.N = V2 m (outs m) c main_v44
    rw [← outs_2 m c]
    simp only [V2, Function.update_self]

/-- and every other unscoped buffer holds what it held at the entry. -/
theorem rest0 (c : Dev nD) (b : Ref sig .tc) (hb : b ∉ Finset.univ.image (Pipeline.arrRef spec0)) :
    V2 m (outs m) c b = V1 m c b :=
  V2_of m (outs m) c b fun h => hb (by
    rw [List.mem_singleton] at h; subst h
    exact Finset.mem_image.mpr ⟨5, Finset.mem_univ _, rfl⟩)

set_option maxHeartbeats 4000000 in
/-- At region 1's exit every array of its windows holds what the valuation after it says: an input array is
    never written and is not the output's; the output array holds the fold of the write-backs. -/
theorem exit1 (c : Dev nD) (w : Fin cfg1.W) :
    (dat1 (entryBufs1 m) c).arrAt w cfg1.N = V4 m (outs m) c (Pipeline.arrRef spec1 w) := by
  match w with
  | ⟨0, _⟩ =>
    show (dat1 (entryBufs1 m) c).arrAt 0 cfg1.N = V4 m (outs m) c main_v58
    rw [(dat1 (entryBufs1 m) c).arrAt_in 0 rfl, A_eq1]
    exact (V4_of m (outs m) c main_v58 (by decide)).symm
  | ⟨1, _⟩ =>
    show (dat1 (entryBufs1 m) c).arrAt 1 cfg1.N = V4 m (outs m) c main_v44
    rw [(dat1 (entryBufs1 m) c).arrAt_in 1 rfl, A_eq1]
    exact (V4_of m (outs m) c main_v44 (by decide)).symm
  | ⟨2, _⟩ =>
    show (dat1 (entryBufs1 m) c).arrAt 2 cfg1.N = V4 m (outs m) c main_v14
    rw [(dat1 (entryBufs1 m) c).arrAt_in 2 rfl, A_eq1]
    exact (V4_of m (outs m) c main_v14 (by decide)).symm
  | ⟨3, _⟩ =>
    show (dat1 (entryBufs1 m) c).arrAt 3 cfg1.N = V4 m (outs m) c main_arg7
    rw [(dat1 (entryBufs1 m) c).arrAt_in 3 rfl, A_eq1]
    exact (V4_of m (outs m) c main_arg7 (by decide)).symm
  | ⟨4, _⟩ =>
    show (dat1 (entryBufs1 m) c).arrAt 4 cfg1.N = V4 m (outs m) c main_v59
    rw [(dat1 (entryBufs1 m) c).arrAt_in 4 rfl, A_eq1]
    exact (V4_of m (outs m) c main_v59 (by decide)).symm
  | ⟨5, _⟩ =>
    show (dat1 (entryBufs1 m) c).arrAt 5 cfg1.N = V4 m (outs m) c main_v60
    rw [← outs_4 m c]
    simp only [V4, Function.update_self]

/-- and every other unscoped buffer holds what it held at the entry. -/
theorem rest1 (c : Dev nD) (b : Ref sig .tc) (hb : b ∉ Finset.univ.image (Pipeline.arrRef spec1)) :
    V4 m (outs m) c b = V3 m (outs m) c b :=
  V4_of m (outs m) c b fun h => hb (by
    rw [List.mem_singleton] at h; subst h
    exact Finset.mem_image.mpr ⟨5, Finset.mem_univ _, rfl⟩)

set_option maxHeartbeats 4000000 in
/-- At region 2's exit every array of its windows holds what the valuation after it says: an input array is
    never written and is not the output's; the output array holds the fold of the write-backs. -/
theorem exit2 (c : Dev nD) (w : Fin cfg2.W) :
    (dat2 (entryBufs2 m) c).arrAt w cfg2.N = V6 m (outs m) c (Pipeline.arrRef spec2 w) := by
  match w with
  | ⟨0, _⟩ =>
    show (dat2 (entryBufs2 m) c).arrAt 0 cfg2.N = V6 m (outs m) c main_v74
    rw [(dat2 (entryBufs2 m) c).arrAt_in 0 rfl, A_eq2]
    exact (V6_of m (outs m) c main_v74 (by decide)).symm
  | ⟨1, _⟩ =>
    show (dat2 (entryBufs2 m) c).arrAt 1 cfg2.N = V6 m (outs m) c main_v60
    rw [(dat2 (entryBufs2 m) c).arrAt_in 1 rfl, A_eq2]
    exact (V6_of m (outs m) c main_v60 (by decide)).symm
  | ⟨2, _⟩ =>
    show (dat2 (entryBufs2 m) c).arrAt 2 cfg2.N = V6 m (outs m) c main_v14
    rw [(dat2 (entryBufs2 m) c).arrAt_in 2 rfl, A_eq2]
    exact (V6_of m (outs m) c main_v14 (by decide)).symm
  | ⟨3, _⟩ =>
    show (dat2 (entryBufs2 m) c).arrAt 3 cfg2.N = V6 m (outs m) c main_arg9
    rw [(dat2 (entryBufs2 m) c).arrAt_in 3 rfl, A_eq2]
    exact (V6_of m (outs m) c main_arg9 (by decide)).symm
  | ⟨4, _⟩ =>
    show (dat2 (entryBufs2 m) c).arrAt 4 cfg2.N = V6 m (outs m) c main_v75
    rw [(dat2 (entryBufs2 m) c).arrAt_in 4 rfl, A_eq2]
    exact (V6_of m (outs m) c main_v75 (by decide)).symm
  | ⟨5, _⟩ =>
    show (dat2 (entryBufs2 m) c).arrAt 5 cfg2.N = V6 m (outs m) c main_v76
    rw [← outs_6 m c]
    simp only [V6, Function.update_self]

/-- and every other unscoped buffer holds what it held at the entry. -/
theorem rest2 (c : Dev nD) (b : Ref sig .tc) (hb : b ∉ Finset.univ.image (Pipeline.arrRef spec2)) :
    V6 m (outs m) c b = V5 m (outs m) c b :=
  V6_of m (outs m) c b fun h => hb (by
    rw [List.mem_singleton] at h; subst h
    exact Finset.mem_image.mpr ⟨5, Finset.mem_univ _, rfl⟩)

set_option maxHeartbeats 4000000 in
/-- At region 3's exit every array of its windows holds what the valuation after it says: an input array is
    never written and is not the output's; the output array holds the fold of the write-backs. -/
theorem exit3 (c : Dev nD) (w : Fin cfg3.W) :
    (dat3 (entryBufs3 m) c).arrAt w cfg3.N = V8 m (outs m) c (Pipeline.arrRef spec3 w) := by
  match w with
  | ⟨0, _⟩ =>
    show (dat3 (entryBufs3 m) c).arrAt 0 cfg3.N = V8 m (outs m) c main_v103
    rw [(dat3 (entryBufs3 m) c).arrAt_in 0 rfl, A_eq3]
    exact (V8_of m (outs m) c main_v103 (by decide)).symm
  | ⟨1, _⟩ =>
    show (dat3 (entryBufs3 m) c).arrAt 1 cfg3.N = V8 m (outs m) c main_arg11
    rw [(dat3 (entryBufs3 m) c).arrAt_in 1 rfl, A_eq3]
    exact (V8_of m (outs m) c main_arg11 (by decide)).symm
  | ⟨2, _⟩ =>
    show (dat3 (entryBufs3 m) c).arrAt 2 cfg3.N = V8 m (outs m) c main_v104
    rw [(dat3 (entryBufs3 m) c).arrAt_in 2 rfl, A_eq3]
    exact (V8_of m (outs m) c main_v104 (by decide)).symm
  | ⟨3, _⟩ =>
    show (dat3 (entryBufs3 m) c).arrAt 3 cfg3.N = V8 m (outs m) c main_arg13
    rw [(dat3 (entryBufs3 m) c).arrAt_in 3 rfl, A_eq3]
    exact (V8_of m (outs m) c main_arg13 (by decide)).symm
  | ⟨4, _⟩ =>
    show (dat3 (entryBufs3 m) c).arrAt 4 cfg3.N = V8 m (outs m) c main_v105
    rw [(dat3 (entryBufs3 m) c).arrAt_in 4 rfl, A_eq3]
    exact (V8_of m (outs m) c main_v105 (by decide)).symm
  | ⟨5, _⟩ =>
    show (dat3 (entryBufs3 m) c).arrAt 5 cfg3.N = V8 m (outs m) c main_v106
    rw [← outs_8 m c]
    simp only [V8, Function.update_self]

/-- and every other unscoped buffer holds what it held at the entry. -/
theorem rest3 (c : Dev nD) (b : Ref sig .tc) (hb : b ∉ Finset.univ.image (Pipeline.arrRef spec3)) :
    V8 m (outs m) c b = V7 m (outs m) c b :=
  V8_of m (outs m) c b fun h => hb (by
    rw [List.mem_singleton] at h; subst h
    exact Finset.mem_image.mpr ⟨5, Finset.mem_univ _, rfl⟩)

/-! ## The regions' proof data and segment records -/

/-- Every pipeline's proof data, each at its region's entry contents (a literal match on the pipeline, so
    that the data of a numbered pipeline reduce to the region's own). -/
def regionData : (p : Fin 4) → (c : Dev nD) → Dat τ (Elt F) Unit ℕ (UR sig nD τ) ℕ (cfgs p) c
  | ⟨0, _⟩ => fun c => dat0 (entryBufs0 m) c
  | ⟨1, _⟩ => fun c => dat1 (entryBufs1 m) c
  | ⟨2, _⟩ => fun c => dat2 (entryBufs2 m) c
  | ⟨3, _⟩ => fun c => dat3 (entryBufs3 m) c

/-- Region 0 as a segment, between the valuations before and after it. -/
def region0 : RegionSeg (pcfgs (F := F)) adm (regionData m) () defs₀ Variants.none noLevels levelZero 0 :=
  regionRecord (regionData m) 0 launch0 (V1 m) (V2 m (outs m))
    (fun _ _ => rfl) (fun _ _ => rfl) (fun _ _ => rfl) (fun _ _ => rfl)
    (fun c w => A_eq0 (entryBufs0 m) c w) (exit0 m) (rest0 m)
    (fun c => (body_obligation0 (entryBufs0 m) c).loose)

/-- Region 1 as a segment, between the valuations before and after it. -/
def region1 : RegionSeg (pcfgs (F := F)) adm (regionData m) () defs₀ Variants.none noLevels levelZero 1 :=
  regionRecord (regionData m) 1 launch1 (V3 m (outs m)) (V4 m (outs m))
    (fun _ _ => rfl) (fun _ _ => rfl) (fun _ _ => rfl) (fun _ _ => rfl)
    (fun c w => A_eq1 (entryBufs1 m) c w) (exit1 m) (rest1 m)
    (fun c => (body_obligation1 (entryBufs1 m) c).loose)

/-- Region 2 as a segment, between the valuations before and after it. -/
def region2 : RegionSeg (pcfgs (F := F)) adm (regionData m) () defs₀ Variants.none noLevels levelZero 2 :=
  regionRecord (regionData m) 2 launch2 (V5 m (outs m)) (V6 m (outs m))
    (fun _ _ => rfl) (fun _ _ => rfl) (fun _ _ => rfl) (fun _ _ => rfl)
    (fun c w => A_eq2 (entryBufs2 m) c w) (exit2 m) (rest2 m)
    (fun c => (body_obligation2 (entryBufs2 m) c).loose)

/-- Region 3 as a segment, between the valuations before and after it. -/
def region3 : RegionSeg (pcfgs (F := F)) adm (regionData m) () defs₀ Variants.none noLevels levelZero 3 :=
  regionRecord (regionData m) 3 launch3 (V7 m (outs m)) (V8 m (outs m))
    (fun _ _ => rfl) (fun _ _ => rfl) (fun _ _ => rfl) (fun _ _ => rfl)
    (fun c w => A_eq3 (entryBufs3 m) c w) (exit3 m) (rest3 m)
    (fun c => (body_obligation3 (entryBufs3 m) c).loose)

/-! ## The run -/

/-- The last thread state, regrouped: the buffers and the generator register, beside the core owing nothing. -/
theorem last_state (c : Dev nD) :
    iprop(StableHlo.held (c : Thread nD τ) (Pipeline.ucRefs τ sig) (V9 m (outs m) c) ∗ beside c)
      ⊢ (iprop((StableHlo.held (c : Thread nD τ) (Pipeline.ucRefs τ sig) (V9 m (outs m) c) ∗ ∃ r, prngReg c r)
          ∗ ∃ W, owes (c : Thread nD τ) (0 : CellTallies nD τ sig Unit) W) : sProp 𝕄) := by
  iintro ⟨Hh, Hp, Ho⟩
  isplitl [Hh Hp]
  · isplitl [Hh]; · iexact Hh
    iexact Hp
  iexact Ho

set_option backward.isDefEq.respectTransparency.types false in
/-- Every weakly fair execution of @main from memory `m` with zero counters terminates without a fault; at the
    end the result buffer holds what the last valuation says and every argument array is as launched. -/
theorem run_val (ρ : Dev nD → PrngReg) :
    θ_run defs (onTc (τ := τ) (main (F := F))) ⟨m, fun _ => 0, ρ⟩ (fun r => ∀ c : Dev nD,
      r.2.mem ((c.tc : Thread nD τ).loc main_v107) = V9 m (outs m) c main_v107
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) adm (regionData m) () cellOf_inj emb₁ defs₀ Variants.none noLevels levelZero m ρ main
    (segs m (outs m) Variants.none noLevels levelZero (fun _ => beside) () (regionData m) (region0 m) (region1 m) (region2 m) (region3 m))
    (fun c Q => by
      rewrite [main_chain c, Seg.run_eq_chain,
        show (segs m (outs m) Variants.none noLevels levelZero (fun _ => beside) () (regionData m) (region0 m) (region1 m) (region2 m) (region3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    (fun _ => 0) (fun _ _ => rfl) (fun _ => iprop(emp))
    (initOf (Pipeline.cells cfgs cellOf_inj) (Pipeline.launchToks cfgs cellOf_inj))
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => iprop(StableHlo.held (c : Thread nD τ) (Pipeline.ucRefs τ sig) (V9 m (outs m) c) ∗ ∃ r, prngReg c r))
    (hch := fun c => ⟨.rfl, .rfl, .rfl, .rfl, .rfl, .rfl, .rfl, .rfl, .rfl, last_state m c⟩)
    (hinit := ?_)
    (QY := fun c s => s.mem ((c.tc : Thread nD τ).loc main_v107) = V9 m (outs m) c main_v107
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14))
    (hfin := fun c s' => ?_) (hQ := fun _ h => h)
  · -- the launch: each core's unscoped buffers are held at the launch memory; its generator register and its
    -- owing nothing ride along
    refine Pipeline.initEach noLevels levelZero fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, Ho, -, Hp, -⟩, -⟩
    imodintro
    isplitl [Hh]; · iexact Hh
    isplitl [Hp]; · iexists _; iexact Hp
    iexists ∅; iexact Ho
  · -- the end: the result buffer and each argument's buffer read off the last valuation
    unfold StableHlo.held
    iintro ⟨⟨Hh, -⟩, HSI⟩
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imodintro
    isplitr
    · ipureintro
      exact ⟨h (Proc.devRef .tc main_v107) (Finset.mem_filter.mpr ⟨StableHlo.devRef_mem_tcRefs main_v107, by decide⟩),
        (h (Proc.devRef .tc main_arg0) (Finset.mem_filter.mpr ⟨StableHlo.devRef_mem_tcRefs main_arg0, by decide⟩)).trans (V9_main_arg0 m (outs m) c),
        (h (Proc.devRef .tc main_arg1) (Finset.mem_filter.mpr ⟨StableHlo.devRef_mem_tcRefs main_arg1, by decide⟩)).trans (V9_main_arg1 m (outs m) c),
        (h (Proc.devRef .tc main_arg2) (Finset.mem_filter.mpr ⟨StableHlo.devRef_mem_tcRefs main_arg2, by decide⟩)).trans (V9_main_arg2 m (outs m) c),
        (h (Proc.devRef .tc main_arg3) (Finset.mem_filter.mpr ⟨StableHlo.devRef_mem_tcRefs main_arg3, by decide⟩)).trans (V9_main_arg3 m (outs m) c),
        (h (Proc.devRef .tc main_arg4) (Finset.mem_filter.mpr ⟨StableHlo.devRef_mem_tcRefs main_arg4, by decide⟩)).trans (V9_main_arg4 m (outs m) c),
        (h (Proc.devRef .tc main_arg5) (Finset.mem_filter.mpr ⟨StableHlo.devRef_mem_tcRefs main_arg5, by decide⟩)).trans (V9_main_arg5 m (outs m) c),
        (h (Proc.devRef .tc main_arg6) (Finset.mem_filter.mpr ⟨StableHlo.devRef_mem_tcRefs main_arg6, by decide⟩)).trans (V9_main_arg6 m (outs m) c),
        (h (Proc.devRef .tc main_arg7) (Finset.mem_filter.mpr ⟨StableHlo.devRef_mem_tcRefs main_arg7, by decide⟩)).trans (V9_main_arg7 m (outs m) c),
        (h (Proc.devRef .tc main_arg8) (Finset.mem_filter.mpr ⟨StableHlo.devRef_mem_tcRefs main_arg8, by decide⟩)).trans (V9_main_arg8 m (outs m) c),
        (h (Proc.devRef .tc main_arg9) (Finset.mem_filter.mpr ⟨StableHlo.devRef_mem_tcRefs main_arg9, by decide⟩)).trans (V9_main_arg9 m (outs m) c),
        (h (Proc.devRef .tc main_arg10) (Finset.mem_filter.mpr ⟨StableHlo.devRef_mem_tcRefs main_arg10, by decide⟩)).trans (V9_main_arg10 m (outs m) c),
        (h (Proc.devRef .tc main_arg11) (Finset.mem_filter.mpr ⟨StableHlo.devRef_mem_tcRefs main_arg11, by decide⟩)).trans (V9_main_arg11 m (outs m) c),
        (h (Proc.devRef .tc main_arg12) (Finset.mem_filter.mpr ⟨StableHlo.devRef_mem_tcRefs main_arg12, by decide⟩)).trans (V9_main_arg12 m (outs m) c),
        (h (Proc.devRef .tc main_arg13) (Finset.mem_filter.mpr ⟨StableHlo.devRef_mem_tcRefs main_arg13, by decide⟩)).trans (V9_main_arg13 m (outs m) c),
        (h (Proc.devRef .tc main_arg14) (Finset.mem_filter.mpr ⟨StableHlo.devRef_mem_tcRefs main_arg14, by decide⟩)).trans (V9_main_arg14 m (outs m) c)⟩
    · iexact HSI

/-- The frame: every weakly fair execution terminates without a fault and leaves the argument arrays as
    launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_val m ρ)

end Cert.Kernel.Hand

end
-- ==== Proof.KIBlocks0.lean ====
/-
  Where each window's block sits in its array: the first dense layer's region.

  The region walks 25 grid points. At point `t` the aggregated features, the node features, the inverse-degree column
  and the output take rows `2000 t … 2000 t + 1999` of their arrays, every column; the weight matrix and the bias row
  are their whole arrays at every point. So element `(r, k)` of a row-blocked window's block at `t` is the array's
  element `(2000 t + r, k)`, an element of a whole-array window's block is the array's element at the same index, and
  row `p` of the output array lies in the block of point `p / 2000`.
-/
import proofs.«175804_j6906307412089_2_alg».proof.Proof.Gen.KernelIdeal.Launch
import proofs.«175804_j6906307412089_2_alg».proof.Proof.Gen.KernelIdeal.Points
import Idealize.ShloMosaic.Lib.Pipeline.Value
import Idealize.ShloMosaic.Lib.ValueIdx

noncomputable section

namespace Cert.KernelIdeal.BlocksAt

open Cert.KernelIdeal Cert.KernelIdeal.Gen Idealize.ShloMosaic Idealize.ShloMosaic.TcCoe Idealize.SL.Sem
open Idealize.ShloMosaic.ValueIdx

variable {Val : EltTy → Type}

/-- Two indices of a two-axis shape with the same coordinates are the same index. -/
theorem idx2_ext {n0 n1 : ℕ} (i k : (⟨2, ![n0, n1]⟩ : Shape).Idx)
    (h0 : (i 0).val = (k 0).val) (h1 : (i 1).val = (k 1).val) : i = k :=
  funext fun a => Fin.ext (by
    match a with
    | ⟨0, _⟩ => exact h0
    | ⟨1, _⟩ => exact h1)

/-- The printed index maps, decided over the 25 points: the four row-blocked windows are at block row `t`, the weights
    and the bias row at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregated features' block at point `t`, read at `y`: the array at row `2000 t + y₀`, column `y₁`. -/
theorem read_blk0_0 (A : S50000x64.Idx → Val .f32) (t : Fin cfg0.N) (y : S2000x64.Idx) (k : S50000x64.Idx)
    (hk0 : (k 0).val = 2000 * t.val + (y 0).val) (hk1 : (k 1).val = (y 1).val) :
    ((cfg0.win 0).blk t).view.read Val A y = A k := by
  obtain ⟨e0, e1, -⟩ := idx0 t
  rw [View.read_apply]
  show A _ = A k
  exact congrArg A (idx2_ext _ k
    (by show win0_0.index t 0 * 2000 + 1 * (y 0).val = (k 0).val; omega)
    (by show win0_0.index t 1 * 64 + 1 * (y 1).val = (k 1).val; omega))

/-- The node features' block at point `t`: the same rows of its array. -/
theorem read_blk0_1 (A : S50000x64.Idx → Val .f32) (t : Fin cfg0.N) (y : S2000x64.Idx) (k : S50000x64.Idx)
    (hk0 : (k 0).val = 2000 * t.val + (y 0).val) (hk1 : (k 1).val = (y 1).val) :
    ((cfg0.win 1).blk t).view.read Val A y = A k := by
  obtain ⟨-, -, e0, e1, -⟩ := idx0 t
  rw [View.read_apply]
  show A _ = A k
  exact congrArg A (idx2_ext _ k
    (by show win0_1.index t 0 * 2000 + 1 * (y 0).val = (k 0).val; omega)
    (by show win0_1.index t 1 * 64 + 1 * (y 1).val = (k 1).val; omega))

/-- The inverse-degree column's block at point `t`: the same rows of the column. -/
theorem read_blk0_2 (A : S50000x1.Idx → Val .f32) (t : Fin cfg0.N) (y : S2000x1.Idx) (k : S50000x1.Idx)
    (hk0 : (k 0).val = 2000 * t.val + (y 0).val) (hk1 : (k 1).val = (y 1).val) :
    ((cfg0.win 2).blk t).view.read Val A y = A k := by
  obtain ⟨-, -, -, -, e0, e1, -⟩ := idx0 t
  rw [View.read_apply]
  show A _ = A k
  exact congrArg A (idx2_ext _ k
    (by show win0_2.index t 0 * 2000 + 1 * (y 0).val = (k 0).val; omega)
    (by show win0_2.index t 1 * 1 + 1 * (y 1).val = (k 1).val; omega))

/-- The weight matrix's block at any point is the whole matrix. -/
theorem read_blk0_3 (A : S64x256.Idx → Val .f32) (t : Fin cfg0.N) (y : S64x256.Idx) :
    ((cfg0.win 3).blk t).view.read Val A y = A y := by
  obtain ⟨-, -, -, -, -, -, e0, e1, -⟩ := idx0 t
  rw [View.read_apply]
  show A _ = A y
  exact congrArg A (idx2_ext _ y
    (by show win0_3.index t 0 * 64 + 1 * (y 0).val = (y 0).val; omega)
    (by show win0_3.index t 1 * 256 + 1 * (y 1).val = (y 1).val; omega))

/-- The bias row's block at any point is the whole row. -/
theorem read_blk0_4 (A : S1x256.Idx → Val .f32) (t : Fin cfg0.N) (y : S1x256.Idx) :
    ((cfg0.win 4).blk t).view.read Val A y = A y := by
  obtain ⟨-, -, -, -, -, -, -, -, e0, e1, -⟩ := idx0 t
  rw [View.read_apply]
  show A _ = A y
  exact congrArg A (idx2_ext _ y
    (by show win0_4.index t 0 * 1 + 1 * (y 0).val = (y 0).val; omega)
    (by show win0_4.index t 1 * 256 + 1 * (y 1).val = (y 1).val; omega))

/-- The output's block at point `t`, read at `y`: the output array at row `2000 t + y₀`, column `y₁`. -/
theorem read_blk0_5 (A : S50000x256.Idx → Val .bf16) (t : Fin cfg0.N) (y : S2000x256.Idx) (k : S50000x256.Idx)
    (hk0 : (k 0).val = 2000 * t.val + (y 0).val) (hk1 : (k 1).val = (y 1).val) :
    ((cfg0.win 5).blk t).view.read Val A y = A k := by
  obtain ⟨-, -, -, -, -, -, -, -, -, -, e0, e1⟩ := idx0 t
  rw [View.read_apply]
  show A _ = A k
  exact congrArg A (idx2_ext _ k
    (by show win0_5.index t 0 * 2000 + 1 * (y 0).val = (k 0).val; omega)
    (by show win0_5.index t 1 * 256 + 1 * (y 1).val = (k 1).val; omega))

/-- An index of the output array is in point `t`'s block iff each coordinate is in the block's range on its axis. -/
theorem mem_blk0_5 (t : Fin cfg0.N) (i : S50000x256.Idx) :
    i ∈ ((cfg0.win 5).blk t).view.set
      ↔ ∀ a : Fin 2, win0_5.index t a * S2000x256.size a ≤ (i a).val
          ∧ (i a).val < win0_5.index t a * S2000x256.size a + S2000x256.size a := by
  show i ∈ ((View.whole main_v44).slice (win0_5.rect t)).set ↔ _
  rw [View.set_slice_whole, Rect.mem_set_unit]
  exact Iff.rfl

/-- Every index of the output array is in some point's block — row `p` in that of point `p / 2000` — and every point
    writes its block back. -/
theorem cover0_5 (i : S50000x256.Idx) :
    ∃ t : Fin cfg0.N, (cfg0.win 5).flush t = true ∧ i ∈ ((cfg0.win 5).blk t).view.set := by
  have h0 : (i 0).val < 50000 := (i 0).isLt
  have h1 : (i 1).val < 256 := (i 1).isLt
  have hN : cfg0.N = 25 := N_0
  have ht : (i 0).val / 2000 < cfg0.N := by rw [hN]; omega
  refine ⟨⟨(i 0).val / 2000, ht⟩, flush0_5 _, ?_⟩
  rw [mem_blk0_5]
  obtain ⟨-, -, -, -, -, -, -, -, -, -, e0, e1⟩ := idx0 ⟨(i 0).val / 2000, ht⟩
  intro a
  match a with
  | ⟨0, _⟩ =>
    show win0_5.index _ 0 * 2000 ≤ (i 0).val ∧ (i 0).val < win0_5.index _ 0 * 2000 + 2000
    rw [e0]
    show (i 0).val / 2000 * 2000 ≤ (i 0).val ∧ (i 0).val < (i 0).val / 2000 * 2000 + 2000
    omega
  | ⟨1, _⟩ =>
    show win0_5.index _ 1 * 256 ≤ (i 1).val ∧ (i 1).val < win0_5.index _ 1 * 256 + 256
    rw [e1]
    omega

end Cert.KernelIdeal.BlocksAt

end
-- ==== Proof.LibRowGatherScatter.lean ====
/-
  Rows gathered, rows scattered and added, and a matrix product, each read at one element.

  A graph layer moves whole rows: edge `e` reads the row of its source node out of an array `[N, C]` (a gather with one
  start index per edge), and the rows of all edges that end in node `p` are added into row `p` of another array (a
  scatter with an `add` body). This file reads both operations, at the dimension numbers such a layer has, at one
  element `(e, c)` resp. `(p, c)`:

    • the gathered element `(e, c)` is the operand at `(rowOf idx e, c)`, where `rowOf idx e` is edge `e`'s index word read
      as a signed integer and clamped into `[0, N − 1]`;
    • the scattered-and-added element `(p, c)` is the operand's plus the sum, over the edges `e` whose index word read as a
      signed integer is `p` (`edgesInto idx p`), of the update at `(e, c)`; an index word outside `[0, N − 1]` names no node
      and its row is dropped.

  Neither the row `rowOf idx e` nor the edge set `edgesInto idx p` depends on the row width `C`: the same edges feed node
  `p` whether rows of width 3 or of width 32 are moved. The file also reads the product of an `[N, K]` by a `[K, M]`
  matrix at `(p, j)` as the sum over `k` of the products, and the three broadcasts such a layer uses (a scalar to any
  shape, a vector `[E]` to a column `[E, 1]`, a column `[E, 1]` to `[E, C]`) at one element.

  Everything is stated for arbitrary extents `N`, `E`, `C`, `K`, `M`; the dimension-number records are written out with
  their well-formedness condition as a parameter, so a record with the same lists over literal shapes is one of these
  by unfolding.
-/
import Idealize.ShloMosaic.Lib.ValueIdx
import Idealize.ShloMosaic.PureOps.Ideal.Laws
import Idealize.ShloMosaic.Lib.Pipeline.Value

noncomputable section

open scoped BigOperators

namespace Cert.LibRowGatherScatter

open Idealize.ShloMosaic Idealize.ShloMosaic.ValueIdx

/-! ## Gathering rows -/

/-- The dimension numbers of a gather of rows: operand `[N, C]`, one start index per edge (`[E, 1]`, the index vector on
    axis 1), result `[E, C]`; the operand's axis 0 is indexed and collapsed, its axis 1 is the result's offset axis 1, a
    slice is one whole row (`[1, C]`). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index word as a signed integer, clamped into `[0, N − 1]`. It does not depend on the row
    width. -/
def rowOf {N E w : Nat} (hN : 0 < N) (idx : IVec ⟨2, ![E, 1]⟩ w) (e : Fin E) : Fin N :=
  ⟨min (idx (ix2 e 0)).toInt.toNat (N - 1), by omega⟩

/-- On the operand's row axis, the element a gather of rows reads for result element `(e, c)` lies in row `rowOf idx e`:
    the start index is clamped to `N − 1` (a slice is one row), and neither a batching nor an offset coordinate is added
    on a collapsed axis. -/
theorem operandIdx_row {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (((rowGatherDims N E C wf).operandIdx (ix2 e c) idx (0 : Fin 2) : Fin N) : ℕ) = (rowOf hN idx e : ℕ) := by
  show (rowGatherDims N E C wf).start (ix2 e c) idx (0 : Fin 2) + (rowGatherDims N E C wf).batchCoord (ix2 e c) (0 : Fin 2)
    + (rowGatherDims N E C wf).offCoord (ix2 e c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the operand's column axis, the element a gather of rows reads for result element `(e, c)` is in column `c`: the
    axis is not indexed (start `0`) and the result's offset coordinate is `c`. -/
theorem operandIdx_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (((rowGatherDims N E C wf).operandIdx (ix2 e c) idx (1 : Fin 2) : Fin C) : ℕ) = (c : ℕ) := by
  show (rowGatherDims N E C wf).start (ix2 e c) idx (1 : Fin 2) + (rowGatherDims N E C wf).batchCoord (ix2 e c) (1 : Fin 2)
    + (rowGatherDims N E C wf).offCoord (ix2 e c) (1 : Fin 2) = _
  rw [GatherDims.batchCoord_eq_zero _ _ _ List.not_mem_nil]
  have hs : (rowGatherDims N E C wf).start (ix2 e c) idx (1 : Fin 2) = 0 := by
    unfold GatherDims.start
    rw [dif_neg (show (1 : Fin 2) ∉ ([0] : List (Fin 2)) by decide)]
  rw [hs]
  have hk : (1 : Fin 2) ∈ (rowGatherDims N E C wf).sKept :=
    (GatherDims.mem_sKept _ _).2 ⟨show (1 : Fin 2) ∉ ([0] : List (Fin 2)) by decide, List.not_mem_nil⟩
  unfold GatherDims.offCoord
  rw [dif_pos hk]
  simp only [Nat.zero_add, Nat.add_zero]
  rfl

/-- A GATHER OF ROWS READ AT `(e, c)`: the operand at row `rowOf idx e`, column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  congr 1
  funext a
  match a with
  | ⟨0, _⟩ => exact Fin.ext (operandIdx_row hN wf idx e c)
  | ⟨1, _⟩ => exact Fin.ext (operandIdx_col wf idx e c)

/-! ## Scattering rows and adding them -/

/-- The dimension numbers of a scatter of rows: operand `[N, C]`, one scatter index per edge (`[E, 1]`, the index vector
    on axis 1), updates `[E, C]`; the scatter index names the operand's axis 0, which is an inserted window axis, and
    the updates' axis 1 is the window axis, going to the operand's axis 1. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges that end in node `p`: those whose index word, read as a signed integer, is `p`. It does not depend on the row
    width. -/
def edgesInto {N E w : Nat} (idx : IVec ⟨2, ![E, 1]⟩ w) (p : Fin N) : Finset (Fin E) :=
  Finset.univ.filter fun e => (idx (ix2 e 0)).toInt = (p.val : ℤ)

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the operand's row axis the window of update `(e, c)` starts at edge `e`'s index word, read signed, not clamped. -/
theorem scatter_start_row :
    (rowScatterDims N E C wf).start (ix2 e c) idx (0 : Fin 2) = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis, which no scatter index names, the window starts at `0`. -/
theorem scatter_start_col :
    (rowScatterDims N E C wf).start (ix2 e c) idx (1 : Fin 2) = 0 := by
  unfold ScatterDims.start
  rw [dif_neg (show (1 : Fin 2) ∉ ([0] : List (Fin 2)) by decide)]

/-- The row axis is an inserted window axis: the window coordinate there is `0`. -/
theorem scatter_window_row :
    (rowScatterDims N E C wf).window (ix2 e c) (0 : Fin 2) = 0 := by
  unfold ScatterDims.window
  rw [dif_neg (by simp [ScatterDims.sKept, Shape.kept])]

/-- The column axis carries the updates' window axis: the window coordinate there is `c`. -/
theorem scatter_window_col :
    (rowScatterDims N E C wf).window (ix2 e c) (1 : Fin 2) = c.val := by
  unfold ScatterDims.window
  rw [dif_pos (by simp [ScatterDims.sKept, Shape.kept])]
  rfl

/-- Start plus window coordinate on the row axis: edge `e`'s index word, read signed. -/
theorem scatter_sum_row :
    (rowScatterDims N E C wf).start (ix2 e c) idx (0 : Fin 2) + ((rowScatterDims N E C wf).window (ix2 e c) (0 : Fin 2) : ℤ)
      = (idx (ix2 e 0)).toInt := by
  rw [scatter_start_row, scatter_window_row]; simp

/-- Start plus window coordinate on the column axis: `c`. -/
theorem scatter_sum_col :
    (rowScatterDims N E C wf).start (ix2 e c) idx (1 : Fin 2) + ((rowScatterDims N E C wf).window (ix2 e c) (1 : Fin 2) : ℤ)
      = (c.val : ℤ) := by
  rw [scatter_start_col, scatter_window_col]; simp

/-- WHERE AN UPDATE LANDS: update `(e, c)` lands at operand element `(p, c')` exactly when edge `e`'s index word, read
    signed, is `p` and `c = c'`. (An index word that is negative or at least `N` lands nowhere.) -/
theorem resultIdx?_rows_eq_some_iff (p : Fin N) (c' : Fin C) :
    (rowScatterDims N E C wf).resultIdx? (ix2 e c) idx = some (ix2 p c') ↔ ((idx (ix2 e 0)).toInt = (p.val : ℤ) ∧ c = c') := by
  have h0 := scatter_sum_row wf idx e c
  have h1 := scatter_sum_col wf idx e c
  unfold ScatterDims.resultIdx?
  split
  · rename_i h
    rw [Option.some.injEq]
    constructor
    · intro hf
      have e0 : ((rowScatterDims N E C wf).start (ix2 e c) idx (0 : Fin 2)
          + ((rowScatterDims N E C wf).window (ix2 e c) (0 : Fin 2) : ℤ)).toNat = p.val :=
        congrArg Fin.val (congrFun hf (0 : Fin 2))
      have e1 : ((rowScatterDims N E C wf).start (ix2 e c) idx (1 : Fin 2)
          + ((rowScatterDims N E C wf).window (ix2 e c) (1 : Fin 2) : ℤ)).toNat = c'.val :=
        congrArg Fin.val (congrFun hf (1 : Fin 2))
      have hh := (h (0 : Fin 2)).1
      rw [h0] at e0 hh
      rw [h1] at e1
      exact ⟨by omega, Fin.ext (by omega)⟩
    · rintro ⟨ht, rfl⟩
      funext a
      match a with
      | ⟨0, _⟩ =>
        refine Fin.ext ?_
        show ((rowScatterDims N E C wf).start (ix2 e c) idx (0 : Fin 2)
          + ((rowScatterDims N E C wf).window (ix2 e c) (0 : Fin 2) : ℤ)).toNat = p.val
        rw [h0, ht]; simp
      | ⟨1, _⟩ =>
        refine Fin.ext ?_
        show ((rowScatterDims N E C wf).start (ix2 e c) idx (1 : Fin 2)
          + ((rowScatterDims N E C wf).window (ix2 e c) (1 : Fin 2) : ℤ)).toNat = c.val
        rw [h1]; simp
  · rename_i h
    constructor
    · intro hf; cases hf
    · rintro ⟨ht, rfl⟩
      exfalso; apply h; intro a
      match a with
      | ⟨0, _⟩ =>
        show 0 ≤ (rowScatterDims N E C wf).start (ix2 e c) idx (0 : Fin 2)
            + ((rowScatterDims N E C wf).window (ix2 e c) (0 : Fin 2) : ℤ)
          ∧ (rowScatterDims N E C wf).start (ix2 e c) idx (0 : Fin 2)
            + ((rowScatterDims N E C wf).window (ix2 e c) (0 : Fin 2) : ℤ) < ((N : ℕ) : ℤ)
        rw [h0, ht]
        have := p.isLt
        omega
      | ⟨1, _⟩ =>
        show 0 ≤ (rowScatterDims N E C wf).start (ix2 e c) idx (1 : Fin 2)
            + ((rowScatterDims N E C wf).window (ix2 e c) (1 : Fin 2) : ℤ)
          ∧ (rowScatterDims N E C wf).start (ix2 e c) idx (1 : Fin 2)
            + ((rowScatterDims N E C wf).window (ix2 e c) (1 : Fin 2) : ℤ) < ((C : ℕ) : ℤ)
        rw [h1]
        have := c.isLt
        omega

end Scatter

/-- A SCATTER-ADD OF ROWS READ AT `(p, c)`, on the extended reals: the operand's element plus the sum over the edges that
    end in `p` of the update at `(e, c)`. The sum over all update elements that land at `(p, c)` is split by
    coordinates; in row `e` only column `c` can land there, and it does exactly when `e` ends in `p`. -/
theorem scatterAdd_rows_apply {N E C w : Nat} (wf : ScatterDims.WF ⟨2, ![N, C]⟩ ⟨2, ![E, 1]⟩ ⟨2, ![E, C]⟩ [1] [0] [0] 1)
    (idx : IVec ⟨2, ![E, 1]⟩ w) {φ : FTy} (x : FVec Ideal ⟨2, ![N, C]⟩ φ) (upd : FVec Ideal ⟨2, ![E, C]⟩ φ)
    (p : Fin N) (c : Fin C) :
    Host.scatterAdd (F := Ideal) (rowScatterDims N E C wf) x idx upd (ix2 p c)
      = x (ix2 p c) + ∑ e ∈ edgesInto idx p, upd (ix2 e c) := by
  show x (ix2 p c) + ∑ j ∈ Finset.univ.filter (fun j => (rowScatterDims N E C wf).resultIdx? j idx = some (ix2 p c)), upd j = _
  congr 1
  unfold edgesInto
  rw [Finset.sum_filter, Finset.sum_filter, sum_idx2]
  refine Finset.sum_congr rfl fun e _ => ?_
  simp only [resultIdx?_rows_eq_some_iff]
  by_cases ht : (idx (ix2 e 0)).toInt = (p.val : ℤ)
  · simp only [ht, true_and, if_true]
    exact Finset.sum_ite_eq' Finset.univ c (fun b => upd (ix2 e b)) |>.trans (by simp)
  · simp [ht]

/-! ## A matrix product -/

/-- The dimension numbers of the product of an `[N, K]` by a `[K, M]` matrix: the left operand's axis 1 contracted with
    the right operand's axis 0, no batch axes. -/
abbrev rowDotDims (N K M : Nat)
    (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

section Dot
variable {N K M : Nat} (wf : DotDims.WF ⟨2, ![N, K]⟩ ⟨2, ![K, M]⟩ ⟨2, ![N, M]⟩ [1] [0] [0] [1] [] [])

/-- The left operand is read in the result's row. -/
theorem dot_lhs_row (i : (⟨2, ![N, M]⟩ : Shape).Idx) (q : (rowDotDims N K M wf).contr.Idx) :
    ((rowDotDims N K M wf).lhsIdx i q (0 : Fin 2)).val = (i 0).val := by
  unfold DotDims.lhsIdx
  rw [dif_neg (show (0 : Fin 2) ∉ (rowDotDims N K M wf).lhsBatch from List.not_mem_nil),
    dif_pos (show (0 : Fin 2) ∈ (rowDotDims N K M wf).lhsNonContracting from List.mem_singleton.mpr rfl)]
  rfl

/-- The left operand is read in the column the contraction position names. -/
theorem dot_lhs_col (i : (⟨2, ![N, M]⟩ : Shape).Idx) (q : (rowDotDims N K M wf).contr.Idx) :
    ((rowDotDims N K M wf).lhsIdx i q (1 : Fin 2)).val = (q ⟨0, Nat.one_pos⟩).val :=
  (rowDotDims N K M wf).lhsIdx_val_of_single rfl i q

/-- The right operand is read in the row the contraction position names. -/
theorem dot_rhs_row (i : (⟨2, ![N, M]⟩ : Shape).Idx) (q : (rowDotDims N K M wf).contr.Idx) :
    ((rowDotDims N K M wf).rhsIdx i q (0 : Fin 2)).val = (q ⟨0, Nat.one_pos⟩).val :=
  (rowDotDims N K M wf).rhsIdx_val_of_single rfl i q

/-- The right operand is read in the result's column. -/
theorem dot_rhs_col (i : (⟨2, ![N, M]⟩ : Shape).Idx) (q : (rowDotDims N K M wf).contr.Idx) :
    ((rowDotDims N K M wf).rhsIdx i q (1 : Fin 2)).val = (i 1).val := by
  unfold DotDims.rhsIdx
  rw [dif_neg (show (1 : Fin 2) ∉ (rowDotDims N K M wf).rhsBatch from List.not_mem_nil),
    dif_pos (show (1 : Fin 2) ∈ (rowDotDims N K M wf).rhsNonContracting from List.mem_singleton.mpr rfl)]
  rfl

/-- A MATRIX PRODUCT READ AT `(p, j)`, on the extended reals: the sum over `k` of left `(p, k)` times right `(k, j)`. -/
theorem dotGeneral_rows_apply {φ₁ φ₂ : FTy} (prec : Option ContractPrecision)
    (l : FVec Ideal ⟨2, ![N, K]⟩ φ₁) (r : FVec Ideal ⟨2, ![K, M]⟩ φ₂) (p : Fin N) (j : Fin M) :
    Host.dotGeneral (rowDotDims N K M wf) prec l r (ix2 p j) = ∑ k : Fin K, l (ix2 p k) * r (ix2 k j) := by
  simp only [Host.dotGeneral]
  rw [Ideal.dotGeneral_apply, ← Equiv.sum_comp (contrEquiv1 (rowDotDims N K M wf) K rfl rfl).symm]
  refine Finset.sum_congr rfl fun k _ => ?_
  have hk := contrEquiv1_symm_val (rowDotDims N K M wf) K rfl rfl k
  have el : (rowDotDims N K M wf).lhsIdx (ix2 p j) ((contrEquiv1 (rowDotDims N K M wf) K rfl rfl).symm k) = ix2 p k :=
    funext fun a => Fin.ext (by
      match a with
      | ⟨0, _⟩ => exact dot_lhs_row wf _ _
      | ⟨1, _⟩ => exact (dot_lhs_col wf _ _).trans hk)
  have er : (rowDotDims N K M wf).rhsIdx (ix2 p j) ((contrEquiv1 (rowDotDims N K M wf) K rfl rfl).symm k) = ix2 k j :=
    funext fun a => Fin.ext (by
      match a with
      | ⟨0, _⟩ => exact (dot_rhs_row wf _ _).trans hk
      | ⟨1, _⟩ => exact dot_rhs_col wf _ _)
  rw [el, er]

end Dot

/-! ## Broadcasts -/

section Broadcast
variable {α : Type}

/-- A scalar broadcast to any shape reads the scalar everywhere. -/
theorem bcast_scalar_apply {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply _ h y i ix0 (fun a => a.elim0)

/-- A vector `[E]` (more than one element, or none) broadcast to a column `[E, 1]` reads element `e` in row `e`. -/
theorem bcast_col_apply {E : Nat} (hE : E ≠ 1)
    (h : (⟨1, ![E]⟩ : Shape).BroadcastsInDim ⟨2, ![E, 1]⟩ (![0] : Fin 1 → Fin 2))
    (y : (⟨1, ![E]⟩ : Shape).Idx → α) (e : Fin E) (z : Fin 1) :
    broadcastInDim ⟨2, ![E, 1]⟩ ![0] h y (ix2 e z) = y (ix1 e) :=
  broadcastInDim_apply _ h y (ix2 e z) (ix1 e) (fun a => match a with
    | ⟨0, _⟩ => by show e.val = if E = 1 then 0 else e.val; rw [if_neg hE])

/-- A column `[E, 1]` broadcast along its unit axis to `[E, C]` reads the column's element of row `e` everywhere in row
    `e`. -/
theorem bcast_row_apply {E C : Nat} (hE : E ≠ 1)
    (h : (⟨2, ![E, 1]⟩ : Shape).BroadcastsInDim ⟨2, ![E, C]⟩ (![0, 1] : Fin 2 → Fin 2))
    (y : (⟨2, ![E, 1]⟩ : Shape).Idx → α) (e : Fin E) (c : Fin C) :
    broadcastInDim ⟨2, ![E, C]⟩ ![0, 1] h y (ix2 e c) = y (ix2 e 0) :=
  broadcastInDim_apply _ h y (ix2 e c) (ix2 e 0) (fun a => match a with
    | ⟨0, _⟩ => by show e.val = if E = 1 then 0 else e.val; rw [if_neg hE]
    | ⟨1, _⟩ => by show 0 = if (1 : Nat) = 1 then 0 else c.val; rw [if_pos rfl])

end Broadcast

end Cert.LibRowGatherScatter

end
-- ==== Proof.LibMatmulRows.lean ====
/-
  A matrix product into a zero accumulator, read at one element.

  The matrix unit's product of an `[N, K]` by a `[K, M]` array, accumulated into the zero array, is at `(p, j)` the sum
  over `k` of left `(p, k)` times right `(k, j)` on the extended reals: no rounding, no order of summation left in it.
  Stated for arbitrary extents over the dimension numbers "contract the left operand's axis 1 with the right operand's
  axis 0, no batch axes".
-/
import proofs.«175804_j6906307412089_2_alg».proof.Proof.LibRowGatherScatter

noncomputable section

open scoped BigOperators

namespace Cert.LibMatmulRows

open Idealize.ShloMosaic Idealize.ShloMosaic.ValueIdx Cert.LibRowGatherScatter

/-- THE PRODUCT INTO ZERO READ AT `(p, j)`: the sum over `k` of left `(p, k)` times right `(k, j)`. -/
theorem matmul_zero_rows_apply {N K M : Nat} (wf : DotDims.WF ⟨2, ![N, K]⟩ ⟨2, ![K, M]⟩ ⟨2, ![N, M]⟩ [1] [0] [0] [1] [] [])
    {φ₁ φ₂ : FTy} (prec : Option ContractPrecision)
    (l : FVec Ideal ⟨2, ![N, K]⟩ φ₁) (r : FVec Ideal ⟨2, ![K, M]⟩ φ₂) (p : Fin N) (j : Fin M) :
    FloatOps.matmul (rowDotDims N K M wf) prec l r (constant ⟨2, ![N, M]⟩ .f32 0x00000000#32) (ix2 p j)
      = ∑ k : Fin K, l (ix2 p k) * r (ix2 k j) := by
  rw [Ideal.matmul_constant_zero_apply, ← Equiv.sum_comp (contrEquiv1 (rowDotDims N K M wf) K rfl rfl).symm]
  refine Finset.sum_congr rfl fun k _ => ?_
  have hk := contrEquiv1_symm_val (rowDotDims N K M wf) K rfl rfl k
  have el : (rowDotDims N K M wf).lhsIdx (ix2 p j) ((contrEquiv1 (rowDotDims N K M wf) K rfl rfl).symm k) = ix2 p k :=
    funext fun a => Fin.ext (by
      match a with
      | ⟨0, _⟩ => exact dot_lhs_row wf _ _
      | ⟨1, _⟩ => exact (dot_lhs_col wf _ _).trans hk)
  have er : (rowDotDims N K M wf).rhsIdx (ix2 p j) ((contrEquiv1 (rowDotDims N K M wf) K rfl rfl).symm k) = ix2 k j :=
    funext fun a => Fin.ext (by
      match a with
      | ⟨0, _⟩ => exact (dot_rhs_row wf _ _).trans hk
      | ⟨1, _⟩ => exact dot_rhs_col wf _ _)
  rw [el, er]

end Cert.LibMatmulRows

end
-- ==== Proof.LibDenseRow.lean ====
/-
  A dense layer read on one row, on the extended reals.

  A layer y = x · W + b applied to a batch of rows acts on each row by itself:

      y(r, j) = (∑ₖ x(r, k) · W(k, j)) + b(j).

  This file states that once, for a rows × columns contraction of any extents, in the two spellings a program can
  give it: a matrix product accumulated into a zero array and then a bias row broadcast down the rows, and a host
  contraction followed by a bias vector broadcast to a row and then down the rows. Both are `affine` of the row, of
  the weights read by coordinates, and of the bias read by its column. Nothing here needs finiteness: only the
  definitions of the operations on the extended reals are opened, no law of arithmetic is used.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibDenseRow

open Idealize.ShloMosaic Idealize.ShloMosaic.ValueIdx

/-- Column `j` of `x · W + b` for one row `x`. -/
def affine {K N : Nat} (x : Fin K → EReal) (W : Fin K → Fin N → EReal) (b : Fin N → EReal) (j : Fin N) : EReal :=
  (∑ k, x k * W k j) + b j

/-- The contraction of a rows × columns product at entry `(p, q)` runs over the one shared axis: it is the sum over
    `k` of the left operand at `(p, k)` times the right operand at `(k, q)`. -/
theorem plain_contraction (M K N : Nat) (l : (⟨2, ![M, K]⟩ : Shape).Idx → EReal) (r : (⟨2, ![K, N]⟩ : Shape).Idx → EReal)
    (p : Fin M) (q : Fin N) :
    ∑ c : (DotDims.plain M K N).contr.Idx,
        l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A matrix product accumulated into the zero array, at entry `(p, q)`. -/
theorem matmul_zero_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    matmul (DotDims.plain M K N) prec X W (constant ⟨2, ![M, N]⟩ .f32 0x00000000#32) (ix2 p q)
      = ∑ k : Fin K, X (ix2 p k) * W (ix2 k q) :=
  (Ideal.matmul_constant_zero_apply (DotDims.plain M K N) prec X W (ix2 p q)).trans (plain_contraction M K N X W p q)

/-- A host contraction, at entry `(p, q)`. -/
theorem dotGeneral_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    Host.dotGeneral (DotDims.plain M K N) prec X W (ix2 p q) = ∑ k : Fin K, X (ix2 p k) * W (ix2 k q) :=
  (Ideal.dotGeneral_apply (DotDims.plain M K N) prec .single X W (ix2 p q)).trans (plain_contraction M K N X W p q)

/-- A bias row `[1, N]` broadcast down `M` rows reads its column. -/
theorem biasRow_apply {α : Type} (M N : Nat) (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 0 q) :=
  broadcastTo_apply b h (ix2 p q) (ix2 0 q) (fun a => by
    match a with
    | ⟨0, _⟩ => rfl
    | ⟨1, _⟩ =>
      show q.val = if N = 1 then 0 else q.val
      split
      · have := q.isLt; omega
      · rfl)

/-- A bias vector `[N]` broadcast to a row `[1, N]` and then down `M` rows reads its entry. -/
theorem biasVec_apply {α : Type} (M N : Nat) (b : (⟨1, ![N]⟩ : Shape).Idx → α)
    (h₁ : (⟨1, ![N]⟩ : Shape).BroadcastsInDim ⟨2, ![1, N]⟩ ![1])
    (h₂ : (⟨2, ![1, N]⟩ : Shape).BroadcastsInDim ⟨2, ![M, N]⟩ ![0, 1]) (p : Fin M) (q : Fin N) :
    broadcastInDim ⟨2, ![M, N]⟩ ![0, 1] h₂ (broadcastInDim ⟨2, ![1, N]⟩ ![1] h₁ b) (ix2 p q) = b (ix1 q) := by
  rw [broadcastInDim_apply ![0, 1] h₂ _ (ix2 p q) (ix2 0 q) (fun a => by
    match a with
    | ⟨0, _⟩ => rfl
    | ⟨1, _⟩ =>
      show q.val = if N = 1 then 0 else q.val
      split
      · have := q.isLt; omega
      · rfl)]
  exact broadcastInDim_apply ![1] h₁ b (ix2 0 q) (ix1 q) (fun a => by
    match a with
    | ⟨0, _⟩ =>
      show q.val = if N = 1 then 0 else q.val
      split
      · have := q.isLt; omega
      · rfl)

end Cert.LibDenseRow

end
-- ==== Proof.KIPayload.lean ====
/-
  The four kernel bodies' stored values, read at one index, on the extended reals.

  Each of the first three bodies is a dense layer over a block of 2000 rows whose input row is formed on the fly:

      x(r, k)   = agg(r, k) + h(r, k) · d(r, 0)                    (the aggregate plus the scaled self term)
      out(r, j) = act( (∑ₖ x(r, k) · W(k, j)) + b(0, j) )

  with act = max(·, 0) for the first two and the identity for the third. The fourth is a two-layer perceptron over a
  block of 512 rows,

      hid(r, j) = max( (∑ₖ z(r, k) · W₁(k, j)) + b₁(0, j), 0 ),     out(r, 0) = (∑ⱼ hid(r, j) · W₂(j, 0)) + b₂(0, 0).

  On the extended reals a change of float format is the identity, a matrix product into the zero array is the plain
  sum of products, a row `[1, M]` broadcast down the rows reads its column and a column `[N, 1]` broadcast across the
  columns reads its row; so each stored value at `(r, j)` is literally the formula above. No law of arithmetic is used:
  only the operations' definitions are opened.
-/
import proofs.«175804_j6906307412089_2_alg».proof.Proof.Gen.KernelIdeal.Skeleton
import proofs.«175804_j6906307412089_2_alg».proof.Proof.LibMatmulRows
import proofs.«175804_j6906307412089_2_alg».proof.Proof.LibRowGatherScatter
import proofs.«175804_j6906307412089_2_alg».proof.Proof.LibDenseRow
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayloadAt

open Idealize.ShloMosaic Idealize.ShloMosaic.ValueIdx Cert.KernelIdeal Cert.LibMatmulRows Cert.LibRowGatherScatter

/-! ## A column broadcast across the columns -/

/-- A column `[a, 1]` broadcast across `b` columns reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A dense layer, and the one with the fused self term, for any extents -/

section Dense
variable {N K M : ℕ}

/-- A dense layer's pre-activation at `(r, j)`: the product of the input block with the weights into the zero array,
    plus the bias row broadcast down the rows, is `(∑ₖ x(r, k) · W(k, j)) + b(0, j)`. -/
theorem dense_apply (wf : DotDims.WF ⟨2, ![N, K]⟩ ⟨2, ![K, M]⟩ ⟨2, ![N, M]⟩ [1] [0] [0] [1] [] [])
    {φx φw : FTy} (prec : Option ContractPrecision)
    (x : FVec Ideal ⟨2, ![N, K]⟩ φx) (W : FVec Ideal ⟨2, ![K, M]⟩ φw) (b : FVec Ideal ⟨2, ![1, M]⟩ .f32)
    (hb : (⟨2, ![1, M]⟩ : Shape).Broadcasts ⟨2, ![N, M]⟩) (r : Fin N) (j : Fin M) :
    FloatOps.matmul (rowDotDims N K M wf) prec x W (constant ⟨2, ![N, M]⟩ .f32 0x00000000#32) (ix2 r j)
        + broadcastTo ⟨2, ![N, M]⟩ b hb (ix2 r j)
      = (∑ k : Fin K, x (ix2 r k) * W (ix2 k j)) + b (ix2 0 j) := by
  rw [matmul_zero_rows_apply wf prec x W r j, broadcastTo_1b_ab_apply b hb r j]

/-- The same layer when its input block is formed on the fly as `agg + h · d`, the column `d` broadcast across the
    row: the pre-activation at `(r, j)` is `(∑ₖ (agg(r, k) + h(r, k) · d(r, 0)) · W(k, j)) + b(0, j)`. -/
theorem fusedDense_apply (wf : DotDims.WF ⟨2, ![N, K]⟩ ⟨2, ![K, M]⟩ ⟨2, ![N, M]⟩ [1] [0] [0] [1] [] [])
    {φx φw : FTy} (prec : Option ContractPrecision)
    (agg hs : (⟨2, ![N, K]⟩ : Shape).Idx → EReal) (d : (⟨2, ![N, 1]⟩ : Shape).Idx → EReal)
    (W : FVec Ideal ⟨2, ![K, M]⟩ φw) (b : FVec Ideal ⟨2, ![1, M]⟩ .f32)
    (hd : (⟨2, ![N, 1]⟩ : Shape).Broadcasts ⟨2, ![N, K]⟩) (hb : (⟨2, ![1, M]⟩ : Shape).Broadcasts ⟨2, ![N, M]⟩)
    (x : FVec Ideal ⟨2, ![N, K]⟩ φx)
    (hx : ∀ i, x i = agg i + hs i * broadcastTo ⟨2, ![N, K]⟩ d hd i)
    (r : Fin N) (j : Fin M) :
    FloatOps.matmul (rowDotDims N K M wf) prec x W (constant ⟨2, ![N, M]⟩ .f32 0x00000000#32) (ix2 r j)
        + broadcastTo ⟨2, ![N, M]⟩ b hb (ix2 r j)
      = (∑ k : Fin K, (agg (ix2 r k) + hs (ix2 r k) * d (ix2 r 0)) * W (ix2 k j)) + b (ix2 0 j) := by
  rw [dense_apply wf prec x W b hb r j]
  refine congrArg (· + b (ix2 0 j)) (Finset.sum_congr rfl fun k _ => ?_)
  rw [hx (ix2 r k), broadcastTo_a1_ab_apply d hd r k]

end Dense

/-! ## The four bodies -/

/-- The first body (64 input features, rectified): `out(r, j) = max((∑ₖ (agg + h·d)(r, k) · W(k, j)) + b(0, j), 0)`. -/
theorem k0_pay1_apply (v0 v2 : Vec Ideal S2000x64 .f32) (v3 : Vec Ideal S2000x1 .f32) (v9 : Vec Ideal S64x256 .f32)
    (v12 : Vec Ideal S1x256 .f32) (r : Fin 2000) (j : Fin 256) :
    Gen.k0_pay1 (F := Ideal) v0 v2 v3 v9 v12 (ix2 r j)
      = max ((∑ k : Fin 64, (v0 (ix2 r k) + v2 (ix2 r k) * v3 (ix2 r 0)) * v9 (ix2 k j)) + v12 (ix2 0 j)) 0 := by
  unfold Gen.k0_pay1
  simp only [shapeCast_self]
  show max (FloatOps.matmul (F := Ideal) (rowDotDims 2000 64 256 _) none _ _ (constant (F := Ideal) ⟨2, ![2000, 256]⟩ .f32 0x00000000#32) (ix2 r j)
      + broadcastTo ⟨2, ![2000, 256]⟩ v12 _ (ix2 r j)) (Ideal.ofBits .f32 0x00000000#32) = _
  rw [Ideal.ofBits_zero_f32]
  exact congrArg (max · 0) (fusedDense_apply _ none v0 v2 v3 _ v12 _ _ _ (fun _ => rfl) r j)

/-- The second body (256 input features, rectified): the same formula. -/
theorem k1_pay1_apply (v0 : Vec Ideal S2000x256 .f32) (v2 : Vec Ideal S2000x256 .bf16) (v5 : Vec Ideal S2000x1 .f32)
    (v11 : Vec Ideal S256x256 .f32) (v14 : Vec Ideal S1x256 .f32) (r : Fin 2000) (j : Fin 256) :
    Gen.k1_pay1 (F := Ideal) v0 v2 v5 v11 v14 (ix2 r j)
      = max ((∑ k : Fin 256, (v0 (ix2 r k) + v2 (ix2 r k) * v5 (ix2 r 0)) * v11 (ix2 k j)) + v14 (ix2 0 j)) 0 := by
  unfold Gen.k1_pay1
  simp only [shapeCast_self]
  show max (FloatOps.matmul (F := Ideal) (rowDotDims 2000 256 256 _) none _ _ (constant (F := Ideal) ⟨2, ![2000, 256]⟩ .f32 0x00000000#32) (ix2 r j)
      + broadcastTo ⟨2, ![2000, 256]⟩ v14 _ (ix2 r j)) (Ideal.ofBits .f32 0x00000000#32) = _
  rw [Ideal.ofBits_zero_f32]
  exact congrArg (max · 0) (fusedDense_apply _ none v0 v2 v5 _ v14 _ _ _ (fun _ => rfl) r j)

/-- The third body (256 input features, no activation): `out(r, j) = (∑ₖ (agg + h·d)(r, k) · W(k, j)) + b(0, j)`. -/
theorem k2_pay1_apply (v0 : Vec Ideal S2000x256 .f32) (v2 : Vec Ideal S2000x256 .bf16) (v5 : Vec Ideal S2000x1 .f32)
    (v11 : Vec Ideal S256x256 .f32) (v14 : Vec Ideal S1x256 .f32) (r : Fin 2000) (j : Fin 256) :
    Gen.k2_pay1 (F := Ideal) v0 v2 v5 v11 v14 (ix2 r j)
      = (∑ k : Fin 256, (v0 (ix2 r k) + v2 (ix2 r k) * v5 (ix2 r 0)) * v11 (ix2 k j)) + v14 (ix2 0 j) := by
  unfold Gen.k2_pay1
  simp only [shapeCast_self]
  show FloatOps.matmul (F := Ideal) (rowDotDims 2000 256 256 _) none _ _ (constant (F := Ideal) ⟨2, ![2000, 256]⟩ .f32 0x00000000#32) (ix2 r j)
      + broadcastTo ⟨2, ![2000, 256]⟩ v14 _ (ix2 r j) = _
  exact fusedDense_apply _ none v0 v2 v5 _ v14 _ _ _ (fun _ => rfl) r j

/-- The fourth body (a two-layer perceptron, one output column):
    `out(r, 0) = (∑ⱼ max((∑ₖ z(r, k) · W₁(k, j)) + b₁(0, j), 0) · W₂(j, 0)) + b₂(0, 0)`. -/
theorem k3_pay1_apply (v0 : Vec Ideal S512x768 .f32) (v3 : Vec Ideal S768x256 .f32) (v6 : Vec Ideal S1x256 .f32)
    (v13 : Vec Ideal S256x1 .f32) (v16 : Vec Ideal S1x1 .f32) (r : Fin 512) :
    Gen.k3_pay1 (F := Ideal) v0 v3 v6 v13 v16 (ix2 r 0)
      = (∑ j : Fin 256, max ((∑ k : Fin 768, v0 (ix2 r k) * v3 (ix2 k j)) + v6 (ix2 0 j)) 0 * v13 (ix2 j 0))
          + v16 (ix2 0 0) := by
  unfold Gen.k3_pay1
  simp only [shapeCast_self]
  show FloatOps.matmul (F := Ideal) (rowDotDims 512 256 1 _) none _ _ (constant (F := Ideal) ⟨2, ![512, 1]⟩ .f32 0x00000000#32) (ix2 r 0)
      + broadcastTo ⟨2, ![512, 1]⟩ v16 _ (ix2 r 0) = _
  refine (dense_apply _ none _ _ v16 _ r 0).trans ?_
  refine congrArg (· + v16 (ix2 0 0)) (Finset.sum_congr rfl fun j _ => ?_)
  refine congrArg (· * v13 (ix2 j 0)) ?_
  show max (FloatOps.matmul (F := Ideal) (rowDotDims 512 768 256 _) none _ _ (constant (F := Ideal) ⟨2, ![512, 256]⟩ .f32 0x00000000#32) (ix2 r j)
      + broadcastTo ⟨2, ![512, 256]⟩ v6 _ (ix2 r j)) (Ideal.ofBits .f32 0x00000000#32) = _
  rw [Ideal.ofBits_zero_f32]
  exact congrArg (max · 0) (dense_apply _ none _ _ v6 _ r j)

end Cert.KernelIdeal.PayloadAt

end
-- ==== Proof.KIDense.lean ====
/-
  The dense layer with the fused self term, as a function of whole arrays, and how a block's value is one of its rows.

  For arrays `agg, x : [N, K]`, a column `d : [N, 1]`, weights `W : [K, M]` and a bias row `b : [1, M]`,

      denseLin  agg x d W b p j = (∑ₖ (agg(p, k) + x(p, k) · d(p, 0)) · W(k, j)) + b(0, j)
      denseRelu agg x d W b p j = max(denseLin agg x d W b p j, 0).

  A body works on blocks of `n` rows. If row `r` of each row-blocked operand's block is row `P` of its array, and the
  weights' and the bias row's blocks are the arrays themselves, then the body's formula at `(r, j)` of the blocks is the
  layer at `(P, j)` of the arrays: the formula only reads row `r`.
-/
import Idealize.ShloMosaic.PureOps.Ideal
import Idealize.ShloMosaic.Lib.ValueIdx

noncomputable section

open scoped BigOperators

namespace Cert.KernelIdeal.FinalAt

open Idealize.ShloMosaic Idealize.ShloMosaic.ValueIdx

variable {n N K M : ℕ}

/-- The dense layer with the fused self term, row `p`, column `j`, of whole arrays. -/
def denseLin (agg x : (⟨2, ![N, K]⟩ : Shape).Idx → EReal) (d : (⟨2, ![N, 1]⟩ : Shape).Idx → EReal)
    (W : (⟨2, ![K, M]⟩ : Shape).Idx → EReal) (b : (⟨2, ![1, M]⟩ : Shape).Idx → EReal) (p : Fin N) (j : Fin M) : EReal :=
  (∑ k : Fin K, (agg (ix2 p k) + x (ix2 p k) * d (ix2 p 0)) * W (ix2 k j)) + b (ix2 0 j)

/-- The same followed by the rectifier. -/
def denseRelu (agg x : (⟨2, ![N, K]⟩ : Shape).Idx → EReal) (d : (⟨2, ![N, 1]⟩ : Shape).Idx → EReal)
    (W : (⟨2, ![K, M]⟩ : Shape).Idx → EReal) (b : (⟨2, ![1, M]⟩ : Shape).Idx → EReal) (p : Fin N) (j : Fin M) : EReal :=
  max (denseLin agg x d W b p j) 0

theorem denseLin_def (agg x : (⟨2, ![N, K]⟩ : Shape).Idx → EReal) (d : (⟨2, ![N, 1]⟩ : Shape).Idx → EReal)
    (W : (⟨2, ![K, M]⟩ : Shape).Idx → EReal) (b : (⟨2, ![1, M]⟩ : Shape).Idx → EReal) (p : Fin N) (j : Fin M) :
    denseLin agg x d W b p j = (∑ k : Fin K, (agg (ix2 p k) + x (ix2 p k) * d (ix2 p 0)) * W (ix2 k j)) + b (ix2 0 j) := rfl

theorem denseRelu_def (agg x : (⟨2, ![N, K]⟩ : Shape).Idx → EReal) (d : (⟨2, ![N, 1]⟩ : Shape).Idx → EReal)
    (W : (⟨2, ![K, M]⟩ : Shape).Idx → EReal) (b : (⟨2, ![1, M]⟩ : Shape).Idx → EReal) (p : Fin N) (j : Fin M) :
    denseRelu agg x d W b p j
      = max ((∑ k : Fin K, (agg (ix2 p k) + x (ix2 p k) * d (ix2 p 0)) * W (ix2 k j)) + b (ix2 0 j)) 0 := rfl

/-- The body's formula on blocks whose row `r` is row `P` of the arrays is the layer at row `P` of the arrays. -/
theorem denseLin_of_blocks (x0 x1 : (⟨2, ![n, K]⟩ : Shape).Idx → EReal) (x2 : (⟨2, ![n, 1]⟩ : Shape).Idx → EReal)
    (x3 : (⟨2, ![K, M]⟩ : Shape).Idx → EReal) (x4 : (⟨2, ![1, M]⟩ : Shape).Idx → EReal)
    (A0 A1 : (⟨2, ![N, K]⟩ : Shape).Idx → EReal) (A2 : (⟨2, ![N, 1]⟩ : Shape).Idx → EReal)
    (A3 : (⟨2, ![K, M]⟩ : Shape).Idx → EReal) (A4 : (⟨2, ![1, M]⟩ : Shape).Idx → EReal)
    (r : Fin n) (j : Fin M) (P : Fin N)
    (e0 : ∀ k : Fin K, x0 (ix2 r k) = A0 (ix2 P k)) (e1 : ∀ k : Fin K, x1 (ix2 r k) = A1 (ix2 P k))
    (e2 : x2 (ix2 r 0) = A2 (ix2 P 0)) (e3 : ∀ k : Fin K, x3 (ix2 k j) = A3 (ix2 k j)) (e4 : x4 (ix2 0 j) = A4 (ix2 0 j)) :
    (∑ k : Fin K, (x0 (ix2 r k) + x1 (ix2 r k) * x2 (ix2 r 0)) * x3 (ix2 k j)) + x4 (ix2 0 j)
      = denseLin A0 A1 A2 A3 A4 P j := by
  rw [denseLin_def, e2, e4]
  exact congrArg (· + A4 (ix2 0 j)) (Finset.sum_congr rfl fun k _ => by rw [e0 k, e1 k, e3 k])

/-- The same under the rectifier. -/
theorem denseRelu_of_blocks (x0 x1 : (⟨2, ![n, K]⟩ : Shape).Idx → EReal) (x2 : (⟨2, ![n, 1]⟩ : Shape).Idx → EReal)
    (x3 : (⟨2, ![K, M]⟩ : Shape).Idx → EReal) (x4 : (⟨2, ![1, M]⟩ : Shape).Idx → EReal)
    (A0 A1 : (⟨2, ![N, K]⟩ : Shape).Idx → EReal) (A2 : (⟨2, ![N, 1]⟩ : Shape).Idx → EReal)
    (A3 : (⟨2, ![K, M]⟩ : Shape).Idx → EReal) (A4 : (⟨2, ![1, M]⟩ : Shape).Idx → EReal)
    (r : Fin n) (j : Fin M) (P : Fin N)
    (e0 : ∀ k : Fin K, x0 (ix2 r k) = A0 (ix2 P k)) (e1 : ∀ k : Fin K, x1 (ix2 r k) = A1 (ix2 P k))
    (e2 : x2 (ix2 r 0) = A2 (ix2 P 0)) (e3 : ∀ k : Fin K, x3 (ix2 k j) = A3 (ix2 k j)) (e4 : x4 (ix2 0 j) = A4 (ix2 0 j)) :
    max ((∑ k : Fin K, (x0 (ix2 r k) + x1 (ix2 r k) * x2 (ix2 r 0)) * x3 (ix2 k j)) + x4 (ix2 0 j)) 0
      = denseRelu A0 A1 A2 A3 A4 P j :=
  congrArg (max · 0) (denseLin_of_blocks x0 x1 x2 x3 x4 A0 A1 A2 A3 A4 r j P e0 e1 e2 e3 e4)

end Cert.KernelIdeal.FinalAt

end
-- ==== Proof.KIFinal0.lean ====
/-
  The first dense layer's output array after its region, as one function of the five arrays the region reads.

  Point `t` of the region overwrites rows `2000 t … 2000 t + 1999` of the output with the body's value on the same
  rows of the aggregated features, the node features and the inverse-degree column, and on the whole weight matrix and
  bias row. The body's value at `(r, j)` only involves row `r` of the row-blocked inputs, so what point `t` writes is
  rows `2000 t …` of ONE array-wide function, the dense layer row by row:

      out(p, j) = max( (∑ₖ (agg(p, k) + x(p, k) · d(p, 0)) · W(k, j)) + b(0, j), 0 ).

  The 25 blocks cover the output, so after the region the output array is that function.
-/
import proofs.«175804_j6906307412089_2_alg».proof.Proof.KIData0
import proofs.«175804_j6906307412089_2_alg».proof.Proof.KIBlocks0
import proofs.«175804_j6906307412089_2_alg».proof.Proof.KIPayload
import proofs.«175804_j6906307412089_2_alg».proof.Proof.KIDense

noncomputable section

open scoped BigOperators

namespace Cert.KernelIdeal.FinalAt

open Cert.KernelIdeal Cert.KernelIdeal.Gen Cert.KernelIdeal.Hand Cert.KernelIdeal.BlocksAt Cert.KernelIdeal.PayloadAt
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The array-wide function the first region's output ends at, of the arrays as the region finds them. -/
def G0 (c : Dev nD) : S50000x256.Idx → EReal := fun i =>
  denseRelu (V c main_v42 : S50000x64.Idx → EReal) (V c main_arg0 : S50000x64.Idx → EReal)
    (V c main_v14 : S50000x1.Idx → EReal) (V c main_arg5 : S64x256.Idx → EReal) (V c main_v43 : S1x256.Idx → EReal)
    (i 0) (i 1)

/-- The body on blocks whose row `r` is row `P` of the arrays: the layer at row `P`. -/
theorem point0 (x0 x1 : Vec Ideal S2000x64 .f32) (x2 : Vec Ideal S2000x1 .f32) (x3 : Vec Ideal S64x256 .f32)
    (x4 : Vec Ideal S1x256 .f32) (A0 A1 : S50000x64.Idx → EReal) (A2 : S50000x1.Idx → EReal) (A3 : S64x256.Idx → EReal)
    (A4 : S1x256.Idx → EReal) (r : Fin 2000) (j : Fin 256) (P : Fin 50000)
    (e0 : ∀ k : Fin 64, x0 (ix2 r k) = A0 (ix2 P k)) (e1 : ∀ k : Fin 64, x1 (ix2 r k) = A1 (ix2 P k))
    (e2 : x2 (ix2 r 0) = A2 (ix2 P 0)) (e3 : ∀ k : Fin 64, x3 (ix2 k j) = A3 (ix2 k j)) (e4 : x4 (ix2 0 j) = A4 (ix2 0 j)) :
    out0 x0 x1 x2 x3 x4 (ix2 r j) = denseRelu A0 A1 A2 A3 A4 P j := by
  show Gen.k0_pay1 x0 x1 x2 x3 x4 (ix2 r j) = _
  exact (k0_pay1_apply x0 x1 x2 x3 x4 r j).trans
    (denseRelu_of_blocks x0 x1 x2 x3 x4 A0 A1 A2 A3 A4 r j P e0 e1 e2 e3 e4)

/-- What point `t` writes back is rows `2000 t … 2000 t + 1999` of `G0`. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  have ht : t.val < 25 := Nat.lt_of_lt_of_eq t.isLt N_0
  refine funext fun (y : S2000x256.Idx) => ?_
  obtain ⟨r, j, rfl⟩ : ∃ (r : Fin 2000) (j : Fin 256), y = ix2 r j := ⟨y 0, y 1, eq_ix2 y⟩
  have hr : r.val < 2000 := r.isLt
  refine Eq.trans ?_ (read_blk0_5 (Val := Elt Ideal) (G0 V c) t (ix2 r j)
    (ix2 (⟨2000 * t.val + r.val, by omega⟩ : Fin 50000) j) rfl rfl).symm
  show out0 (iblk0 V c 0 t) (iblk0 V c 1 t) (iblk0 V c 2 t) (iblk0 V c 3 t) (iblk0 V c 4 t) (ix2 r j)
    = denseRelu (V c main_v42 : S50000x64.Idx → EReal) (V c main_arg0 : S50000x64.Idx → EReal)
        (V c main_v14 : S50000x1.Idx → EReal) (V c main_arg5 : S64x256.Idx → EReal) (V c main_v43 : S1x256.Idx → EReal)
        (⟨2000 * t.val + r.val, by omega⟩ : Fin 50000) j
  exact point0 _ _ _ _ _ _ _ _ _ _ r j _
    (fun k => read_blk0_0 (Val := Elt Ideal) _ t (ix2 r k) _ rfl rfl)
    (fun k => read_blk0_1 (Val := Elt Ideal) _ t (ix2 r k) _ rfl rfl)
    (read_blk0_2 (Val := Elt Ideal) _ t (ix2 r 0) _ rfl rfl)
    (fun k => read_blk0_3 (Val := Elt Ideal) _ t (ix2 k j))
    (read_blk0_4 (Val := Elt Ideal) _ t (ix2 0 j))

/-- THE OUTPUT ARRAY AFTER THE FIRST REGION is `G0`: the 25 row blocks cover it. -/
theorem arr0_eq (c : Dev nD) : (dat0 V c).arrAt 5 cfg0.N = G0 V c :=
  (dat0 V c).arrAt_eq_of_cover 5 (G0 V c) (fun t _ => flushed0_eq V c t) cover0_5

/-- The same, index by index, for whatever the five arrays are known to be (`h0 … h4`): row `p`, column `j` of the
    output is the dense layer on row `p` of the inputs. -/
theorem final0 (c : Dev nD) (A0 A1 : S50000x64.Idx → EReal) (A2 : S50000x1.Idx → EReal) (A3 : S64x256.Idx → EReal)
    (A4 : S1x256.Idx → EReal) (h0 : V c main_v42 = A0) (h1 : V c main_arg0 = A1) (h2 : V c main_v14 = A2)
    (h3 : V c main_arg5 = A3) (h4 : V c main_v43 = A4) (p : Fin 50000) (j : Fin 256) :
    ((dat0 V c).arrAt 5 cfg0.N : S50000x256.Idx → EReal) (ix2 p j)
      = max ((∑ k : Fin 64, (A0 (ix2 p k) + A1 (ix2 p k) * A2 (ix2 p 0)) * A3 (ix2 k j)) + A4 (ix2 0 j)) 0 := by
  subst h0 h1 h2 h3 h4
  rw [arr0_eq]
  rfl

end Cert.KernelIdeal.FinalAt

end
-- ==== Proof.KIBlocks1.lean ====
/-
  Where each window's block sits in its array: the second dense layer's region.

  The region walks 25 grid points. At point `t` the aggregated features, the previous layer's output, the
  inverse-degree column and this layer's output take rows `2000 t … 2000 t + 1999` of their arrays, every column; the
  weight matrix and the bias row are their whole arrays at every point.
-/
import proofs.«175804_j6906307412089_2_alg».proof.Proof.KIBlocks0

noncomputable section

namespace Cert.KernelIdeal.BlocksAt

open Cert.KernelIdeal Cert.KernelIdeal.Gen Idealize.ShloMosaic Idealize.ShloMosaic.TcCoe Idealize.SL.Sem
open Idealize.ShloMosaic.ValueIdx

variable {Val : EltTy → Type}

/-- The printed index maps, decided over the 25 points: the four row-blocked windows are at block row `t`, the weights
    and the bias row at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated features' block at point `t`, read at `y`: the array at row `2000 t + y₀`, column `y₁`. -/
theorem read_blk1_0 (A : S50000x256.Idx → Val .f32) (t : Fin cfg1.N) (y : S2000x256.Idx) (k : S50000x256.Idx)
    (hk0 : (k 0).val = 2000 * t.val + (y 0).val) (hk1 : (k 1).val = (y 1).val) :
    ((cfg1.win 0).blk t).view.read Val A y = A k := by
  obtain ⟨e0, e1, -⟩ := idx1 t
  rw [View.read_apply]
  show A _ = A k
  exact congrArg A (idx2_ext _ k
    (by show win1_0.index t 0 * 2000 + 1 * (y 0).val = (k 0).val; omega)
    (by show win1_0.index t 1 * 256 + 1 * (y 1).val = (k 1).val; omega))

/-- The previous layer's output's block at point `t`: the same rows of its array. -/
theorem read_blk1_1 (A : S50000x256.Idx → Val .bf16) (t : Fin cfg1.N) (y : S2000x256.Idx) (k : S50000x256.Idx)
    (hk0 : (k 0).val = 2000 * t.val + (y 0).val) (hk1 : (k 1).val = (y 1).val) :
    ((cfg1.win 1).blk t).view.read Val A y = A k := by
  obtain ⟨-, -, e0, e1, -⟩ := idx1 t
  rw [View.read_apply]
  show A _ = A k
  exact congrArg A (idx2_ext _ k
    (by show win1_1.index t 0 * 2000 + 1 * (y 0).val = (k 0).val; omega)
    (by show win1_1.index t 1 * 256 + 1 * (y 1).val = (k 1).val; omega))

/-- The inverse-degree column's block at point `t`: the same rows of the column. -/
theorem read_blk1_2 (A : S50000x1.Idx → Val .f32) (t : Fin cfg1.N) (y : S2000x1.Idx) (k : S50000x1.Idx)
    (hk0 : (k 0).val = 2000 * t.val + (y 0).val) (hk1 : (k 1).val = (y 1).val) :
    ((cfg1.win 2).blk t).view.read Val A y = A k := by
  obtain ⟨-, -, -, -, e0, e1, -⟩ := idx1 t
  rw [View.read_apply]
  show A _ = A k
  exact congrArg A (idx2_ext _ k
    (by show win1_2.index t 0 * 2000 + 1 * (y 0).val = (k 0).val; omega)
    (by show win1_2.index t 1 * 1 + 1 * (y 1).val = (k 1).val; omega))

/-- The weight matrix's block at any point is the whole matrix. -/
theorem read_blk1_3 (A : S256x256.Idx → Val .f32) (t : Fin cfg1.N) (y : S256x256.Idx) :
    ((cfg1.win 3).blk t).view.read Val A y = A y := by
  obtain ⟨-, -, -, -, -, -, e0, e1, -⟩ := idx1 t
  rw [View.read_apply]
  show A _ = A y
  exact congrArg A (idx2_ext _ y
    (by show win1_3.index t 0 * 256 + 1 * (y 0).val = (y 0).val; omega)
    (by show win1_3.index t 1 * 256 + 1 * (y 1).val = (y 1).val; omega))

/-- The bias row's block at any point is the whole row. -/
theorem read_blk1_4 (A : S1x256.Idx → Val .f32) (t : Fin cfg1.N) (y : S1x256.Idx) :
    ((cfg1.win 4).blk t).view.read Val A y = A y := by
  obtain ⟨-, -, -, -, -, -, -, -, e0, e1, -⟩ := idx1 t
  rw [View.read_apply]
  show A _ = A y
  exact congrArg A (idx2_ext _ y
    (by show win1_4.index t 0 * 1 + 1 * (y 0).val = (y 0).val; omega)
    (by show win1_4.index t 1 * 256 + 1 * (y 1).val = (y 1).val; omega))

/-- The output's block at point `t`, read at `y`: the output array at row `2000 t + y₀`, column `y₁`. -/
theorem read_blk1_5 (A : S50000x256.Idx → Val .bf16) (t : Fin cfg1.N) (y : S2000x256.Idx) (k : S50000x256.Idx)
    (hk0 : (k 0).val = 2000 * t.val + (y 0).val) (hk1 : (k 1).val = (y 1).val) :
    ((cfg1.win 5).blk t).view.read Val A y = A k := by
  obtain ⟨-, -, -, -, -, -, -, -, -, -, e0, e1⟩ := idx1 t
  rw [View.read_apply]
  show A _ = A k
  exact congrArg A (idx2_ext _ k
    (by show win1_5.index t 0 * 2000 + 1 * (y 0).val = (k 0).val; omega)
    (by show win1_5.index t 1 * 256 + 1 * (y 1).val = (k 1).val; omega))

/-- An index of the output array is in point `t`'s block iff each coordinate is in the block's range on its axis. -/
theorem mem_blk1_5 (t : Fin cfg1.N) (i : S50000x256.Idx) :
    i ∈ ((cfg1.win 5).blk t).view.set
      ↔ ∀ a : Fin 2, win1_5.index t a * S2000x256.size a ≤ (i a).val
          ∧ (i a).val < win1_5.index t a * S2000x256.size a + S2000x256.size a := by
  show i ∈ ((View.whole main_v60).slice (win1_5.rect t)).set ↔ _
  rw [View.set_slice_whole, Rect.mem_set_unit]
  exact Iff.rfl

/-- Every index of the output array is in some point's block — row `p` in that of point `p / 2000` — and every point
    writes its block back. -/
theorem cover1_5 (i : S50000x256.Idx) :
    ∃ t : Fin cfg1.N, (cfg1.win 5).flush t = true ∧ i ∈ ((cfg1.win 5).blk t).view.set := by
  have h0 : (i 0).val < 50000 := (i 0).isLt
  have h1 : (i 1).val < 256 := (i 1).isLt
  have hN : cfg1.N = 25 := N_1
  have ht : (i 0).val / 2000 < cfg1.N := by rw [hN]; omega
  refine ⟨⟨(i 0).val / 2000, ht⟩, flush1_5 _, ?_⟩
  rw [mem_blk1_5]
  obtain ⟨-, -, -, -, -, -, -, -, -, -, e0, e1⟩ := idx1 ⟨(i 0).val / 2000, ht⟩
  intro a
  match a with
  | ⟨0, _⟩ =>
    show win1_5.index _ 0 * 2000 ≤ (i 0).val ∧ (i 0).val < win1_5.index _ 0 * 2000 + 2000
    rw [e0]
    show (i 0).val / 2000 * 2000 ≤ (i 0).val ∧ (i 0).val < (i 0).val / 2000 * 2000 + 2000
    omega
  | ⟨1, _⟩ =>
    show win1_5.index _ 1 * 256 ≤ (i 1).val ∧ (i 1).val < win1_5.index _ 1 * 256 + 256
    rw [e1]
    omega

end Cert.KernelIdeal.BlocksAt

end
-- ==== Proof.KIFinal1.lean ====
/-
  The second dense layer's output array after its region, as one function of the five arrays the region reads.

  Point `t` of the region overwrites rows `2000 t … 2000 t + 1999` of the output with the body's value on the same
  rows of the aggregated features, the previous layer's output and the inverse-degree column, and on the whole weight
  matrix and bias row; the body's value at `(r, j)` only involves row `r` of the row-blocked inputs. So after the 25
  points the output array is the dense layer row by row:

      out(p, j) = max( (∑ₖ (agg(p, k) + h(p, k) · d(p, 0)) · W(k, j)) + b(0, j), 0 ).
-/
import proofs.«175804_j6906307412089_2_alg».proof.Proof.KIData1
import proofs.«175804_j6906307412089_2_alg».proof.Proof.KIBlocks1
import proofs.«175804_j6906307412089_2_alg».proof.Proof.KIPayload
import proofs.«175804_j6906307412089_2_alg».proof.Proof.KIDense

noncomputable section

open scoped BigOperators

namespace Cert.KernelIdeal.FinalAt

open Cert.KernelIdeal Cert.KernelIdeal.Gen Cert.KernelIdeal.Hand Cert.KernelIdeal.BlocksAt Cert.KernelIdeal.PayloadAt
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The array-wide function the second region's output ends at, of the arrays as the region finds them. -/
def G1 (c : Dev nD) : S50000x256.Idx → EReal := fun i =>
  denseRelu (V c main_v58 : S50000x256.Idx → EReal) (V c main_v44 : S50000x256.Idx → EReal)
    (V c main_v14 : S50000x1.Idx → EReal) (V c main_arg7 : S256x256.Idx → EReal) (V c main_v59 : S1x256.Idx → EReal)
    (i 0) (i 1)

/-- The body on blocks whose row `r` is row `P` of the arrays: the layer at row `P`. -/
theorem point1 (x0 : Vec Ideal S2000x256 .f32) (x1 : Vec Ideal S2000x256 .bf16) (x2 : Vec Ideal S2000x1 .f32)
    (x3 : Vec Ideal S256x256 .f32) (x4 : Vec Ideal S1x256 .f32) (A0 A1 : S50000x256.Idx → EReal)
    (A2 : S50000x1.Idx → EReal) (A3 : S256x256.Idx → EReal) (A4 : S1x256.Idx → EReal)
    (r : Fin 2000) (j : Fin 256) (P : Fin 50000)
    (e0 : ∀ k : Fin 256, x0 (ix2 r k) = A0 (ix2 P k)) (e1 : ∀ k : Fin 256, x1 (ix2 r k) = A1 (ix2 P k))
    (e2 : x2 (ix2 r 0) = A2 (ix2 P 0)) (e3 : ∀ k : Fin 256, x3 (ix2 k j) = A3 (ix2 k j)) (e4 : x4 (ix2 0 j) = A4 (ix2 0 j)) :
    out1 x0 x1 x2 x3 x4 (ix2 r j) = denseRelu A0 A1 A2 A3 A4 P j := by
  show Gen.k1_pay1 x0 x1 x2 x3 x4 (ix2 r j) = _
  exact (k1_pay1_apply x0 x1 x2 x3 x4 r j).trans
    (denseRelu_of_blocks x0 x1 x2 x3 x4 A0 A1 A2 A3 A4 r j P e0 e1 e2 e3 e4)

/-- What point `t` writes back is rows `2000 t … 2000 t + 1999` of `G1`. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  have ht : t.val < 25 := Nat.lt_of_lt_of_eq t.isLt N_1
  refine funext fun (y : S2000x256.Idx) => ?_
  obtain ⟨r, j, rfl⟩ : ∃ (r : Fin 2000) (j : Fin 256), y = ix2 r j := ⟨y 0, y 1, eq_ix2 y⟩
  have hr : r.val < 2000 := r.isLt
  refine Eq.trans ?_ (read_blk1_5 (Val := Elt Ideal) (G1 V c) t (ix2 r j)
    (ix2 (⟨2000 * t.val + r.val, by omega⟩ : Fin 50000) j) rfl rfl).symm
  show out1 (iblk1 V c 0 t) (iblk1 V c 1 t) (iblk1 V c 2 t) (iblk1 V c 3 t) (iblk1 V c 4 t) (ix2 r j)
    = denseRelu (V c main_v58 : S50000x256.Idx → EReal) (V c main_v44 : S50000x256.Idx → EReal)
        (V c main_v14 : S50000x1.Idx → EReal) (V c main_arg7 : S256x256.Idx → EReal) (V c main_v59 : S1x256.Idx → EReal)
        (⟨2000 * t.val + r.val, by omega⟩ : Fin 50000) j
  exact point1 _ _ _ _ _ _ _ _ _ _ r j _
    (fun k => read_blk1_0 (Val := Elt Ideal) _ t (ix2 r k) _ rfl rfl)
    (fun k => read_blk1_1 (Val := Elt Ideal) _ t (ix2 r k) _ rfl rfl)
    (read_blk1_2 (Val := Elt Ideal) _ t (ix2 r 0) _ rfl rfl)
    (fun k => read_blk1_3 (Val := Elt Ideal) _ t (ix2 k j))
    (read_blk1_4 (Val := Elt Ideal) _ t (ix2 0 j))

/-- THE OUTPUT ARRAY AFTER THE SECOND REGION is `G1`: the 25 row blocks cover it. -/
theorem arr1_eq (c : Dev nD) : (dat1 V c).arrAt 5 cfg1.N = G1 V c :=
  (dat1 V c).arrAt_eq_of_cover 5 (G1 V c) (fun t _ => flushed1_eq V c t) cover1_5

/-- The same, index by index, for whatever the five arrays are known to be (`h0 … h4`). -/
theorem final1 (c : Dev nD) (A0 A1 : S50000x256.Idx → EReal) (A2 : S50000x1.Idx → EReal) (A3 : S256x256.Idx → EReal)
    (A4 : S1x256.Idx → EReal) (h0 : V c main_v58 = A0) (h1 : V c main_v44 = A1) (h2 : V c main_v14 = A2)
    (h3 : V c main_arg7 = A3) (h4 : V c main_v59 = A4) (p : Fin 50000) (j : Fin 256) :
    ((dat1 V c).arrAt 5 cfg1.N : S50000x256.Idx → EReal) (ix2 p j)
      = max ((∑ k : Fin 256, (A0 (ix2 p k) + A1 (ix2 p k) * A2 (ix2 p 0)) * A3 (ix2 k j)) + A4 (ix2 0 j)) 0 := by
  subst h0 h1 h2 h3 h4
  rw [arr1_eq]
  rfl

end Cert.KernelIdeal.FinalAt

end
-- ==== Proof.KIBlocks2.lean ====
/-
  Where each window's block sits in its array: the third dense layer's region.

  The region walks 25 grid points. At point `t` the aggregated features, the previous layer's output, the
  inverse-degree column and this layer's output take rows `2000 t … 2000 t + 1999` of their arrays, every column; the
  weight matrix and the bias row are their whole arrays at every point.
-/
import proofs.«175804_j6906307412089_2_alg».proof.Proof.KIBlocks0

noncomputable section

namespace Cert.KernelIdeal.BlocksAt

open Cert.KernelIdeal Cert.KernelIdeal.Gen Idealize.ShloMosaic Idealize.ShloMosaic.TcCoe Idealize.SL.Sem
open Idealize.ShloMosaic.ValueIdx

variable {Val : EltTy → Type}

/-- The printed index maps, decided over the 25 points: the four row-blocked windows are at block row `t`, the weights
    and the bias row at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The aggregated features' block at point `t`, read at `y`: the array at row `2000 t + y₀`, column `y₁`. -/
theorem read_blk2_0 (A : S50000x256.Idx → Val .f32) (t : Fin cfg2.N) (y : S2000x256.Idx) (k : S50000x256.Idx)
    (hk0 : (k 0).val = 2000 * t.val + (y 0).val) (hk1 : (k 1).val = (y 1).val) :
    ((cfg2.win 0).blk t).view.read Val A y = A k := by
  obtain ⟨e0, e1, -⟩ := idx2 t
  rw [View.read_apply]
  show A _ = A k
  exact congrArg A (idx2_ext _ k
    (by show win2_0.index t 0 * 2000 + 1 * (y 0).val = (k 0).val; omega)
    (by show win2_0.index t 1 * 256 + 1 * (y 1).val = (k 1).val; omega))

/-- The previous layer's output's block at point `t`: the same rows of its array. -/
theorem read_blk2_1 (A : S50000x256.Idx → Val .bf16) (t : Fin cfg2.N) (y : S2000x256.Idx) (k : S50000x256.Idx)
    (hk0 : (k 0).val = 2000 * t.val + (y 0).val) (hk1 : (k 1).val = (y 1).val) :
    ((cfg2.win 1).blk t).view.read Val A y = A k := by
  obtain ⟨-, -, e0, e1, -⟩ := idx2 t
  rw [View.read_apply]
  show A _ = A k
  exact congrArg A (idx2_ext _ k
    (by show win2_1.index t 0 * 2000 + 1 * (y 0).val = (k 0).val; omega)
    (by show win2_1.index t 1 * 256 + 1 * (y 1).val = (k 1).val; omega))

/-- The inverse-degree column's block at point `t`: the same rows of the column. -/
theorem read_blk2_2 (A : S50000x1.Idx → Val .f32) (t : Fin cfg2.N) (y : S2000x1.Idx) (k : S50000x1.Idx)
    (hk0 : (k 0).val = 2000 * t.val + (y 0).val) (hk1 : (k 1).val = (y 1).val) :
    ((cfg2.win 2).blk t).view.read Val A y = A k := by
  obtain ⟨-, -, -, -, e0, e1, -⟩ := idx2 t
  rw [View.read_apply]
  show A _ = A k
  exact congrArg A (idx2_ext _ k
    (by show win2_2.index t 0 * 2000 + 1 * (y 0).val = (k 0).val; omega)
    (by show win2_2.index t 1 * 1 + 1 * (y 1).val = (k 1).val; omega))

/-- The weight matrix's block at any point is the whole matrix. -/
theorem read_blk2_3 (A : S256x256.Idx → Val .f32) (t : Fin cfg2.N) (y : S256x256.Idx) :
    ((cfg2.win 3).blk t).view.read Val A y = A y := by
  obtain ⟨-, -, -, -, -, -, e0, e1, -⟩ := idx2 t
  rw [View.read_apply]
  show A _ = A y
  exact congrArg A (idx2_ext _ y
    (by show win2_3.index t 0 * 256 + 1 * (y 0).val = (y 0).val; omega)
    (by show win2_3.index t 1 * 256 + 1 * (y 1).val = (y 1).val; omega))

/-- The bias row's block at any point is the whole row. -/
theorem read_blk2_4 (A : S1x256.Idx → Val .f32) (t : Fin cfg2.N) (y : S1x256.Idx) :
    ((cfg2.win 4).blk t).view.read Val A y = A y := by
  obtain ⟨-, -, -, -, -, -, -, -, e0, e1, -⟩ := idx2 t
  rw [View.read_apply]
  show A _ = A y
  exact congrArg A (idx2_ext _ y
    (by show win2_4.index t 0 * 1 + 1 * (y 0).val = (y 0).val; omega)
    (by show win2_4.index t 1 * 256 + 1 * (y 1).val = (y 1).val; omega))

/-- The output's block at point `t`, read at `y`: the output array at row `2000 t + y₀`, column `y₁`. -/
theorem read_blk2_5 (A : S50000x256.Idx → Val .f32) (t : Fin cfg2.N) (y : S2000x256.Idx) (k : S50000x256.Idx)
    (hk0 : (k 0).val = 2000 * t.val + (y 0).val) (hk1 : (k 1).val = (y 1).val) :
    ((cfg2.win 5).blk t).view.read Val A y = A k := by
  obtain ⟨-, -, -, -, -, -, -, -, -, -, e0, e1⟩ := idx2 t
  rw [View.read_apply]
  show A _ = A k
  exact congrArg A (idx2_ext _ k
    (by show win2_5.index t 0 * 2000 + 1 * (y 0).val = (k 0).val; omega)
    (by show win2_5.index t 1 * 256 + 1 * (y 1).val = (k 1).val; omega))

/-- An index of the output array is in point `t`'s block iff each coordinate is in the block's range on its axis. -/
theorem mem_blk2_5 (t : Fin cfg2.N) (i : S50000x256.Idx) :
    i ∈ ((cfg2.win 5).blk t).view.set
      ↔ ∀ a : Fin 2, win2_5.index t a * S2000x256.size a ≤ (i a).val
          ∧ (i a).val < win2_5.index t a * S2000x256.size a + S2000x256.size a := by
  show i ∈ ((View.whole main_v76).slice (win2_5.rect t)).set ↔ _
  rw [View.set_slice_whole, Rect.mem_set_unit]
  exact Iff.rfl

/-- Every index of the output array is in some point's block — row `p` in that of point `p / 2000` — and every point
    writes its block back. -/
theorem cover2_5 (i : S50000x256.Idx) :
    ∃ t : Fin cfg2.N, (cfg2.win 5).flush t = true ∧ i ∈ ((cfg2.win 5).blk t).view.set := by
  have h0 : (i 0).val < 50000 := (i 0).isLt
  have h1 : (i 1).val < 256 := (i 1).isLt
  have hN : cfg2.N = 25 := N_2
  have ht : (i 0).val / 2000 < cfg2.N := by rw [hN]; omega
  refine ⟨⟨(i 0).val / 2000, ht⟩, flush2_5 _, ?_⟩
  rw [mem_blk2_5]
  obtain ⟨-, -, -, -, -, -, -, -, -, -, e0, e1⟩ := idx2 ⟨(i 0).val / 2000, ht⟩
  intro a
  match a with
  | ⟨0, _⟩ =>
    show win2_5.index _ 0 * 2000 ≤ (i 0).val ∧ (i 0).val < win2_5.index _ 0 * 2000 + 2000
    rw [e0]
    show (i 0).val / 2000 * 2000 ≤ (i 0).val ∧ (i 0).val < (i 0).val / 2000 * 2000 + 2000
    omega
  | ⟨1, _⟩ =>
    show win2_5.index _ 1 * 256 ≤ (i 1).val ∧ (i 1).val < win2_5.index _ 1 * 256 + 256
    rw [e1]
    omega

end Cert.KernelIdeal.BlocksAt

end
-- ==== Proof.KIFinal2.lean ====
/-
  The third dense layer's output array after its region, as one function of the five arrays the region reads.

  Point `t` of the region overwrites rows `2000 t … 2000 t + 1999` of the output with the body's value on the same
  rows of the aggregated features, the previous layer's output and the inverse-degree column, and on the whole weight
  matrix and bias row; the body's value at `(r, j)` only involves row `r` of the row-blocked inputs. So after the 25
  points the output array is the dense layer row by row, with no activation:

      out(p, j) = (∑ₖ (agg(p, k) + h(p, k) · d(p, 0)) · W(k, j)) + b(0, j).
-/
import proofs.«175804_j6906307412089_2_alg».proof.Proof.KIData2
import proofs.«175804_j6906307412089_2_alg».proof.Proof.KIBlocks2
import proofs.«175804_j6906307412089_2_alg».proof.Proof.KIPayload
import proofs.«175804_j6906307412089_2_alg».proof.Proof.KIDense

noncomputable section

open scoped BigOperators

namespace Cert.KernelIdeal.FinalAt

open Cert.KernelIdeal Cert.KernelIdeal.Gen Cert.KernelIdeal.Hand Cert.KernelIdeal.BlocksAt Cert.KernelIdeal.PayloadAt
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The array-wide function the third region's output ends at, of the arrays as the region finds them. -/
def G2 (c : Dev nD) : S50000x256.Idx → EReal := fun i =>
  denseLin (V c main_v74 : S50000x256.Idx → EReal) (V c main_v60 : S50000x256.Idx → EReal)
    (V c main_v14 : S50000x1.Idx → EReal) (V c main_arg9 : S256x256.Idx → EReal) (V c main_v75 : S1x256.Idx → EReal)
    (i 0) (i 1)

/-- The body on blocks whose row `r` is row `P` of the arrays: the layer at row `P`. -/
theorem point2 (x0 : Vec Ideal S2000x256 .f32) (x1 : Vec Ideal S2000x256 .bf16) (x2 : Vec Ideal S2000x1 .f32)
    (x3 : Vec Ideal S256x256 .f32) (x4 : Vec Ideal S1x256 .f32) (A0 A1 : S50000x256.Idx → EReal)
    (A2 : S50000x1.Idx → EReal) (A3 : S256x256.Idx → EReal) (A4 : S1x256.Idx → EReal)
    (r : Fin 2000) (j : Fin 256) (P : Fin 50000)
    (e0 : ∀ k : Fin 256, x0 (ix2 r k) = A0 (ix2 P k)) (e1 : ∀ k : Fin 256, x1 (ix2 r k) = A1 (ix2 P k))
    (e2 : x2 (ix2 r 0) = A2 (ix2 P 0)) (e3 : ∀ k : Fin 256, x3 (ix2 k j) = A3 (ix2 k j)) (e4 : x4 (ix2 0 j) = A4 (ix2 0 j)) :
    out2 x0 x1 x2 x3 x4 (ix2 r j) = denseLin A0 A1 A2 A3 A4 P j := by
  show Gen.k2_pay1 x0 x1 x2 x3 x4 (ix2 r j) = _
  exact (k2_pay1_apply x0 x1 x2 x3 x4 r j).trans
    (denseLin_of_blocks x0 x1 x2 x3 x4 A0 A1 A2 A3 A4 r j P e0 e1 e2 e3 e4)

/-- What point `t` writes back is rows `2000 t … 2000 t + 1999` of `G2`. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  have ht : t.val < 25 := Nat.lt_of_lt_of_eq t.isLt N_2
  refine funext fun (y : S2000x256.Idx) => ?_
  obtain ⟨r, j, rfl⟩ : ∃ (r : Fin 2000) (j : Fin 256), y = ix2 r j := ⟨y 0, y 1, eq_ix2 y⟩
  have hr : r.val < 2000 := r.isLt
  refine Eq.trans ?_ (read_blk2_5 (Val := Elt Ideal) (G2 V c) t (ix2 r j)
    (ix2 (⟨2000 * t.val + r.val, by omega⟩ : Fin 50000) j) rfl rfl).symm
  show out2 (iblk2 V c 0 t) (iblk2 V c 1 t) (iblk2 V c 2 t) (iblk2 V c 3 t) (iblk2 V c 4 t) (ix2 r j)
    = denseLin (V c main_v74 : S50000x256.Idx → EReal) (V c main_v60 : S50000x256.Idx → EReal)
        (V c main_v14 : S50000x1.Idx → EReal) (V c main_arg9 : S256x256.Idx → EReal) (V c main_v75 : S1x256.Idx → EReal)
        (⟨2000 * t.val + r.val, by omega⟩ : Fin 50000) j
  exact point2 _ _ _ _ _ _ _ _ _ _ r j _
    (fun k => read_blk2_0 (Val := Elt Ideal) _ t (ix2 r k) _ rfl rfl)
    (fun k => read_blk2_1 (Val := Elt Ideal) _ t (ix2 r k) _ rfl rfl)
    (read_blk2_2 (Val := Elt Ideal) _ t (ix2 r 0) _ rfl rfl)
    (fun k => read_blk2_3 (Val := Elt Ideal) _ t (ix2 k j))
    (read_blk2_4 (Val := Elt Ideal) _ t (ix2 0 j))

/-- THE OUTPUT ARRAY AFTER THE THIRD REGION is `G2`: the 25 row blocks cover it. -/
theorem arr2_eq (c : Dev nD) : (dat2 V c).arrAt 5 cfg2.N = G2 V c :=
  (dat2 V c).arrAt_eq_of_cover 5 (G2 V c) (fun t _ => flushed2_eq V c t) cover2_5

/-- The same, index by index, for whatever the five arrays are known to be (`h0 … h4`). -/
theorem final2 (c : Dev nD) (A0 A1 : S50000x256.Idx → EReal) (A2 : S50000x1.Idx → EReal) (A3 : S256x256.Idx → EReal)
    (A4 : S1x256.Idx → EReal) (h0 : V c main_v74 = A0) (h1 : V c main_v60 = A1) (h2 : V c main_v14 = A2)
    (h3 : V c main_arg9 = A3) (h4 : V c main_v75 = A4) (p : Fin 50000) (j : Fin 256) :
    ((dat2 V c).arrAt 5 cfg2.N : S50000x256.Idx → EReal) (ix2 p j)
      = (∑ k : Fin 256, (A0 (ix2 p k) + A1 (ix2 p k) * A2 (ix2 p 0)) * A3 (ix2 k j)) + A4 (ix2 0 j) := by
  subst h0 h1 h2 h3 h4
  rw [arr2_eq]
  rfl

end Cert.KernelIdeal.FinalAt

end
-- ==== Proof.KIBlocks3.lean ====
/-
  Where each window's block sits in its array: the perceptron's region.

  The region has one grid point, and every window's block is its whole array: the 512 paired feature rows, the two
  weight matrices, the two bias rows and the 512 output scores.
-/
import proofs.«175804_j6906307412089_2_alg».proof.Proof.KIBlocks0

noncomputable section

namespace Cert.KernelIdeal.BlocksAt

open Cert.KernelIdeal Cert.KernelIdeal.Gen Idealize.ShloMosaic Idealize.ShloMosaic.TcCoe Idealize.SL.Sem
open Idealize.ShloMosaic.ValueIdx

variable {Val : EltTy → Type}

/-- The printed index maps at the one point: every window is at block (0, 0). -/
theorem idx3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- The paired features' block is the whole array. -/
theorem read_blk3_0 (A : S512x768.Idx → Val .f32) (t : Fin cfg3.N) (y : S512x768.Idx) :
    ((cfg3.win 0).blk t).view.read Val A y = A y := by
  obtain ⟨e0, e1, -⟩ := idx3 t
  rw [View.read_apply]
  show A _ = A y
  exact congrArg A (idx2_ext _ y
    (by show win3_0.index t 0 * 512 + 1 * (y 0).val = (y 0).val; omega)
    (by show win3_0.index t 1 * 768 + 1 * (y 1).val = (y 1).val; omega))

/-- The first weight matrix's block is the whole matrix. -/
theorem read_blk3_1 (A : S768x256.Idx → Val .f32) (t : Fin cfg3.N) (y : S768x256.Idx) :
    ((cfg3.win 1).blk t).view.read Val A y = A y := by
  obtain ⟨-, -, e0, e1, -⟩ := idx3 t
  rw [View.read_apply]
  show A _ = A y
  exact congrArg A (idx2_ext _ y
    (by show win3_1.index t 0 * 768 + 1 * (y 0).val = (y 0).val; omega)
    (by show win3_1.index t 1 * 256 + 1 * (y 1).val = (y 1).val; omega))

/-- The first bias row's block is the whole row. -/
theorem read_blk3_2 (A : S1x256.Idx → Val .f32) (t : Fin cfg3.N) (y : S1x256.Idx) :
    ((cfg3.win 2).blk t).view.read Val A y = A y := by
  obtain ⟨-, -, -, -, e0, e1, -⟩ := idx3 t
  rw [View.read_apply]
  show A _ = A y
  exact congrArg A (idx2_ext _ y
    (by show win3_2.index t 0 * 1 + 1 * (y 0).val = (y 0).val; omega)
    (by show win3_2.index t 1 * 256 + 1 * (y 1).val = (y 1).val; omega))

/-- The second weight column's block is the whole column. -/
theorem read_blk3_3 (A : S256x1.Idx → Val .f32) (t : Fin cfg3.N) (y : S256x1.Idx) :
    ((cfg3.win 3).blk t).view.read Val A y = A y := by
  obtain ⟨-, -, -, -, -, -, e0, e1, -⟩ := idx3 t
  rw [View.read_apply]
  show A _ = A y
  exact congrArg A (idx2_ext _ y
    (by show win3_3.index t 0 * 256 + 1 * (y 0).val = (y 0).val; omega)
    (by show win3_3.index t 1 * 1 + 1 * (y 1).val = (y 1).val; omega))

/-- The second bias's block is the whole one-element array. -/
theorem read_blk3_4 (A : S1x1.Idx → Val .f32) (t : Fin cfg3.N) (y : S1x1.Idx) :
    ((cfg3.win 4).blk t).view.read Val A y = A y := by
  obtain ⟨-, -, -, -, -, -, -, -, e0, e1, -⟩ := idx3 t
  rw [View.read_apply]
  show A _ = A y
  exact congrArg A (idx2_ext _ y
    (by show win3_4.index t 0 * 1 + 1 * (y 0).val = (y 0).val; omega)
    (by show win3_4.index t 1 * 1 + 1 * (y 1).val = (y 1).val; omega))

/-- The output's block is the whole column of scores. -/
theorem read_blk3_5 (A : S512x1.Idx → Val .f32) (t : Fin cfg3.N) (y : S512x1.Idx) :
    ((cfg3.win 5).blk t).view.read Val A y = A y := by
  obtain ⟨-, -, -, -, -, -, -, -, -, -, e0, e1⟩ := idx3 t
  rw [View.read_apply]
  show A _ = A y
  exact congrArg A (idx2_ext _ y
    (by show win3_5.index t 0 * 512 + 1 * (y 0).val = (y 0).val; omega)
    (by show win3_5.index t 1 * 1 + 1 * (y 1).val = (y 1).val; omega))

/-- An index of the output array is in the point's block iff each coordinate is in the block's range on its axis. -/
theorem mem_blk3_5 (t : Fin cfg3.N) (i : S512x1.Idx) :
    i ∈ ((cfg3.win 5).blk t).view.set
      ↔ ∀ a : Fin 2, win3_5.index t a * S512x1.size a ≤ (i a).val
          ∧ (i a).val < win3_5.index t a * S512x1.size a + S512x1.size a := by
  show i ∈ ((View.whole main_v106).slice (win3_5.rect t)).set ↔ _
  rw [View.set_slice_whole, Rect.mem_set_unit]
  exact Iff.rfl

/-- Every index of the output array is in the one point's block, and that point writes it back. -/
theorem cover3_5 (i : S512x1.Idx) :
    ∃ t : Fin cfg3.N, (cfg3.win 5).flush t = true ∧ i ∈ ((cfg3.win 5).blk t).view.set := by
  have h0 : (i 0).val < 512 := (i 0).isLt
  have h1 : (i 1).val < 1 := (i 1).isLt
  have hN : cfg3.N = 1 := N_3
  have ht : 0 < cfg3.N := by rw [hN]; omega
  refine ⟨⟨0, ht⟩, flush3_5 _, ?_⟩
  rw [mem_blk3_5]
  obtain ⟨-, -, -, -, -, -, -, -, -, -, e0, e1⟩ := idx3 ⟨0, ht⟩
  intro a
  match a with
  | ⟨0, _⟩ =>
    show win3_5.index _ 0 * 512 ≤ (i 0).val ∧ (i 0).val < win3_5.index _ 0 * 512 + 512
    rw [e0]
    omega
  | ⟨1, _⟩ =>
    show win3_5.index _ 1 * 1 ≤ (i 1).val ∧ (i 1).val < win3_5.index _ 1 * 1 + 1
    rw [e1]
    omega

end Cert.KernelIdeal.BlocksAt

end
-- ==== Proof.KIFinal3.lean ====
/-
  The perceptron's output array after its region, as one function of the five arrays the region reads.

  The region has one point, every window is its whole array, and the body overwrites the whole output column. So after
  the region the output is the two-layer perceptron row by row:

      out(r, 0) = (∑ⱼ max( (∑ₖ z(r, k) · W₁(k, j)) + b₁(0, j), 0 ) · W₂(j, 0)) + b₂(0, 0).
-/
import proofs.«175804_j6906307412089_2_alg».proof.Proof.KIData3
import proofs.«175804_j6906307412089_2_alg».proof.Proof.KIBlocks3
import proofs.«175804_j6906307412089_2_alg».proof.Proof.KIPayload

noncomputable section

open scoped BigOperators

namespace Cert.KernelIdeal.FinalAt

open Cert.KernelIdeal Cert.KernelIdeal.Gen Cert.KernelIdeal.Hand Cert.KernelIdeal.BlocksAt Cert.KernelIdeal.PayloadAt
open Idealize.ShloMosaic Idealize.ShloMosaic.TcCoe Idealize.SL.Sem Idealize.ShloMosaic.ValueIdx
open Idealize.ShloMosaic.Pipeline (Dat)

/-- The two-layer perceptron with a rectified hidden layer and one output, row `r`, of whole arrays. -/
def mlp {N K H : ℕ} (z : (⟨2, ![N, K]⟩ : Shape).Idx → EReal) (W₁ : (⟨2, ![K, H]⟩ : Shape).Idx → EReal)
    (b₁ : (⟨2, ![1, H]⟩ : Shape).Idx → EReal) (W₂ : (⟨2, ![H, 1]⟩ : Shape).Idx → EReal)
    (b₂ : (⟨2, ![1, 1]⟩ : Shape).Idx → EReal) (r : Fin N) : EReal :=
  (∑ j : Fin H, max ((∑ k : Fin K, z (ix2 r k) * W₁ (ix2 k j)) + b₁ (ix2 0 j)) 0 * W₂ (ix2 j 0)) + b₂ (ix2 0 0)

theorem mlp_def {N K H : ℕ} (z : (⟨2, ![N, K]⟩ : Shape).Idx → EReal) (W₁ : (⟨2, ![K, H]⟩ : Shape).Idx → EReal)
    (b₁ : (⟨2, ![1, H]⟩ : Shape).Idx → EReal) (W₂ : (⟨2, ![H, 1]⟩ : Shape).Idx → EReal)
    (b₂ : (⟨2, ![1, 1]⟩ : Shape).Idx → EReal) (r : Fin N) :
    mlp z W₁ b₁ W₂ b₂ r
      = (∑ j : Fin H, max ((∑ k : Fin K, z (ix2 r k) * W₁ (ix2 k j)) + b₁ (ix2 0 j)) 0 * W₂ (ix2 j 0)) + b₂ (ix2 0 0) := rfl

/-- The perceptron's formula on operands that agree with the arrays where the formula reads them. -/
theorem mlp_of_blocks {N K H : ℕ} (x0 A0 : (⟨2, ![N, K]⟩ : Shape).Idx → EReal) (x1 A1 : (⟨2, ![K, H]⟩ : Shape).Idx → EReal)
    (x2 A2 : (⟨2, ![1, H]⟩ : Shape).Idx → EReal) (x3 A3 : (⟨2, ![H, 1]⟩ : Shape).Idx → EReal)
    (x4 A4 : (⟨2, ![1, 1]⟩ : Shape).Idx → EReal) (r : Fin N)
    (e0 : ∀ k : Fin K, x0 (ix2 r k) = A0 (ix2 r k)) (e1 : ∀ (k : Fin K) (j : Fin H), x1 (ix2 k j) = A1 (ix2 k j))
    (e2 : ∀ j : Fin H, x2 (ix2 0 j) = A2 (ix2 0 j)) (e3 : ∀ j : Fin H, x3 (ix2 j 0) = A3 (ix2 j 0))
    (e4 : x4 (ix2 0 0) = A4 (ix2 0 0)) :
    (∑ j : Fin H, max ((∑ k : Fin K, x0 (ix2 r k) * x1 (ix2 k j)) + x2 (ix2 0 j)) 0 * x3 (ix2 j 0)) + x4 (ix2 0 0)
      = mlp A0 A1 A2 A3 A4 r := by
  rw [mlp_def, e4]
  refine congrArg (· + A4 (ix2 0 0)) (Finset.sum_congr rfl fun j _ => ?_)
  rw [e2 j, e3 j]
  exact congrArg (fun s => max (s + A2 (ix2 0 j)) 0 * A3 (ix2 j 0))
    (Finset.sum_congr rfl fun k _ => by rw [e0 k, e1 k j])

variable (V : (c : Dev nD) → (b : Ref sig .tc) → Buf (Elt Ideal) ((c : Thread nD τ).loc b))

/-- The array-wide function the fourth region's output ends at, of the arrays as the region finds them. -/
def G3 (c : Dev nD) : S512x1.Idx → EReal := fun i =>
  mlp (V c main_v103 : S512x768.Idx → EReal) (V c main_arg11 : S768x256.Idx → EReal)
    (V c main_v104 : S1x256.Idx → EReal) (V c main_arg13 : S256x1.Idx → EReal) (V c main_v105 : S1x1.Idx → EReal) (i 0)

/-- The body on operands that agree with the arrays where it reads them: the perceptron at row `r`. -/
theorem point3 (x0 : Vec Ideal S512x768 .f32) (x1 : Vec Ideal S768x256 .f32) (x2 : Vec Ideal S1x256 .f32)
    (x3 : Vec Ideal S256x1 .f32) (x4 : Vec Ideal S1x1 .f32) (A0 : S512x768.Idx → EReal) (A1 : S768x256.Idx → EReal)
    (A2 : S1x256.Idx → EReal) (A3 : S256x1.Idx → EReal) (A4 : S1x1.Idx → EReal) (r : Fin 512)
    (e0 : ∀ k : Fin 768, x0 (ix2 r k) = A0 (ix2 r k)) (e1 : ∀ (k : Fin 768) (j : Fin 256), x1 (ix2 k j) = A1 (ix2 k j))
    (e2 : ∀ j : Fin 256, x2 (ix2 0 j) = A2 (ix2 0 j)) (e3 : ∀ j : Fin 256, x3 (ix2 j 0) = A3 (ix2 j 0))
    (e4 : x4 (ix2 0 0) = A4 (ix2 0 0)) :
    out3 x0 x1 x2 x3 x4 (ix2 r 0) = mlp A0 A1 A2 A3 A4 r := by
  show Gen.k3_pay1 x0 x1 x2 x3 x4 (ix2 r 0) = _
  exact (k3_pay1_apply x0 x1 x2 x3 x4 r).trans (mlp_of_blocks x0 A0 x1 A1 x2 A2 x3 A3 x4 A4 r e0 e1 e2 e3 e4)

/-- What the one point writes back is `G3` read through the whole-array block. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  refine funext fun (y : S512x1.Idx) => ?_
  obtain ⟨r, z, rfl⟩ : ∃ (r : Fin 512) (z : Fin 1), y = ix2 r z := ⟨y 0, y 1, eq_ix2 y⟩
  obtain rfl : z = 0 := Subsingleton.elim _ _
  refine Eq.trans ?_ (read_blk3_5 (Val := Elt Ideal) (G3 V c) t (ix2 r 0)).symm
  show out3 (iblk3 V c 0 t) (iblk3 V c 1 t) (iblk3 V c 2 t) (iblk3 V c 3 t) (iblk3 V c 4 t) (ix2 r 0)
    = mlp (V c main_v103 : S512x768.Idx → EReal) (V c main_arg11 : S768x256.Idx → EReal)
        (V c main_v104 : S1x256.Idx → EReal) (V c main_arg13 : S256x1.Idx → EReal) (V c main_v105 : S1x1.Idx → EReal) r
  exact point3 _ _ _ _ _ _ _ _ _ _ r
    (fun k => read_blk3_0 (Val := Elt Ideal) _ t (ix2 r k))
    (fun k j => read_blk3_1 (Val := Elt Ideal) _ t (ix2 k j))
    (fun j => read_blk3_2 (Val := Elt Ideal) _ t (ix2 0 j))
    (fun j => read_blk3_3 (Val := Elt Ideal) _ t (ix2 j 0))
    (read_blk3_4 (Val := Elt Ideal) _ t (ix2 0 0))

/-- THE OUTPUT ARRAY AFTER THE FOURTH REGION is `G3`: the one block covers it. -/
theorem arr3_eq (c : Dev nD) : (dat3 V c).arrAt 5 cfg3.N = G3 V c :=
  (dat3 V c).arrAt_eq_of_cover 5 (G3 V c) (fun t _ => flushed3_eq V c t) cover3_5

/-- The same, index by index, for whatever the five arrays are known to be (`h0 … h4`). -/
theorem final3 (c : Dev nD) (A0 : S512x768.Idx → EReal) (A1 : S768x256.Idx → EReal) (A2 : S1x256.Idx → EReal)
    (A3 : S256x1.Idx → EReal) (A4 : S1x1.Idx → EReal) (h0 : V c main_v103 = A0) (h1 : V c main_arg11 = A1)
    (h2 : V c main_v104 = A2) (h3 : V c main_arg13 = A3) (h4 : V c main_v105 = A4) (r : Fin 512) :
    ((dat3 V c).arrAt 5 cfg3.N : S512x1.Idx → EReal) (ix2 r 0)
      = (∑ j : Fin 256, max ((∑ k : Fin 768, A0 (ix2 r k) * A1 (ix2 k j)) + A2 (ix2 0 j)) 0 * A3 (ix2 j 0))
          + A4 (ix2 0 0) := by
  subst h0 h1 h2 h3 h4
  rw [arr3_eq]
  rfl

end Cert.KernelIdeal.FinalAt

end
-- ==== Proof.KIHost0.lean ====
/-
  The host operations before the first dense layer. The terms they compute are named once, as functions of the
  vectors they read: the two rows of the edge list as vectors of index words, those vectors as columns (raw for the
  scatters, sign-normalised for the gathers), the degree-normalisation vector, its square as a column, the per-edge
  weights, and the aggregate of the weighted source rows. Then each buffer the first layer reads is one of these terms
  of the program's arguments.
-/
import proofs.«175804_j6906307412089_2_alg».proof.Proof.Gen.KernelIdeal.Regions
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.KerSide

open Idealize.ShloMosaic Idealize.ShloMosaic.TcCoe Idealize.SL.Sem Cert.KernelIdeal Cert.KernelIdeal.Gen

/-- Row `r` of the edge list as a vector of index words (row 0: the sources, row 1: the targets). -/
def srcVec (x1 : IVec S2x800000 32) : IVec S800000 32 :=
  shapeCast S800000 (extractStridedSlice S1x800000 ![0, 0] x1 slices_S2x800000_S1x800000_0_0) shapeCasts_S1x800000_S800000
def tgtVec (x1 : IVec S2x800000 32) : IVec S800000 32 :=
  shapeCast S800000 (extractStridedSlice S1x800000 ![1, 0] x1 slices_S2x800000_S1x800000_1_0) shapeCasts_S1x800000_S800000

/-- The sign normalisation of a vector of index words, as the host computes it before a gather. -/
def nrmVec (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A vector of words as a column. -/
def colOf (v : IVec S800000 32) : IVec S800000x1 32 := broadcastInDim S800000x1 ![0] bcast_S800000_S800000x1_0 v

/-- The normalisation vector from the target words: the reciprocal square root of the degree (the edges into a node,
    plus one) kept at one or more. -/
def disVec (t : IVec S800000 32) : FVec Ideal S50000 .f32 :=
  Host.rsqrt (maximumf (addf (Host.scatterAdd scatter_S50000_S800000x1_S800000_n_0_0_1
        (broadcastInDim S50000 ![] bcast_S_S50000 (constant (F := Ideal) S_ .f32 0x00000000#32))
        (colOf t)
        (broadcastInDim S800000 ![] bcast_S_S800000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0x3F800000#32)))

/-- Its square, as a column. -/
def dis2Col (t : IVec S800000 32) : FVec Ideal S50000x1 .f32 :=
  shapeCast S50000x1 (mulf (disVec t) (disVec t)) shapeCasts_S50000_S50000x1

/-- The per-edge weights: the normalisation factor at the edge's source times the one at its target. -/
def wtVec (s t : IVec S800000 32) : FVec Ideal S800000 .f32 :=
  mulf (Host.gather gather_S50000_S800000x1_S800000_n_0_n_n_0_1_1 (disVec t) (colOf (nrmVec s)))
    (Host.gather gather_S50000_S800000x1_S800000_n_0_n_n_0_1_1 (disVec t) (colOf (nrmVec t)))

/-- The aggregate of the weighted source rows, 64 features wide. -/
def agg64 (h : FVec Ideal S50000x64 .f32) (s t : IVec S800000 32) (wt : FVec Ideal S800000 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (colOf t)
    (mulf (Host.gather gather_S50000x64_S800000x1_S800000x64_1_0_n_n_0_1_164 h (colOf (nrmVec s)))
      (broadcastInDim S800000x64 ![0, 1] bcast_S800000x1_S800000x64_0_1
        (broadcastInDim S800000x1 ![0] bcast_S800000_S800000x1_0 wt)))

variable (m : (ℓ : Loc nD τ sig) → Buf (Elt Ideal) ℓ) (c : Dev nD)

set_option maxHeartbeats 1600000

theorem V1_v1 : @Eq (IVec S800000 32) (Gen.V1 (F := Ideal) m c main_v1) (srcVec (m ((c.tc : Thread nD τ).loc main_arg1))) := by
  dsimp only [Gen.V1, Gen.V0]; after_results; rfl
theorem V1_v3 : @Eq (IVec S800000 32) (Gen.V1 (F := Ideal) m c main_v3) (tgtVec (m ((c.tc : Thread nD τ).loc main_arg1))) := by
  dsimp only [Gen.V1, Gen.V0]; after_results; rfl
theorem V1_v14 : @Eq (FVec Ideal S50000x1 .f32) (Gen.V1 (F := Ideal) m c main_v14) (dis2Col (tgtVec (m ((c.tc : Thread nD τ).loc main_arg1)))) := by
  dsimp only [Gen.V1, Gen.V0]; after_results; rfl
theorem V1_v29 : @Eq (FVec Ideal S800000 .f32) (Gen.V1 (F := Ideal) m c main_v29)
    (wtVec (srcVec (m ((c.tc : Thread nD τ).loc main_arg1))) (tgtVec (m ((c.tc : Thread nD τ).loc main_arg1)))) := by
  dsimp only [Gen.V1, Gen.V0]; after_results; rfl
theorem V1_v43 : @Eq (FVec Ideal S1x256 .f32) (Gen.V1 (F := Ideal) m c main_v43)
    (shapeCast S1x256 (m ((c.tc : Thread nD τ).loc main_arg6)) shapeCasts_S256_S1x256) := by
  dsimp only [Gen.V1, Gen.V0]; after_results; rfl

end Cert.KerSide

end
-- ==== Proof.KIHost0b.lean ====
/-
  The first layer's aggregate buffer: the sum, into each node, of its incoming edges' source rows of the input features,
  each scaled by the edge's weight — as one term of the program's arguments.
-/
import proofs.«175804_j6906307412089_2_alg».proof.Proof.Gen.KernelIdeal.Regions
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value
import proofs.«175804_j6906307412089_2_alg».proof.Proof.KIHost0

noncomputable section

open scoped BigOperators

namespace Cert.KerSide

open Idealize.ShloMosaic Idealize.ShloMosaic.TcCoe Idealize.SL.Sem Cert.KernelIdeal Cert.KernelIdeal.Gen

variable (m : (ℓ : Loc nD τ sig) → Buf (Elt Ideal) ℓ) (c : Dev nD)

set_option maxHeartbeats 8000000 in
theorem V1_v42 : @Eq (FVec Ideal S50000x64 .f32) (Gen.V1 (F := Ideal) m c main_v42)
    (agg64 (m ((c.tc : Thread nD τ).loc main_arg0)) (srcVec (m ((c.tc : Thread nD τ).loc main_arg1))) (tgtVec (m ((c.tc : Thread nD τ).loc main_arg1)))
      (wtVec (srcVec (m ((c.tc : Thread nD τ).loc main_arg1))) (tgtVec (m ((c.tc : Thread nD τ).loc main_arg1))))) := by
  dsimp only [Gen.V1, Gen.V0]; after_results_simp <;> rfl

end Cert.KerSide

end
-- ==== Proof.KIHost1.lean ====
/-
  The host operations between the dense layers, after them, and at the end, each as a term of what the buffers held
  when the stretch was entered: before the second and third layers the aggregate of the weighted source rows of the
  previous layer's output (256 features wide, the rows widened from the narrow float format on the way) and the bias as a
  row; after the third layer the classifier's input — the mean of the node rows of each graph, and the rows of the two
  nodes of each pair, side by side — and the classifier's biases as rows; at the end the result column as a vector.
-/
import proofs.«175804_j6906307412089_2_alg».proof.Proof.Gen.KernelIdeal.Regions
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value
import proofs.«175804_j6906307412089_2_alg».proof.Proof.KIHost0

noncomputable section

open scoped BigOperators

namespace Cert.KerSide

open Idealize.ShloMosaic Idealize.ShloMosaic.TcCoe Idealize.SL.Sem Cert.KernelIdeal Cert.KernelIdeal.Gen

/-- The aggregate of the weighted source rows, 256 features wide, of rows kept in the narrow format. -/
def agg256 (h : FVec Ideal S50000x256 .bf16) (s t : IVec S800000 32) (wt : FVec Ideal S800000 .f32) : FVec Ideal S50000x256 .f32 :=
  Host.scatterAdd scatter_S50000x256_S800000x1_S800000x256_1_0_0_1
    (broadcastInDim S50000x256 ![] bcast_S_S50000x256 (constant (F := Ideal) S_ .f32 0x00000000#32))
    (colOf t)
    (mulf (extf .f32 (Host.gather gather_S50000x256_S800000x1_S800000x256_1_0_n_n_0_1_1256 h (colOf (nrmVec s))) bitsLt_bf16_f32)
      (broadcastInDim S800000x256 ![0, 1] bcast_S800000x1_S800000x256_0_1
        (broadcastInDim S800000x1 ![0] bcast_S800000_S800000x1_0 wt)))

/-- The sign normalisation of the 512 pair words. -/
def nrmVec512 (v : IVec S512 32) : IVec S512 32 :=
  select (cmpi .slt v (broadcastInDim S512 ![] bcast_S_S512 (constantI S_ 32 0#32)))
    (addi v (broadcastInDim S512 ![] bcast_S_S512 (constantI S_ 32 50000#32))) v

/-- The classifier's input from the last layer's node rows `h`: per graph the sum of its nodes' rows divided by their
    number (at least one), and the rows of the two nodes of each pair, joined along the features. -/
def poolCat (h : FVec Ideal S50000x256 .f32) (x2 : IVec S50000 32) (x3 x4 : IVec S512 32) : FVec Ideal S512x768 .f32 :=
  concatenate S512x768 1
    [⟨S512x256, Host.divf
        (Host.scatterAdd scatter_S512x256_S50000x1_S50000x256_1_0_0_1
          (broadcastInDim S512x256 ![] bcast_S_S512x256 (constant (F := Ideal) S_ .f32 0x00000000#32))
          (broadcastInDim S50000x1 ![0] bcast_S50000_S50000x1_0 x2) h)
        (broadcastInDim S512x256 ![0, 1] bcast_S512x1_S512x256_0_1 (broadcastInDim S512x1 ![0] bcast_S512_S512x1_0
          (maximumf (Host.scatterAdd scatter_S512_S50000x1_S50000_n_0_0_1
              (broadcastInDim S512 ![] bcast_S_S512 (constant (F := Ideal) S_ .f32 0x00000000#32))
              (broadcastInDim S50000x1 ![0] bcast_S50000_S50000x1_0 x2)
              (broadcastInDim S50000 ![] bcast_S_S50000 (constant (F := Ideal) S_ .f32 0x3F800000#32)))
            (broadcastInDim S512 ![] bcast_S_S512 (constant (F := Ideal) S_ .f32 0x3F800000#32)))))⟩,
     ⟨S512x256, Host.gather gather_S50000x256_S512x1_S512x256_1_0_n_n_0_1_1256 h (broadcastInDim S512x1 ![0] bcast_S512_S512x1_0 (nrmVec512 x3))⟩,
     ⟨S512x256, Host.gather gather_S50000x256_S512x1_S512x256_1_0_n_n_0_1_1256 h (broadcastInDim S512x1 ![0] bcast_S512_S512x1_0 (nrmVec512 x4))⟩]
    concatenates_S512x256_S512x256_S512x256_S512x768_d1

variable (W : Valuation τ sig (Elt Ideal))

set_option maxHeartbeats 1600000

/-! ## Before the second layer -/
theorem after1_v58 : @Eq (FVec Ideal S50000x256 .f32) (StableHlo.after (hostOps1 (F := Ideal)) W main_v58)
    (agg256 (W main_v44) (W main_v1) (W main_v3) (W main_v29)) := by
  after_results; rfl
theorem after1_v59 : @Eq (FVec Ideal S1x256 .f32) (StableHlo.after (hostOps1 (F := Ideal)) W main_v59)
    (shapeCast S1x256 (W main_arg8) shapeCasts_S256_S1x256) := by
  after_results; rfl

/-! ## Before the third layer -/
theorem after2_v74 : @Eq (FVec Ideal S50000x256 .f32) (StableHlo.after (hostOps2 (F := Ideal)) W main_v74)
    (agg256 (W main_v60) (W main_v1) (W main_v3) (W main_v29)) := by
  after_results; rfl
theorem after2_v75 : @Eq (FVec Ideal S1x256 .f32) (StableHlo.after (hostOps2 (F := Ideal)) W main_v75)
    (shapeCast S1x256 (W main_arg10) shapeCasts_S256_S1x256) := by
  after_results; rfl

/-! ## Before the classifier -/
theorem after3_v103 : @Eq (FVec Ideal S512x768 .f32) (StableHlo.after (hostOps3 (F := Ideal)) W main_v103)
    (poolCat (W main_v76) (W main_arg2) (W main_arg3) (W main_arg4)) := by
  after_results; rfl
theorem after3_v104 : @Eq (FVec Ideal S1x256 .f32) (StableHlo.after (hostOps3 (F := Ideal)) W main_v104)
    (shapeCast S1x256 (W main_arg12) shapeCasts_S256_S1x256) := by
  after_results; rfl
theorem after3_v105 : @Eq (FVec Ideal S1x1 .f32) (StableHlo.after (hostOps3 (F := Ideal)) W main_v105)
    (shapeCast S1x1 (W main_arg14) shapeCasts_S1_S1x1) := by
  after_results; rfl

/-! ## At the end -/
theorem after4_v107 : @Eq (FVec Ideal S512 .f32) (StableHlo.after (hostOps4 (F := Ideal)) W main_v107)
    (shapeCast S512 (W main_v106) shapeCasts_S512x1_S512) := by
  after_results; rfl

end Cert.KerSide

end
-- ==== Proof.Spec.lean ====
/-
  The mathematics of a three-layer graph convolution with self-loops, stated once, over plain functions on the
  extended reals and index words — no printed program is mentioned here.

  A node `p` of `N` nodes collects, from every edge `e` that ends in it, the source node's feature row scaled by
  the edge's weight `dis (source) · dis (target)`, and adds its own row scaled by `dis p · dis p` (its self-loop);
  the collected row is multiplied by a weight matrix, a bias row is added and an activation applied. Which edges end in
  `p` and which rows an edge reads are given by columns of index words, read as signed integers: an edge ends in `p`
  when its target word IS `p` (a word outside `[0, N)` ends nowhere), and an edge reads the row its (sign-normalised)
  word is clamped to.
-/
import Idealize.ShloMosaic.Lib.ValueIdx
import Idealize.ShloMosaic.PureOps.Ideal.Laws
import proofs.«175804_j6906307412089_2_alg».proof.Proof.LibRowGatherScatter

noncomputable section

open scoped BigOperators

namespace Cert.GcnSpec

open Idealize.ShloMosaic Idealize.ShloMosaic.ValueIdx Cert.LibRowGatherScatter

/-- The sign normalisation of an index word: a negative word (as a signed integer) has the extent `n` added, any other
    word is left alone. -/
def nrm (n : BitVec 32) (w : BitVec 32) : BitVec 32 :=
  if w.toInt < 0 then w + n else w

/-- Row `r` of the `[2, E]` edge list (row 0: sources, row 1: targets) as a column of index words. -/
def edgeCol {E : Nat} (ei : IVec ⟨2, ![2, E]⟩ 32) (r : Fin 2) : IVec ⟨2, ![E, 1]⟩ 32 :=
  fun i => ei (ix2 r ⟨(i 0).val, (i 0).isLt⟩)

/-- The same column with every word sign-normalised against the extent `n`. -/
def edgeColN {E : Nat} (n : BitVec 32) (ei : IVec ⟨2, ![2, E]⟩ 32) (r : Fin 2) : IVec ⟨2, ![E, 1]⟩ 32 :=
  fun i => nrm n (ei (ix2 r ⟨(i 0).val, (i 0).isLt⟩))

/-- The float word for one, which the two programs share. It is never evaluated. -/
abbrev one : EReal := Ideal.ofBits .f32 0x3F800000#32

/-- The rectifier: the maximum with zero. -/
def relu (x : EReal) : EReal := max x 0

section Layer

variable {E N D M : Nat}

/-- What node `p` collects from the edges that end in it, in feature `k`: the sum over those edges of the source row's
    feature times the edge's weight. `tgt` is the column of target words, `srow e` / `trow e` the rows edge `e` reads
    for its source and its target. -/
def collect (tgt : IVec ⟨2, ![E, 1]⟩ 32) (srow trow : Fin E → Fin N) (dis : Fin N → EReal)
    (h : Fin N → Fin D → EReal) (p : Fin N) (k : Fin D) : EReal :=
  ∑ e ∈ edgesInto tgt p, h (srow e) k * (dis (srow e) * dis (trow e))

/-- One layer at node `p`, output feature `j`: the collected row plus the node's own row weighted by `dis p · dis p`,
    times the weight matrix, plus the bias, under the activation. -/
def layer (act : EReal → EReal) (tgt : IVec ⟨2, ![E, 1]⟩ 32) (srow trow : Fin E → Fin N) (dis : Fin N → EReal)
    (h : Fin N → Fin D → EReal) (W : Fin D → Fin M → EReal) (b : Fin M → EReal) (p : Fin N) (j : Fin M) : EReal :=
  act ((∑ k : Fin D, (collect tgt srow trow dis h p k + h p k * (dis p * dis p)) * W k j) + b j)

/-- A node's degree with its self-loop counted: one for every edge that ends in it, and one more. -/
def degree (one : EReal) (tgt : IVec ⟨2, ![E, 1]⟩ 32) (p : Fin N) : EReal :=
  (∑ _e ∈ edgesInto tgt p, one) + one

/-- The symmetric normalisation's factor at a node: the reciprocal square root of its degree (never below one). -/
def dis (tgt : IVec ⟨2, ![E, 1]⟩ 32) (p : Fin N) : EReal :=
  Ideal.rsqrt (max (degree one tgt p) one)

end Layer

end Cert.GcnSpec

end
-- ==== Proof.LibVecScatter.lean ====
/-
  A vector scattered into a vector and added, read at one element.

  Counting how many edges end in each node is a scatter with an `add` body and no window: one number per edge (an
  array `[E]`) is added into the entry of an array `[N]` that the edge's index word names. This file reads that
  operation, at the dimension numbers it has, at one element `p`:

    • the scattered-and-added element `p` is the operand's plus the sum, over the edges `e` whose index word read as a
      signed integer is `p`, of the update at `e`; an index word outside `[0, N − 1]` names no entry and its number
      is dropped.

  The edge set is the one a scatter of whole rows `[E, C]` into `[N, C]` with the same index array uses, whatever the
  row width `C`: an update is placed by its index word alone, and with no window axis there is no second coordinate to
  match. So a count taken with rank-1 arrays and a count taken in every column of rank-2 arrays are the same number.

  Everything is stated for arbitrary extents `N`, `E` and index width `w`; the dimension-number record is written out
  with its well-formedness condition as a parameter, so a record with the same lists over literal shapes is one of
  these by unfolding.
-/
import Idealize.ShloMosaic.Lib.ValueIdx
import Idealize.ShloMosaic.PureOps.Ideal.Laws
import Idealize.ShloMosaic.Lib.Pipeline.Value
import proofs.«175804_j6906307412089_2_alg».proof.Proof.LibRowGatherScatter

noncomputable section

open scoped BigOperators

namespace Cert.LibVecScatter

open Idealize.ShloMosaic Idealize.ShloMosaic.ValueIdx
open Cert.LibRowGatherScatter (edgesInto)

/-! ## Sums over a one-axis index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Scattering a vector and adding it -/

/-- The dimension numbers of a scatter of single numbers: operand `[N]`, one scatter index per edge (`[E, 1]`, the
    index vector on axis 1), updates `[E]`; the scatter index names the operand's only axis, which is an inserted
    window axis, and the updates have no window axis at all. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window of update `e` starts at edge `e`'s index word, read signed, not clamped. -/
theorem scatter_start :
    (vecScatterDims N E wf).start (ix1 e) idx (0 : Fin 1) = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is an inserted window axis: the window coordinate there is `0`. -/
theorem scatter_window :
    (vecScatterDims N E wf).window (ix1 e) (0 : Fin 1) = 0 := by
  unfold ScatterDims.window
  rw [dif_neg (by simp [ScatterDims.sKept, Shape.kept])]

/-- Start plus window coordinate on the operand's one axis: edge `e`'s index word, read signed. -/
theorem scatter_sum :
    (vecScatterDims N E wf).start (ix1 e) idx (0 : Fin 1) + ((vecScatterDims N E wf).window (ix1 e) (0 : Fin 1) : ℤ)
      = (idx (ix2 e 0)).toInt := by
  rw [scatter_start, scatter_window]; simp

/-- WHERE AN UPDATE LANDS: update `e` lands at operand element `p` exactly when edge `e`'s index word, read signed,
    is `p`. (An index word that is negative or at least `N` lands nowhere.) -/
theorem resultIdx?_vec_eq_some_iff (p : Fin N) :
    (vecScatterDims N E wf).resultIdx? (ix1 e) idx = some (ix1 p) ↔ (idx (ix2 e 0)).toInt = (p.val : ℤ) := by
  have h0 := scatter_sum wf idx e
  unfold ScatterDims.resultIdx?
  split
  · rename_i h
    rw [Option.some.injEq]
    constructor
    · intro hf
      have e0 : ((vecScatterDims N E wf).start (ix1 e) idx (0 : Fin 1)
          + ((vecScatterDims N E wf).window (ix1 e) (0 : Fin 1) : ℤ)).toNat = p.val :=
        congrArg Fin.val (congrFun hf (0 : Fin 1))
      have hh := (h (0 : Fin 1)).1
      rw [h0] at e0 hh
      omega
    · intro ht
      funext a
      match a with
      | ⟨0, _⟩ =>
        refine Fin.ext ?_
        show ((vecScatterDims N E wf).start (ix1 e) idx (0 : Fin 1)
          + ((vecScatterDims N E wf).window (ix1 e) (0 : Fin 1) : ℤ)).toNat = p.val
        rw [h0, ht]; simp
  · rename_i h
    constructor
    · intro hf; cases hf
    · intro ht
      exfalso; apply h; intro a
      match a with
      | ⟨0, _⟩ =>
        show 0 ≤ (vecScatterDims N E wf).start (ix1 e) idx (0 : Fin 1)
            + ((vecScatterDims N E wf).window (ix1 e) (0 : Fin 1) : ℤ)
          ∧ (vecScatterDims N E wf).start (ix1 e) idx (0 : Fin 1)
            + ((vecScatterDims N E wf).window (ix1 e) (0 : Fin 1) : ℤ) < ((N : ℕ) : ℤ)
        rw [h0, ht]
        have := p.isLt
        omega

end Scatter

/-- A SCATTER-ADD OF A VECTOR READ AT `p`, on the extended reals: the operand's element plus the sum over the edges that
    end in `p` of the update at `e`. Update `e` lands at `p` exactly when `e` ends in `p`; the edge set is the one a
    scatter of rows with the same index array uses. -/
theorem scatterAdd_vec_apply {N E w : Nat} (wf : ScatterDims.WF ⟨1, ![N]⟩ ⟨2, ![E, 1]⟩ ⟨1, ![E]⟩ [] [0] [0] 1)
    (idx : IVec ⟨2, ![E, 1]⟩ w) {φ : FTy} (x : FVec Ideal ⟨1, ![N]⟩ φ) (upd : FVec Ideal ⟨1, ![E]⟩ φ) (p : Fin N) :
    Host.scatterAdd (F := Ideal) (vecScatterDims N E wf) x idx upd (ix1 p)
      = x (ix1 p) + ∑ e ∈ edgesInto idx p, upd (ix1 e) := by
  show x (ix1 p) + ∑ j ∈ Finset.univ.filter (fun j => (vecScatterDims N E wf).resultIdx? j idx = some (ix1 p)), upd j = _
  congr 1
  unfold edgesInto
  rw [Finset.sum_filter, Finset.sum_filter, sum_idx1]
  refine Finset.sum_congr rfl fun e _ => ?_
  simp only [resultIdx?_vec_eq_some_iff]

end Cert.LibVecScatter

end
-- ==== Proof.LibSelfLoops.lean ====
/-
  Self-loops added to a graph, in two ways, and the sums they give.

  A graph convolution lets every node hear itself: besides the `E` real edges, node `i` gets an edge `i → i`. One program
  appends these `N` self-loop edges to the edge list (the real targets followed by `0, 1, …, N − 1`) and adds up, for
  node `p`, over all the `E + N` edges that end in `p`; another adds up over the real edges only and puts node `p`'s own
  term on afterwards. Both are the same finite sum in a commutative monoid, grouped differently:

    • over the longer list, the edges that end in `p` are the real edges that end in `p`, at their old positions, and the
      one self-loop edge at position `E + p`; so a sum over them is the sum over the real edges plus the term of edge
      `E + p` (`sum_edgesInto_concat`).

  No distributivity and no finiteness of the terms is used, only that addition is commutative and associative.

  The file also reads, at one element, the array operations by which the longer list is built and used:

    • two vectors laid end to end read the first vector at a position before its length and the second vector after
      it (`concat_vec_apply_left` / `concat_vec_apply_right`);
    • the vector `0, 1, …, N − 1` holds at position `i` the word of value `i`, whose signed reading is `i` as long as
      `2 N` does not exceed the number of words (`iota_vec_apply`, `iota_vec_toInt`);
    • the elementwise "add `n` to a negative index" that precedes a gather is, at each position, `x + n` where `x`
      reads negative and `x` elsewhere; a word that reads non-negative is left alone (`signNorm_apply`,
      `signNorm_of_nonneg`);
    • a gather out of a vector `[N]`, one start index per edge, reads for edge `e` the vector at `rowOf idx e`, the row
      a gather of whole rows with the same index array reads (`gather_vec_apply`);
    • an edge whose index word reads `i`, a node, reads row `i` (`rowOf_of_toInt_eq`): a self-loop edge reads its own
      node;
    • put together, the column `[M, 1]` made of the real targets followed by `0, 1, …, N − 1` holds the real target at a
      real edge and a word reading `i` at the self-loop `E + i` (`concat_iota_col_left` / `_right`), and so does the
      column whose negative entries were first moved up by `n`, the real entry being moved up where it reads negative
      (`concat_iota_norm_col_left` / `_right`): the two hypotheses `sum_edgesInto_concat` asks for.

  Everything is stated for arbitrary extents and index widths; that the long list has `E + N` entries is a hypothesis
  `M = E + N`, and the dimension-number record is written out with its well-formedness condition as a parameter, so a
  record with the same lists over literal shapes is one of these by unfolding.
-/
import Idealize.ShloMosaic.Lib.ValueIdx
import Idealize.ShloMosaic.PureOps.Ideal.Laws
import Idealize.ShloMosaic.Lib.Pipeline.Value
import proofs.«175804_j6906307412089_2_alg».proof.Proof.LibRowGatherScatter
import proofs.«175804_j6906307412089_2_alg».proof.Proof.LibVecScatter

noncomputable section

open scoped BigOperators

namespace Cert.LibSelfLoops

open Idealize.ShloMosaic Idealize.ShloMosaic.ValueIdx
open Cert.LibRowGatherScatter (edgesInto rowOf bcast_scalar_apply bcast_col_apply)

/-! ## The edges into a node, over the real edges followed by the self-loops -/

/-- A SUM OVER THE EDGES INTO `p` OF THE LONGER LIST. If the first `E` index words of `idx2` are those of `idx` and
    the word at position `E + i` reads `i`, then the edges of `idx2` that end in `p` are the edges of `idx` that end in
    `p`, at the same positions, and the position `E + p`; a sum over them splits accordingly. The sum over all `E + N`
    positions of the terms that end in `p` is cut at `E`; in the second part exactly one term is alive. -/
theorem sum_edgesInto_concat {A : Type*} [AddCommMonoid A] {N E M w : Nat} (hM : M = E + N)
    (idx : IVec ⟨2, ![E, 1]⟩ w) (idx2 : IVec ⟨2, ![M, 1]⟩ w)
    (h1 : ∀ e : Fin E, idx2 (ix2 ⟨e, by omega⟩ 0) = idx (ix2 e 0))
    (h2 : ∀ i : Fin N, (idx2 (ix2 ⟨E + i, by omega⟩ 0)).toInt = (i : ℤ))
    (g : Fin M → A) (p : Fin N) :
    ∑ e ∈ edgesInto idx2 p, g e = ∑ e ∈ edgesInto idx p, g ⟨e, by omega⟩ + g ⟨E + p, by omega⟩ := by
  subst hM
  unfold edgesInto
  rw [Finset.sum_filter, Finset.sum_filter, Fin.sum_univ_add]
  congr 1
  · refine Finset.sum_congr rfl fun e _ => ?_
    have he : idx2 (ix2 (Fin.castAdd N e) 0) = idx (ix2 e 0) := h1 e
    rw [he]
    rfl
  · have hc : ∀ i : Fin N, ((idx2 (ix2 (Fin.natAdd E i) 0)).toInt = (p.val : ℤ)) ↔ i = p := by
      intro i
      have hi : (idx2 (ix2 (Fin.natAdd E i) 0)).toInt = (i.val : ℤ) := h2 i
      rw [hi]
      constructor
      · intro h; exact Fin.ext (by exact_mod_cast h)
      · rintro rfl; rfl
    simp only [hc]
    rw [Finset.sum_ite_eq' Finset.univ p (fun i => g (Fin.natAdd E i))]
    simp only [Finset.mem_univ, if_true]
    rfl

/-- Regrouping a sum that starts from a neutral `a`: the last term may be added after the others. (Associativity
    only; on the extended reals no finiteness is needed.) -/
theorem add_sum_add_last {A : Type*} [AddSemigroup A] (a s t : A) : a + (s + t) = (a + s) + t :=
  (add_assoc a s t).symm

/-! ## The row a self-loop edge reads -/

/-- An edge whose index word, read signed, is the node `i` reads row `i`: clamping into `[0, N − 1]` does nothing to a
    node's number. -/
theorem rowOf_of_toInt_eq {N E w : Nat} (hN : 0 < N) (idx : IVec ⟨2, ![E, 1]⟩ w) (e : Fin E) (i : Fin N)
    (h : (idx (ix2 e 0)).toInt = (i.val : ℤ)) : rowOf hN idx e = i := by
  apply Fin.ext
  show min (idx (ix2 e 0)).toInt.toNat (N - 1) = i.val
  rw [h, Int.toNat_natCast]
  have := i.isLt
  omega

/-! ## Gathering single numbers out of a vector -/

/-- The dimension numbers of a gather of single numbers: operand `[N]`, one start index per edge (`[E, 1]`, the index
    vector on axis 1), result `[E]`; the operand's only axis is indexed and collapsed, there is no offset axis, a slice
    is one number. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A GATHER OUT OF A VECTOR READ AT `e`: the operand at `rowOf idx e`, edge `e`'s index word read signed and clamped
    into `[0, N − 1]` — the row a gather of whole rows with the same index array reads. On the operand's one axis the
    start index is clamped to `N − 1` (a slice is one number), and neither a batching nor an offset coordinate is
    added on a collapsed axis. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (rowOf hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Two vectors laid end to end, read at an index -/

section Concat
variable {α : Type} {E N M : Nat}

/-- Two vectors laid end to end, read at a position `e` before the first one's length: the first vector at `e`. -/
theorem concat_vec_apply_left (h : Shape.Concatenates [(⟨1, ![E]⟩ : Shape), ⟨1, ![N]⟩] ⟨1, ![M]⟩ 0)
    (a : (⟨1, ![E]⟩ : Shape).Idx → α) (b : (⟨1, ![N]⟩ : Shape).Idx → α) (e : Fin E) (he : e.val < M) :
    concatenate ⟨1, ![M]⟩ 0 [⟨⟨1, ![E]⟩, a⟩, ⟨⟨1, ![N]⟩, b⟩] h (ix1 ⟨e.val, he⟩) = a (ix1 e) :=
  concatenate_pair_apply_left 0 a b h (ix1 ⟨e.val, he⟩) rfl (ix1 e) (fun c => by
    match c with
    | ⟨0, _⟩ => rfl)

/-- Two vectors laid end to end, read at the position `E + i`, `E` the first one's length: the second vector at `i`. -/
theorem concat_vec_apply_right (h : Shape.Concatenates [(⟨1, ![E]⟩ : Shape), ⟨1, ![N]⟩] ⟨1, ![M]⟩ 0)
    (a : (⟨1, ![E]⟩ : Shape).Idx → α) (b : (⟨1, ![N]⟩ : Shape).Idx → α) (i : Fin N) (hi : E + i.val < M) :
    concatenate ⟨1, ![M]⟩ 0 [⟨⟨1, ![E]⟩, a⟩, ⟨⟨1, ![N]⟩, b⟩] h (ix1 ⟨E + i.val, hi⟩) = b (ix1 i) :=
  concatenate_pair_apply_right 0 a b h (ix1 ⟨E + i.val, hi⟩) rfl rfl (ix1 i)
    (fun c hc => absurd (Subsingleton.elim _ _) hc)
    (by show i.val + E = E + i.val; omega)

end Concat

/-! ## The vector `0, 1, …, N − 1` -/

/-- The vector `0, 1, …, N − 1` holds at position `i` the word of value `i`. -/
theorem iota_vec_apply {N w : Nat} (i : Fin N) : iotaInDim ⟨1, ![N]⟩ w 0 (ix1 i) = BitVec.ofNat w i.val := rfl

/-- Read as a signed integer that word is `i`, as long as every position is below half the number of words
    (`2 N ≤ 2 ^ w`): it does not wrap and its sign bit is clear. -/
theorem iota_vec_toInt {N w : Nat} (hN : 2 * N ≤ 2 ^ w) (i : Fin N) :
    (iotaInDim ⟨1, ![N]⟩ w 0 (ix1 i)).toInt = (i.val : ℤ) := by
  rw [iota_vec_apply]
  have hi := i.isLt
  have hlt : i.val < 2 ^ w := by omega
  have hn : (BitVec.ofNat w i.val).toNat = i.val := by rw [BitVec.toNat_ofNat, Nat.mod_eq_of_lt hlt]
  rw [BitVec.toInt_eq_toNat_of_lt (by rw [hn]; omega), hn]

/-! ## An index made non-negative: `x + n` where `x` reads negative, `x` elsewhere -/

section Sign
variable {S : Shape} {w : Nat}

/-- A signed "less than" at an index is the bit of the words' signed comparison. -/
theorem cmpi_slt_apply (x y : IVec S w) (i : S.Idx) : cmpi .slt x y i = BitVec.ofBool ((x i).slt (y i)) := rfl

/-- An integer addition at an index adds the words. -/
theorem addi_apply (x y : IVec S w) (i : S.Idx) : addi x y i = x i + y i := rfl

/-- An integer constant reads its word everywhere. -/
theorem constantI_apply (T : Shape) (b : BitVec w) (i : T.Idx) : constantI T w b i = b := rfl

/-- A select on the bit of a signed comparison is the `if` on the signed readings. -/
theorem select_slt_word {α : Type} (a b : BitVec w) (u v : α) :
    Scalar.select (BitVec.ofBool (a.slt b)) u v = if a.toInt < b.toInt then u else v := by
  unfold Scalar.select
  by_cases h : a.toInt < b.toInt
  · rw [if_pos h, (BitVec.slt_iff_toInt_lt).2 h]; rfl
  · rw [if_neg h]
    have : a.slt b = false := by
      rcases hb : a.slt b with _ | _
      · rfl
      · exact absurd ((BitVec.slt_iff_toInt_lt).1 hb) h
    rw [this]; rfl

/-- THE NORMALISATION AT AN INDEX: "where `x` is below the constant `0`, `x` plus the constant `n`, else `x`", the two
    constants broadcast from scalars, is at each position `x + n` if `x` reads negative and `x` otherwise. -/
theorem signNorm_apply (h : (⟨0, ![]⟩ : Shape).BroadcastsInDim S (![] : Fin 0 → Fin S.rank))
    (x : IVec S w) (n : BitVec w) (i : S.Idx) :
    select (cmpi .slt x (broadcastInDim S ![] h (constantI ⟨0, ![]⟩ w 0#w)))
        (addi x (broadcastInDim S ![] h (constantI ⟨0, ![]⟩ w n))) x i
      = if (x i).toInt < 0 then x i + n else x i := by
  rw [select_apply, cmpi_slt_apply, addi_apply, bcast_scalar_apply, bcast_scalar_apply, constantI_apply,
    constantI_apply, select_slt_word, BitVec.toInt_zero]

/-- A word that reads non-negative is left alone by the normalisation. -/
theorem signNorm_of_nonneg (h : (⟨0, ![]⟩ : Shape).BroadcastsInDim S (![] : Fin 0 → Fin S.rank))
    (x : IVec S w) (n : BitVec w) (i : S.Idx) (hx : 0 ≤ (x i).toInt) :
    select (cmpi .slt x (broadcastInDim S ![] h (constantI ⟨0, ![]⟩ w 0#w)))
        (addi x (broadcastInDim S ![] h (constantI ⟨0, ![]⟩ w n))) x i = x i := by
  rw [signNorm_apply, if_neg (by omega)]

end Sign

/-! ## The index columns of the longer list -/

section Columns
variable {E N M w : Nat}

/-- THE COLUMN OF TARGETS OF THE LONGER LIST, read at a real edge: the vector `a` of real targets followed by
    `0, 1, …, N − 1`, made a column `[M, 1]`, holds at position `e` below `E` the word `a` holds at `e`. -/
theorem concat_iota_col_left (hM1 : M ≠ 1)
    (hb : (⟨1, ![M]⟩ : Shape).BroadcastsInDim ⟨2, ![M, 1]⟩ (![0] : Fin 1 → Fin 2))
    (hc : Shape.Concatenates [(⟨1, ![E]⟩ : Shape), ⟨1, ![N]⟩] ⟨1, ![M]⟩ 0)
    (a : IVec ⟨1, ![E]⟩ w) (e : Fin E) (he : e.val < M) :
    broadcastInDim ⟨2, ![M, 1]⟩ ![0] hb
        (concatenate ⟨1, ![M]⟩ 0 [⟨⟨1, ![E]⟩, a⟩, ⟨⟨1, ![N]⟩, iotaInDim ⟨1, ![N]⟩ w 0⟩] hc) (ix2 ⟨e.val, he⟩ 0)
      = a (ix1 e) := by
  rw [bcast_col_apply hM1, concat_vec_apply_left]

/-- The same column read at a self-loop: at position `E + i` it holds a word that reads `i`. -/
theorem concat_iota_col_right (hM1 : M ≠ 1) (hN : 2 * N ≤ 2 ^ w)
    (hb : (⟨1, ![M]⟩ : Shape).BroadcastsInDim ⟨2, ![M, 1]⟩ (![0] : Fin 1 → Fin 2))
    (hc : Shape.Concatenates [(⟨1, ![E]⟩ : Shape), ⟨1, ![N]⟩] ⟨1, ![M]⟩ 0)
    (a : IVec ⟨1, ![E]⟩ w) (i : Fin N) (hi : E + i.val < M) :
    (broadcastInDim ⟨2, ![M, 1]⟩ ![0] hb
        (concatenate ⟨1, ![M]⟩ 0 [⟨⟨1, ![E]⟩, a⟩, ⟨⟨1, ![N]⟩, iotaInDim ⟨1, ![N]⟩ w 0⟩] hc)
        (ix2 ⟨E + i.val, hi⟩ 0)).toInt = (i.val : ℤ) := by
  rw [bcast_col_apply hM1, concat_vec_apply_right, iota_vec_toInt hN]

/-- THE COLUMN OF SOURCES OF THE LONGER LIST AS A GATHER READS IT — the longer list with its negative entries moved
    up by `n`, made a column — read at a real edge: the word `a` holds at `e`, plus `n` if it reads negative. -/
theorem concat_iota_norm_col_left (hM1 : M ≠ 1)
    (hb : (⟨1, ![M]⟩ : Shape).BroadcastsInDim ⟨2, ![M, 1]⟩ (![0] : Fin 1 → Fin 2))
    (hc : Shape.Concatenates [(⟨1, ![E]⟩ : Shape), ⟨1, ![N]⟩] ⟨1, ![M]⟩ 0)
    (h0 : (⟨0, ![]⟩ : Shape).BroadcastsInDim ⟨1, ![M]⟩ (![] : Fin 0 → Fin 1))
    (a : IVec ⟨1, ![E]⟩ w) (n : BitVec w) (e : Fin E) (he : e.val < M) :
    broadcastInDim ⟨2, ![M, 1]⟩ ![0] hb
        (select
          (cmpi .slt (concatenate ⟨1, ![M]⟩ 0 [⟨⟨1, ![E]⟩, a⟩, ⟨⟨1, ![N]⟩, iotaInDim ⟨1, ![N]⟩ w 0⟩] hc)
            (broadcastInDim ⟨1, ![M]⟩ ![] h0 (constantI ⟨0, ![]⟩ w 0#w)))
          (addi (concatenate ⟨1, ![M]⟩ 0 [⟨⟨1, ![E]⟩, a⟩, ⟨⟨1, ![N]⟩, iotaInDim ⟨1, ![N]⟩ w 0⟩] hc)
            (broadcastInDim ⟨1, ![M]⟩ ![] h0 (constantI ⟨0, ![]⟩ w n)))
          (concatenate ⟨1, ![M]⟩ 0 [⟨⟨1, ![E]⟩, a⟩, ⟨⟨1, ![N]⟩, iotaInDim ⟨1, ![N]⟩ w 0⟩] hc))
        (ix2 ⟨e.val, he⟩ 0)
      = if (a (ix1 e)).toInt < 0 then a (ix1 e) + n else a (ix1 e) := by
  rw [bcast_col_apply hM1, signNorm_apply, concat_vec_apply_left]

/-- The same column read at a self-loop: at position `E + i` it holds a word that reads `i` (it was not negative, so
    nothing was added). -/
theorem concat_iota_norm_col_right (hM1 : M ≠ 1) (hN : 2 * N ≤ 2 ^ w)
    (hb : (⟨1, ![M]⟩ : Shape).BroadcastsInDim ⟨2, ![M, 1]⟩ (![0] : Fin 1 → Fin 2))
    (hc : Shape.Concatenates [(⟨1, ![E]⟩ : Shape), ⟨1, ![N]⟩] ⟨1, ![M]⟩ 0)
    (h0 : (⟨0, ![]⟩ : Shape).BroadcastsInDim ⟨1, ![M]⟩ (![] : Fin 0 → Fin 1))
    (a : IVec ⟨1, ![E]⟩ w) (n : BitVec w) (i : Fin N) (hi : E + i.val < M) :
    (broadcastInDim ⟨2, ![M, 1]⟩ ![0] hb
        (select
          (cmpi .slt (concatenate ⟨1, ![M]⟩ 0 [⟨⟨1, ![E]⟩, a⟩, ⟨⟨1, ![N]⟩, iotaInDim ⟨1, ![N]⟩ w 0⟩] hc)
            (broadcastInDim ⟨1, ![M]⟩ ![] h0 (constantI ⟨0, ![]⟩ w 0#w)))
          (addi (concatenate ⟨1, ![M]⟩ 0 [⟨⟨1, ![E]⟩, a⟩, ⟨⟨1, ![N]⟩, iotaInDim ⟨1, ![N]⟩ w 0⟩] hc)
            (broadcastInDim ⟨1, ![M]⟩ ![] h0 (constantI ⟨0, ![]⟩ w n)))
          (concatenate ⟨1, ![M]⟩ 0 [⟨⟨1, ![E]⟩, a⟩, ⟨⟨1, ![N]⟩, iotaInDim ⟨1, ![N]⟩ w 0⟩] hc))
        (ix2 ⟨E + i.val, hi⟩ 0)).toInt = (i.val : ℤ) := by
  have hr := concat_vec_apply_right hc a (iotaInDim ⟨1, ![N]⟩ w 0) i hi
  have ht := iota_vec_toInt (w := w) hN i
  rw [bcast_col_apply hM1, signNorm_of_nonneg _ _ _ _ (by rw [hr, ht]; omega), hr, ht]

end Columns

end Cert.LibSelfLoops

end
-- ==== Proof.LibAggregate.lean ====
/-
  One round of message passing read at one element: weighted rows gathered along the edges, scattered and added.

  In a graph layer every edge `e` carries the row of its source node, scaled by the edge's weight, to its target node,
  where the rows of all incoming edges are added up. As array operations: a gather of rows (`h[src]`), an elementwise
  product with the weight vector broadcast along the rows, and a scatter with an `add` body. This file reads the
  composite at one element `(p, k)`:

    • the aggregated element is the operand's plus, over the edges `e` that end in `p`, the sum of `h` at row
      `rowOf scol e`, column `k`, times the weight of `e` (`aggregate_rows_apply`; `aggregate_rows_extf_apply` is the
      same with the gathered rows widened to another format first, which changes nothing on the extended reals);
    • the weight of an edge, when it is the product of one number per node read at the edge's two ends, is that
      product (`weights_apply`);
    • when the edge lists are the real edges followed by the self-loops `i → i` — the longer target list agrees with
      the real one on the real edges and names `i` at position `E + i`, and likewise the rows read — the sum over the
      edges into `p` of the longer list is the sum over the real edges into `p` plus node `p`'s own row times the
      weight of its self-loop (`sum_aggregate_concat`, and `sum_aggregate_concat_words` with the hypotheses on the
      rows read replaced by hypotheses on the index words).

  Everything is stated for arbitrary extents, index widths and formats; sums are finite sums in a commutative monoid
  with a product, and no distributivity or finiteness of the terms is used.
-/
import Idealize.ShloMosaic.Lib.ValueIdx
import Idealize.ShloMosaic.PureOps.Ideal.Laws
import Idealize.ShloMosaic.Lib.Pipeline.Value
import proofs.«175804_j6906307412089_2_alg».proof.Proof.LibRowGatherScatter
import proofs.«175804_j6906307412089_2_alg».proof.Proof.LibSelfLoops

noncomputable section

open scoped BigOperators

namespace Cert.LibAggregate

open Idealize.ShloMosaic Idealize.ShloMosaic.ValueIdx
open Cert.LibRowGatherScatter (edgesInto rowOf rowGatherDims rowScatterDims gather_rows_apply scatterAdd_rows_apply
  bcast_col_apply bcast_row_apply)
open Cert.LibSelfLoops (sum_edgesInto_concat rowOf_of_toInt_eq vecGatherDims gather_vec_apply)

/-! ## Gathered rows, weighted, scattered and added -/

section Aggregate
variable {N E D w w' : Nat}

/-- THE AGGREGATE READ AT `(p, k)`: rows of `h` gathered along `scol`, each multiplied by its edge's weight (the weight
    vector made a column and broadcast along the rows), scattered along `tgt` and added into `z`: the element is
    `z`'s plus the sum over the edges `e` that end in `p` of `h` at `(rowOf scol e, k)` times the weight of `e`. -/
theorem aggregate_rows_apply (hN : 0 < N) (hE : E ≠ 1)
    (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (hb1 : (⟨1, ![E]⟩ : Shape).BroadcastsInDim ⟨2, ![E, 1]⟩ (![0] : Fin 1 → Fin 2))
    (hb2 : (⟨2, ![E, 1]⟩ : Shape).BroadcastsInDim ⟨2, ![E, D]⟩ (![0, 1] : Fin 2 → Fin 2))
    {φ : FTy} (z : FVec Ideal ⟨2, ![N, D]⟩ φ) (tgt : IVec ⟨2, ![E, 1]⟩ w) (scol : IVec ⟨2, ![E, 1]⟩ w')
    (h : FVec Ideal ⟨2, ![N, D]⟩ φ) (wt : FVec Ideal ⟨1, ![E]⟩ φ) (p : Fin N) (k : Fin D) :
    Host.scatterAdd (F := Ideal) (rowScatterDims N E D wfS) z tgt
        (mulf (Host.gather (rowGatherDims N E D wfG) h scol)
          (broadcastInDim ⟨2, ![E, D]⟩ ![0, 1] hb2 (broadcastInDim ⟨2, ![E, 1]⟩ ![0] hb1 wt))) (ix2 p k)
      = z (ix2 p k) + ∑ e ∈ edgesInto tgt p, h (ix2 (rowOf hN scol e) k) * wt (ix1 e) := by
  rw [scatterAdd_rows_apply]
  congr 1
  refine Finset.sum_congr rfl fun e _ => ?_
  rw [mulf_apply, gather_rows_apply hN, bcast_row_apply hE, bcast_col_apply hE]

/-- The same aggregate when the gathered rows are widened from the format `φ` to the format `ψ` before the product:
    on the extended reals a widening is the identity, so the element read is the same. -/
theorem aggregate_rows_extf_apply (hN : 0 < N) (hE : E ≠ 1)
    (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (hb1 : (⟨1, ![E]⟩ : Shape).BroadcastsInDim ⟨2, ![E, 1]⟩ (![0] : Fin 1 → Fin 2))
    (hb2 : (⟨2, ![E, 1]⟩ : Shape).BroadcastsInDim ⟨2, ![E, D]⟩ (![0, 1] : Fin 2 → Fin 2))
    {φ ψ : FTy} (hlt : φ.bits < ψ.bits) (z : FVec Ideal ⟨2, ![N, D]⟩ ψ) (tgt : IVec ⟨2, ![E, 1]⟩ w)
    (scol : IVec ⟨2, ![E, 1]⟩ w') (h : FVec Ideal ⟨2, ![N, D]⟩ φ) (wt : FVec Ideal ⟨1, ![E]⟩ ψ) (p : Fin N) (k : Fin D) :
    Host.scatterAdd (F := Ideal) (rowScatterDims N E D wfS) z tgt
        (mulf (extf ψ (Host.gather (rowGatherDims N E D wfG) h scol : FVec Ideal ⟨2, ![E, D]⟩ φ) hlt)
          (broadcastInDim ⟨2, ![E, D]⟩ ![0, 1] hb2 (broadcastInDim ⟨2, ![E, 1]⟩ ![0] hb1 wt))) (ix2 p k)
      = z (ix2 p k) + ∑ e ∈ edgesInto tgt p, (h (ix2 (rowOf hN scol e) k) : EReal) * wt (ix1 e) := by
  rw [scatterAdd_rows_apply]
  congr 1
  refine Finset.sum_congr rfl fun e _ => ?_
  rw [mulf_apply, extf_apply, gather_rows_apply hN, bcast_row_apply hE, bcast_col_apply hE]

/-- THE WEIGHT OF AN EDGE: the product of two gathers out of one vector `d` (one number per node), along the edge's
    two index columns, is at edge `e` the product of `d` at the edge's two ends. -/
theorem weights_apply (hN : 0 < N)
    (wfV : GatherDims.WF ⟨1, ![N]⟩ ⟨2, ![E, 1]⟩ ⟨1, ![E]⟩ [] [0] [] [0] [] 1 ![1])
    {φ : FTy} (d : FVec Ideal ⟨1, ![N]⟩ φ) (scol : IVec ⟨2, ![E, 1]⟩ w) (tcol : IVec ⟨2, ![E, 1]⟩ w') (e : Fin E) :
    mulf (Host.gather (vecGatherDims N E wfV) d scol : FVec Ideal ⟨1, ![E]⟩ φ)
        (Host.gather (vecGatherDims N E wfV) d tcol) (ix1 e)
      = d (ix1 (rowOf hN scol e)) * d (ix1 (rowOf hN tcol e)) := by
  rw [mulf_apply, gather_vec_apply hN, gather_vec_apply hN]

end Aggregate

/-! ## The aggregate over the real edges followed by the self-loops -/

section Concat
variable {A : Type*} [AddCommMonoid A] [Mul A] {N E M D w w' : Nat}

/-- The row an edge reads depends on its index word only: two edges with the same word read the same row. -/
theorem rowOf_congr {E₂ : Nat} (hN : 0 < N) (s : IVec ⟨2, ![E, 1]⟩ w) (s2 : IVec ⟨2, ![E₂, 1]⟩ w) (e : Fin E) (e2 : Fin E₂)
    (hw : s2 (ix2 e2 0) = s (ix2 e 0)) : rowOf hN s2 e2 = rowOf hN s e := by
  apply Fin.ext
  show min (s2 (ix2 e2 0)).toInt.toNat (N - 1) = min (s (ix2 e 0)).toInt.toNat (N - 1)
  rw [hw]

/-- THE AGGREGATE SUM OVER THE LONGER LIST, SPLIT. The longer target list `tgt2` agrees with `tgt` on the real edges
    and names node `i` at position `E + i`; the rows read along the longer source list `s2` are those read along `s`
    on the real edges and row `i` at position `E + i`. Then the sum over the edges of the longer list that end in `p`
    is the sum over the real edges that end in `p`, with the same rows and the weights at the same positions, plus
    node `p`'s own row times the weight at position `E + p`. -/
theorem sum_aggregate_concat (hM : M = E + N) (hN : 0 < N)
    (tgt : IVec ⟨2, ![E, 1]⟩ w) (tgt2 : IVec ⟨2, ![M, 1]⟩ w)
    (ht1 : ∀ e : Fin E, tgt2 (ix2 ⟨e, by omega⟩ 0) = tgt (ix2 e 0))
    (ht2 : ∀ i : Fin N, (tgt2 (ix2 ⟨E + i, by omega⟩ 0)).toInt = (i : ℤ))
    (s : IVec ⟨2, ![E, 1]⟩ w') (s2 : IVec ⟨2, ![M, 1]⟩ w')
    (hs1 : ∀ e : Fin E, rowOf hN s2 ⟨e, by omega⟩ = rowOf hN s e)
    (hs2 : ∀ i : Fin N, rowOf hN s2 ⟨E + i, by omega⟩ = i)
    (h : (⟨2, ![N, D]⟩ : Shape).Idx → A) (wt2 : (⟨1, ![M]⟩ : Shape).Idx → A) (p : Fin N) (k : Fin D) :
    ∑ e ∈ edgesInto tgt2 p, h (ix2 (rowOf hN s2 e) k) * wt2 (ix1 e)
      = (∑ e ∈ edgesInto tgt p, h (ix2 (rowOf hN s e) k) * wt2 (ix1 ⟨e, by omega⟩))
        + h (ix2 p k) * wt2 (ix1 ⟨E + p, by omega⟩) := by
  rw [sum_edgesInto_concat hM tgt tgt2 ht1 ht2 (fun e => h (ix2 (rowOf hN s2 e) k) * wt2 (ix1 e)) p]
  simp only [hs1, hs2]

/-- The same with the hypotheses on the rows read replaced by hypotheses on the index words: the longer source list
    holds the real sources' words on the real edges and a word reading `i` at position `E + i`. -/
theorem sum_aggregate_concat_words (hM : M = E + N) (hN : 0 < N)
    (tgt : IVec ⟨2, ![E, 1]⟩ w) (tgt2 : IVec ⟨2, ![M, 1]⟩ w)
    (ht1 : ∀ e : Fin E, tgt2 (ix2 ⟨e, by omega⟩ 0) = tgt (ix2 e 0))
    (ht2 : ∀ i : Fin N, (tgt2 (ix2 ⟨E + i, by omega⟩ 0)).toInt = (i : ℤ))
    (s : IVec ⟨2, ![E, 1]⟩ w') (s2 : IVec ⟨2, ![M, 1]⟩ w')
    (hs1 : ∀ e : Fin E, s2 (ix2 ⟨e, by omega⟩ 0) = s (ix2 e 0))
    (hs2 : ∀ i : Fin N, (s2 (ix2 ⟨E + i, by omega⟩ 0)).toInt = (i : ℤ))
    (h : (⟨2, ![N, D]⟩ : Shape).Idx → A) (wt2 : (⟨1, ![M]⟩ : Shape).Idx → A) (p : Fin N) (k : Fin D) :
    ∑ e ∈ edgesInto tgt2 p, h (ix2 (rowOf hN s2 e) k) * wt2 (ix1 e)
      = (∑ e ∈ edgesInto tgt p, h (ix2 (rowOf hN s e) k) * wt2 (ix1 ⟨e, by omega⟩))
        + h (ix2 p k) * wt2 (ix1 ⟨E + p, by omega⟩) :=
  sum_aggregate_concat hM hN tgt tgt2 ht1 ht2 s s2
    (fun e => rowOf_congr hN s s2 e ⟨e, by omega⟩ (hs1 e))
    (fun i => rowOf_of_toInt_eq hN s2 ⟨E + i, by omega⟩ i (hs2 i)) h wt2 p k

end Concat

end Cert.LibAggregate

end
-- ==== Proof.KIHostIdx.lean ====
/-
  The host terms before the dense layers, read at an index, on the extended reals: the edge list's rows as columns of
  words are the specification's columns; the normalisation vector is the specification's `dis`; its square stands in
  the column; an edge's weight is `dis` at its source row times `dis` at its target row; and the aggregate read at
  (node, feature) is the sum, over the edges that end in the node, of the source row's feature times the edge's weight.
-/
import proofs.«175804_j6906307412089_2_alg».proof.Proof.Gen.KernelIdeal.Regions
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value
import proofs.«175804_j6906307412089_2_alg».proof.Proof.KIHost0
import proofs.«175804_j6906307412089_2_alg».proof.Proof.Spec
import proofs.«175804_j6906307412089_2_alg».proof.Proof.LibVecScatter
import proofs.«175804_j6906307412089_2_alg».proof.Proof.LibSelfLoops
import proofs.«175804_j6906307412089_2_alg».proof.Proof.LibAggregate

noncomputable section

open scoped BigOperators

namespace Cert.KerSide

open Idealize.ShloMosaic Idealize.ShloMosaic.ValueIdx Cert.KernelIdeal Cert.KernelIdeal.Gen
open Cert.LibRowGatherScatter Cert.LibVecScatter Cert.LibSelfLoops Cert.LibAggregate Cert.GcnSpec

/-! ## The edge list's rows -/

theorem srcVec_apply (x1 : IVec S2x800000 32) (e : Fin 800000) : srcVec x1 (ix1 e) = x1 (ix2 0 e) := by
  unfold srcVec
  refine (shapeCast_apply _ shapeCasts_S1x800000_S800000 (ix1 e) (ix2 0 e)
    (by rewrite [Shape.rowMajor_val_two, Shape.rowMajor_val_one]; show 0 * 800000 + e.val = e.val; omega)).trans ?_
  exact extractStridedSlice_apply ![0, 0] x1 slices_S2x800000_S1x800000_0_0 (ix2 0 e) (ix2 0 e) (fun a => match a with
    | ⟨0, _⟩ => by show 0 = 0 + 0; omega
    | ⟨1, _⟩ => by show e.val = 0 + e.val; omega)

theorem tgtVec_apply (x1 : IVec S2x800000 32) (e : Fin 800000) : tgtVec x1 (ix1 e) = x1 (ix2 1 e) := by
  unfold tgtVec
  refine (shapeCast_apply _ shapeCasts_S1x800000_S800000 (ix1 e) (ix2 0 e)
    (by rewrite [Shape.rowMajor_val_two, Shape.rowMajor_val_one]; show 0 * 800000 + e.val = e.val; omega)).trans ?_
  exact extractStridedSlice_apply ![1, 0] x1 slices_S2x800000_S1x800000_1_0 (ix2 0 e) (ix2 1 e) (fun a => match a with
    | ⟨0, _⟩ => by show 1 = 1 + 0; omega
    | ⟨1, _⟩ => by show e.val = 0 + e.val; omega)

theorem colOf_apply (v : IVec S800000 32) (e : Fin 800000) (z : Fin 1) : colOf v (ix2 e z) = v (ix1 e) :=
  bcast_col_apply (by norm_num) bcast_S800000_S800000x1_0 v e z

theorem nrmVec_apply (v : IVec S800000 32) (e : Fin 800000) : nrmVec v (ix1 e) = nrm 50000#32 (v (ix1 e)) := by
  unfold nrmVec nrm
  exact signNorm_apply bcast_S_S800000 v 50000#32 (ix1 e)

/-- The target words as a column are the specification's raw target column. -/
theorem colOf_tgt (x1 : IVec S2x800000 32) : colOf (tgtVec x1) = edgeCol x1 1 := by
  funext i
  obtain ⟨e, z, rfl⟩ : ∃ (e : Fin 800000) (z : Fin 1), i = ix2 e z := ⟨i 0, i 1, eq_ix2 i⟩
  rw [colOf_apply, tgtVec_apply]
  rfl

/-- The normalised words of row `r` as a column are the specification's normalised column. -/
theorem colOf_nrm_src (x1 : IVec S2x800000 32) : colOf (nrmVec (srcVec x1)) = edgeColN 50000#32 x1 0 := by
  funext i
  obtain ⟨e, z, rfl⟩ : ∃ (e : Fin 800000) (z : Fin 1), i = ix2 e z := ⟨i 0, i 1, eq_ix2 i⟩
  rw [colOf_apply, nrmVec_apply, srcVec_apply]
  rfl
theorem colOf_nrm_tgt (x1 : IVec S2x800000 32) : colOf (nrmVec (tgtVec x1)) = edgeColN 50000#32 x1 1 := by
  funext i
  obtain ⟨e, z, rfl⟩ : ∃ (e : Fin 800000) (z : Fin 1), i = ix2 e z := ⟨i 0, i 1, eq_ix2 i⟩
  rw [colOf_apply, nrmVec_apply, tgtVec_apply]
  rfl

/-! ## The normalisation vector -/

/-- The normalisation vector at a node is the specification's `dis`: the zero the degrees are scattered into adds
    nothing. -/
theorem disVec_apply (x1 : IVec S2x800000 32) (p : Fin 50000) : disVec (tgtVec x1) (ix1 p) = dis (edgeCol x1 1) p := by
  have hz : broadcastInDim S50000 ![] bcast_S_S50000 (constant (F := Ideal) S_ .f32 0x00000000#32) (ix1 p) = 0 := by
    rw [bcast_scalar_apply, constant_apply, Ideal.ofBits_zero_f32]
  have h1 : broadcastInDim S50000 ![] bcast_S_S50000 (constant (F := Ideal) S_ .f32 0x3F800000#32) (ix1 p) = one := by
    rw [bcast_scalar_apply, constant_apply]
  have hs : ∀ x : Fin 800000,
      broadcastInDim S800000 ![] bcast_S_S800000 (constant (F := Ideal) S_ .f32 0x3F800000#32) (ix1 x) = one := fun x => by
    rw [bcast_scalar_apply, constant_apply]
  unfold disVec dis degree scatter_S50000_S800000x1_S800000_n_0_0_1
  rw [show ∀ (v : FVec Ideal S50000 .f32) (i : S50000.Idx), Host.rsqrt v i = Ideal.rsqrt (v i) from fun _ _ => rfl,
    maximumf_apply, addf_apply, scatterAdd_vec_apply, colOf_tgt, hz, h1, zero_add,
    Finset.sum_congr rfl (fun e _ => hs e)]

theorem dis2Col_apply (t : IVec S800000 32) (p : Fin 50000) (z : Fin 1) :
    dis2Col t (ix2 p z) = disVec t (ix1 p) * disVec t (ix1 p) := by
  unfold dis2Col
  refine (shapeCast_apply _ shapeCasts_S50000_S50000x1 (ix2 p z) (ix1 p)
    (by rewrite [Shape.rowMajor_val_two, Shape.rowMajor_val_one]; show p.val = p.val * 1 + z.val; omega)).trans ?_
  exact mulf_apply _ _ _

/-! ## The edges' weights and the aggregate -/

/-- The rows an edge reads, for its source and for its target: its sign-normalised word clamped into the nodes. -/
abbrev srow (x1 : IVec S2x800000 32) (e : Fin 800000) : Fin 50000 := rowOf (by norm_num) (edgeColN 50000#32 x1 0) e
abbrev trow (x1 : IVec S2x800000 32) (e : Fin 800000) : Fin 50000 := rowOf (by norm_num) (edgeColN 50000#32 x1 1) e

/-- An edge's weight: `dis` at the row its source word reads times `dis` at the row its target word reads. -/
theorem wtVec_apply (x1 : IVec S2x800000 32) (e : Fin 800000) :
    wtVec (srcVec x1) (tgtVec x1) (ix1 e) = dis (edgeCol x1 1) (srow x1 e) * dis (edgeCol x1 1) (trow x1 e) := by
  unfold wtVec gather_S50000_S800000x1_S800000_n_0_n_n_0_1_1
  rw [colOf_nrm_src, colOf_nrm_tgt, weights_apply (N := 50000) (E := 800000) (by norm_num), disVec_apply, disVec_apply]

/-- The 64-wide aggregate at (node, feature): the sum over the edges into the node of the source row's feature times the
    edge's weight (the zero it is scattered into adds nothing). -/
theorem agg64_apply (h : FVec Ideal S50000x64 .f32) (x1 : IVec S2x800000 32) (wt : FVec Ideal S800000 .f32) (p : Fin 50000) (k : Fin 64) :
    agg64 h (srcVec x1) (tgtVec x1) wt (ix2 p k) = ∑ e ∈ edgesInto (edgeCol x1 1) p, h (ix2 (srow x1 e) k) * wt (ix1 e) := by
  unfold agg64 scatter_S50000x64_S800000x1_S800000x64_1_0_0_1 gather_S50000x64_S800000x1_S800000x64_1_0_n_n_0_1_164
  rw [colOf_tgt, colOf_nrm_src, aggregate_rows_apply (N := 50000) (E := 800000) (by norm_num) (by norm_num),
    bcast_scalar_apply, constant_apply, Ideal.ofBits_zero_f32, zero_add]

/-- With the program's own weights the aggregate is the specification's `collect`. -/
theorem agg64_collect (h : FVec Ideal S50000x64 .f32) (x1 : IVec S2x800000 32) (p : Fin 50000) (k : Fin 64) :
    agg64 h (srcVec x1) (tgtVec x1) (wtVec (srcVec x1) (tgtVec x1)) (ix2 p k)
      = collect (edgeCol x1 1) (srow x1) (trow x1) (dis (edgeCol x1 1)) (fun q k => h (ix2 q k)) p k := by
  rw [agg64_apply]
  unfold collect
  exact Finset.sum_congr rfl fun e _ => by rw [wtVec_apply]

end Cert.KerSide

end
-- ==== Proof.KIValue.lean ====
/-
  The kernel program's result, from what its four dense regions leave. GIVEN that each region's output array is its
  body's formula of the arrays its windows read (a dense layer with the node's own row added in, twice under the
  rectifier and once bare, then the two-layer classifier), the three layers' outputs are the specification's `layer` of
  the previous one — the aggregates the host computes between them are the specification's `collect`, the column it
  passes is `dis · dis`, the bias rows are the bias vectors — and the result vector is the classifier's formula over the
  pooled-and-gathered rows of the third layer's output. The buffers the regions' windows read are identified with those
  terms at the end of the file.
-/
import proofs.«175804_j6906307412089_2_alg».proof.Proof.Gen.KernelIdeal.Regions
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value
import proofs.«175804_j6906307412089_2_alg».proof.Proof.KIHost0b
import proofs.«175804_j6906307412089_2_alg».proof.Proof.KIHost1
import proofs.«175804_j6906307412089_2_alg».proof.Proof.KIHostIdx

noncomputable section

open scoped BigOperators

set_option maxRecDepth 4096

namespace Cert.KerSide

open Idealize.ShloMosaic Idealize.ShloMosaic.TcCoe Idealize.ShloMosaic.ValueIdx Idealize.SL.Sem Cert.KernelIdeal Cert.KernelIdeal.Gen
open Cert.LibRowGatherScatter Cert.LibVecScatter Cert.LibSelfLoops Cert.LibAggregate Cert.GcnSpec

variable (m : (ℓ : Loc nD τ sig) → Buf (Elt Ideal) ℓ) (outs : Gen.Outs (F := Ideal)) (c : Dev nD)

/-- The program's arguments, as the launch memory holds them. -/
abbrev X0 : FVec Ideal S50000x64 .f32 := (m ((c.tc : Thread nD τ).loc main_arg0))
abbrev X1 : IVec S2x800000 32 := (m ((c.tc : Thread nD τ).loc main_arg1))
abbrev X2 : IVec S50000 32 := (m ((c.tc : Thread nD τ).loc main_arg2))
abbrev X3 : IVec S512 32 := (m ((c.tc : Thread nD τ).loc main_arg3))
abbrev X4 : IVec S512 32 := (m ((c.tc : Thread nD τ).loc main_arg4))
abbrev X5 : FVec Ideal S64x256 .f32 := (m ((c.tc : Thread nD τ).loc main_arg5))
abbrev X6 : FVec Ideal S256 .f32 := (m ((c.tc : Thread nD τ).loc main_arg6))
abbrev X7 : FVec Ideal S256x256 .f32 := (m ((c.tc : Thread nD τ).loc main_arg7))
abbrev X8 : FVec Ideal S256 .f32 := (m ((c.tc : Thread nD τ).loc main_arg8))
abbrev X9 : FVec Ideal S256x256 .f32 := (m ((c.tc : Thread nD τ).loc main_arg9))
abbrev X10 : FVec Ideal S256 .f32 := (m ((c.tc : Thread nD τ).loc main_arg10))
abbrev X11 : FVec Ideal S768x256 .f32 := (m ((c.tc : Thread nD τ).loc main_arg11))
abbrev X12 : FVec Ideal S256 .f32 := (m ((c.tc : Thread nD τ).loc main_arg12))
abbrev X13 : FVec Ideal S256x1 .f32 := (m ((c.tc : Thread nD τ).loc main_arg13))
abbrev X14 : FVec Ideal S1 .f32 := (m ((c.tc : Thread nD τ).loc main_arg14))

/-- What the four regions leave in their output arrays. -/
abbrev H1 : FVec Ideal S50000x256 .bf16 := outs 2 main_v44 c
abbrev H2 : FVec Ideal S50000x256 .bf16 := outs 4 main_v60 c
abbrev H3 : FVec Ideal S50000x256 .f32 := outs 6 main_v76 c
abbrev O3 : FVec Ideal S512x1 .f32 := outs 8 main_v106 c

/-- A bias vector as a row, and the last bias as a one-by-one array. -/
def biasRow (b : FVec Ideal S256 .f32) : FVec Ideal S1x256 .f32 := shapeCast S1x256 b shapeCasts_S256_S1x256
def biasOne (b : FVec Ideal S1 .f32) : FVec Ideal S1x1 .f32 := shapeCast S1x1 b shapeCasts_S1_S1x1

theorem biasRow_apply (b : FVec Ideal S256 .f32) (z : Fin 1) (j : Fin 256) : biasRow b (ix2 z j) = b (ix1 j) :=
  shapeCast_apply b shapeCasts_S256_S1x256 (ix2 z j) (ix1 j)
    (by rewrite [Shape.rowMajor_val_two, Shape.rowMajor_val_one]; show j.val = z.val * 256 + j.val; omega)
theorem biasOne_apply (b : FVec Ideal S1 .f32) : biasOne b (ix2 0 0) = b (ix1 0) :=
  shapeCast_apply b shapeCasts_S1_S1x1 (ix2 0 0) (ix1 0)
    (by rewrite [Shape.rowMajor_val_two, Shape.rowMajor_val_one]; rfl)

/-- The edges' weights and the aggregates, of the program's edge list. -/
abbrev WT : FVec Ideal S800000 .f32 := wtVec (srcVec (X1 m c)) (tgtVec (X1 m c))
abbrev D2 : FVec Ideal S50000x1 .f32 := dis2Col (tgtVec (X1 m c))

/-- What the four regions leave, each as its body's formula of the arrays its windows read when it is entered. -/
structure RegionVals : Prop where
  r0 : ∀ (p : Fin 50000) (j : Fin 256), H1 outs c (ix2 p j)
      = max ((∑ k : Fin 64, (agg64 (X0 m c) (srcVec (X1 m c)) (tgtVec (X1 m c)) (WT m c) (ix2 p k) + X0 m c (ix2 p k) * D2 m c (ix2 p 0)) * X5 m c (ix2 k j))
          + biasRow (X6 m c) (ix2 0 j)) 0
  r1 : ∀ (p : Fin 50000) (j : Fin 256), H2 outs c (ix2 p j)
      = max ((∑ k : Fin 256, (agg256 (H1 outs c) (srcVec (X1 m c)) (tgtVec (X1 m c)) (WT m c) (ix2 p k) + H1 outs c (ix2 p k) * D2 m c (ix2 p 0)) * X7 m c (ix2 k j))
          + biasRow (X8 m c) (ix2 0 j)) 0
  r2 : ∀ (p : Fin 50000) (j : Fin 256), H3 outs c (ix2 p j)
      = (∑ k : Fin 256, (agg256 (H2 outs c) (srcVec (X1 m c)) (tgtVec (X1 m c)) (WT m c) (ix2 p k) + H2 outs c (ix2 p k) * D2 m c (ix2 p 0)) * X9 m c (ix2 k j))
          + biasRow (X10 m c) (ix2 0 j)
  r3 : ∀ (r : Fin 512), O3 outs c (ix2 r 0)
      = (∑ j : Fin 256, max ((∑ k : Fin 768, poolCat (H3 outs c) (X2 m c) (X3 m c) (X4 m c) (ix2 r k) * X11 m c (ix2 k j)) + biasRow (X12 m c) (ix2 0 j)) 0
            * X13 m c (ix2 j 0)) + biasOne (X14 m c) (ix2 0 0)

/-! ## The aggregates are the specification's `collect` -/

theorem agg256_apply (h : FVec Ideal S50000x256 .bf16) (x1 : IVec S2x800000 32) (wt : FVec Ideal S800000 .f32) (p : Fin 50000) (k : Fin 256) :
    agg256 h (srcVec x1) (tgtVec x1) wt (ix2 p k) = ∑ e ∈ edgesInto (edgeCol x1 1) p, h (ix2 (srow x1 e) k) * wt (ix1 e) := by
  unfold agg256 scatter_S50000x256_S800000x1_S800000x256_1_0_0_1 gather_S50000x256_S800000x1_S800000x256_1_0_n_n_0_1_1256
  rw [colOf_tgt, colOf_nrm_src, aggregate_rows_extf_apply (N := 50000) (E := 800000) (by norm_num) (by norm_num),
    bcast_scalar_apply, constant_apply, Ideal.ofBits_zero_f32, zero_add]

theorem agg256_collect (h : FVec Ideal S50000x256 .bf16) (x1 : IVec S2x800000 32) (p : Fin 50000) (k : Fin 256) :
    agg256 h (srcVec x1) (tgtVec x1) (wtVec (srcVec x1) (tgtVec x1)) (ix2 p k)
      = collect (edgeCol x1 1) (srow x1) (trow x1) (dis (edgeCol x1 1)) (fun q k => h (ix2 q k)) p k := by
  rw [agg256_apply]
  unfold collect
  exact Finset.sum_congr rfl fun e _ => by rw [wtVec_apply]

/-! ## The three layers -/

theorem layer0 (H : RegionVals m outs c) (p : Fin 50000) (j : Fin 256) :
    H1 outs c (ix2 p j) = layer relu (edgeCol (X1 m c) 1) (srow (X1 m c)) (trow (X1 m c)) (dis (edgeCol (X1 m c) 1))
        (fun q k => X0 m c (ix2 q k)) (fun k j => X5 m c (ix2 k j)) (fun j => X6 m c (ix1 j)) p j := by
  rw [H.r0 p j, biasRow_apply]
  unfold layer relu
  simp only [agg64_collect, dis2Col_apply, disVec_apply]

theorem layer1 (H : RegionVals m outs c) (p : Fin 50000) (j : Fin 256) :
    H2 outs c (ix2 p j) = layer relu (edgeCol (X1 m c) 1) (srow (X1 m c)) (trow (X1 m c)) (dis (edgeCol (X1 m c) 1))
        (fun q k => H1 outs c (ix2 q k)) (fun k j => X7 m c (ix2 k j)) (fun j => X8 m c (ix1 j)) p j := by
  rw [H.r1 p j, biasRow_apply]
  unfold layer relu
  simp only [agg256_collect, dis2Col_apply, disVec_apply]

theorem layer2 (H : RegionVals m outs c) (p : Fin 50000) (j : Fin 256) :
    H3 outs c (ix2 p j) = layer (fun x => x) (edgeCol (X1 m c) 1) (srow (X1 m c)) (trow (X1 m c)) (dis (edgeCol (X1 m c) 1))
        (fun q k => H2 outs c (ix2 q k)) (fun k j => X9 m c (ix2 k j)) (fun j => X10 m c (ix1 j)) p j := by
  rw [H.r2 p j, biasRow_apply]
  unfold layer
  simp only [agg256_collect, dis2Col_apply, disVec_apply]

/-! ## The classifier -/

/-- The classifier's formula at pair `r`: the hidden row's rectified affine image of the input row, times the output
    column, plus the output bias. -/
def head (z : Fin 512 → Fin 768 → EReal) (w1 : Fin 768 → Fin 256 → EReal) (b1 : Fin 256 → EReal) (w2 : Fin 256 → EReal) (b2 : EReal)
    (r : Fin 512) : EReal :=
  (∑ j : Fin 256, max ((∑ k : Fin 768, z r k * w1 k j) + b1 j) 0 * w2 j) + b2

theorem classifier (H : RegionVals m outs c) (r : Fin 512) :
    O3 outs c (ix2 r 0) = head (fun r k => poolCat (H3 outs c) (X2 m c) (X3 m c) (X4 m c) (ix2 r k))
        (fun k j => X11 m c (ix2 k j)) (fun j => X12 m c (ix1 j)) (fun j => X13 m c (ix2 j 0)) (X14 m c (ix1 0)) r := by
  rw [H.r3 r, biasOne_apply]
  unfold head
  simp only [biasRow_apply]

end Cert.KerSide

end
-- ==== Proof.KIBufs.lean ====
/-
  The arrays the four regions' windows read when each region is entered, and the result buffer at the end, each
  identified with a named term: the arguments and the first host stretch's buffers stay put until they are read (no later
  host stretch writes them and no region may change them), a region's output array is read back as left, and the
  aggregates, bias rows and classifier input are the host stretches' terms of those.
-/
import proofs.«175804_j6906307412089_2_alg».proof.Proof.Gen.KernelIdeal.Regions
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value
import proofs.«175804_j6906307412089_2_alg».proof.Proof.KIValue

noncomputable section

open scoped BigOperators

set_option maxRecDepth 4096

namespace Cert.KerSide

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (outs : Gen.Outs (F := Ideal)) (c : Dev nD)

/-! ## What stays put -/

section Old
variable (r : Ref sig .tc)

theorem V1_arg (h1 : r ∉ (hostOps0_W : List (Ref sig .tc))) :
    Gen.V1 (F := Ideal) m c r = m ((c : Thread nD τ).loc r) := Gen.V1_of m c r h1
theorem V3_old (h2 : r ∉ ([main_v44] : List (Ref sig .tc))) (h3 : r ∉ (hostOps1_W : List (Ref sig .tc))) :
    Gen.V3 (F := Ideal) m outs c r = Gen.V1 (F := Ideal) m c r :=
  (Gen.V3_of m outs c r h3).trans (Gen.V2_of m outs c r h2)
theorem V4_old (h2 : r ∉ ([main_v44] : List (Ref sig .tc))) (h3 : r ∉ (hostOps1_W : List (Ref sig .tc)))
    (h4 : r ∉ ([main_v60] : List (Ref sig .tc))) :
    Gen.V4 (F := Ideal) m outs c r = Gen.V1 (F := Ideal) m c r :=
  (Gen.V4_of m outs c r h4).trans (V3_old m outs c r h2 h3)
theorem V5_old (h2 : r ∉ ([main_v44] : List (Ref sig .tc))) (h3 : r ∉ (hostOps1_W : List (Ref sig .tc)))
    (h4 : r ∉ ([main_v60] : List (Ref sig .tc))) (h5 : r ∉ (hostOps2_W : List (Ref sig .tc))) :
    Gen.V5 (F := Ideal) m outs c r = Gen.V1 (F := Ideal) m c r :=
  (Gen.V5_of m outs c r h5).trans (V4_old m outs c r h2 h3 h4)
theorem V6_old (h2 : r ∉ ([main_v44] : List (Ref sig .tc))) (h3 : r ∉ (hostOps1_W : List (Ref sig .tc)))
    (h4 : r ∉ ([main_v60] : List (Ref sig .tc))) (h5 : r ∉ (hostOps2_W : List (Ref sig .tc)))
    (h6 : r ∉ ([main_v76] : List (Ref sig .tc))) :
    Gen.V6 (F := Ideal) m outs c r = Gen.V1 (F := Ideal) m c r :=
  (Gen.V6_of m outs c r h6).trans (V5_old m outs c r h2 h3 h4 h5)
theorem V7_old (h2 : r ∉ ([main_v44] : List (Ref sig .tc))) (h3 : r ∉ (hostOps1_W : List (Ref sig .tc)))
    (h4 : r ∉ ([main_v60] : List (Ref sig .tc))) (h5 : r ∉ (hostOps2_W : List (Ref sig .tc)))
    (h6 : r ∉ ([main_v76] : List (Ref sig .tc))) (h7 : r ∉ (hostOps3_W : List (Ref sig .tc))) :
    Gen.V7 (F := Ideal) m outs c r = Gen.V1 (F := Ideal) m c r :=
  (Gen.V7_of m outs c r h7).trans (V6_old m outs c r h2 h3 h4 h5 h6)

end Old

/-! ## The first region's windows -/

theorem b0_0 : @Eq (FVec Ideal S50000x64 .f32) (Gen.V1 (F := Ideal) m c main_v42)
    (agg64 (X0 m c) (srcVec (X1 m c)) (tgtVec (X1 m c)) (WT m c)) := V1_v42 m c
theorem b0_1 : @Eq (FVec Ideal S50000x64 .f32) (Gen.V1 (F := Ideal) m c main_arg0) (X0 m c) := V1_arg m c main_arg0 (by decide)
theorem b0_2 : @Eq (FVec Ideal S50000x1 .f32) (Gen.V1 (F := Ideal) m c main_v14) (D2 m c) := V1_v14 m c
theorem b0_3 : @Eq (FVec Ideal S64x256 .f32) (Gen.V1 (F := Ideal) m c main_arg5) (X5 m c) := V1_arg m c main_arg5 (by decide)
theorem b0_4 : @Eq (FVec Ideal S1x256 .f32) (Gen.V1 (F := Ideal) m c main_v43) (biasRow (X6 m c)) := V1_v43 m c

/-! ## The second region's windows -/

theorem V2_v1 : @Eq (IVec S800000 32) (Gen.V2 (F := Ideal) m outs c main_v1) (srcVec (X1 m c)) :=
  (Gen.V2_of m outs c main_v1 (by decide)).trans (V1_v1 m c)
theorem V2_v3 : @Eq (IVec S800000 32) (Gen.V2 (F := Ideal) m outs c main_v3) (tgtVec (X1 m c)) :=
  (Gen.V2_of m outs c main_v3 (by decide)).trans (V1_v3 m c)
theorem V2_v29 : @Eq (FVec Ideal S800000 .f32) (Gen.V2 (F := Ideal) m outs c main_v29) (WT m c) :=
  (Gen.V2_of m outs c main_v29 (by decide)).trans (V1_v29 m c)
theorem V2_v44 : @Eq (FVec Ideal S50000x256 .bf16) (Gen.V2 (F := Ideal) m outs c main_v44) (H1 outs c) := Function.update_self ..

theorem b1_0 : @Eq (FVec Ideal S50000x256 .f32) (Gen.V3 (F := Ideal) m outs c main_v58)
    (agg256 (H1 outs c) (srcVec (X1 m c)) (tgtVec (X1 m c)) (WT m c)) := by
  have e := after1_v58 (Gen.V2 (F := Ideal) m outs c)
  rw [V2_v44, V2_v1, V2_v3, V2_v29] at e
  exact e
theorem b1_1 : @Eq (FVec Ideal S50000x256 .bf16) (Gen.V3 (F := Ideal) m outs c main_v44) (H1 outs c) :=
  (Gen.V3_of m outs c main_v44 (by decide)).trans (V2_v44 m outs c)
theorem b1_2 : @Eq (FVec Ideal S50000x1 .f32) (Gen.V3 (F := Ideal) m outs c main_v14) (D2 m c) :=
  (V3_old m outs c main_v14 (by decide) (by decide)).trans (V1_v14 m c)
theorem b1_3 : @Eq (FVec Ideal S256x256 .f32) (Gen.V3 (F := Ideal) m outs c main_arg7) (X7 m c) :=
  (V3_old m outs c main_arg7 (by decide) (by decide)).trans (V1_arg m c main_arg7 (by decide))
theorem b1_4 : @Eq (FVec Ideal S1x256 .f32) (Gen.V3 (F := Ideal) m outs c main_v59) (biasRow (X8 m c)) :=
  (after1_v59 (Gen.V2 (F := Ideal) m outs c)).trans (congrArg biasRow
    ((Gen.V2_of m outs c main_arg8 (by decide)).trans (V1_arg m c main_arg8 (by decide))))

/-! ## The third region's windows -/

theorem b2_0 : @Eq (FVec Ideal S50000x256 .f32) (Gen.V5 (F := Ideal) m outs c main_v74)
    (agg256 (H2 outs c) (srcVec (X1 m c)) (tgtVec (X1 m c)) (WT m c)) := by
  have e := after2_v74 (Gen.V4 (F := Ideal) m outs c)
  rw [show @Eq (FVec Ideal S50000x256 .bf16) (Gen.V4 (F := Ideal) m outs c main_v60) (H2 outs c) from Function.update_self ..,
    show @Eq (IVec S800000 32) (Gen.V4 (F := Ideal) m outs c main_v1) (srcVec (X1 m c)) from
      (V4_old m outs c main_v1 (by decide) (by decide) (by decide)).trans (V1_v1 m c),
    show @Eq (IVec S800000 32) (Gen.V4 (F := Ideal) m outs c main_v3) (tgtVec (X1 m c)) from
      (V4_old m outs c main_v3 (by decide) (by decide) (by decide)).trans (V1_v3 m c),
    show @Eq (FVec Ideal S800000 .f32) (Gen.V4 (F := Ideal) m outs c main_v29) (WT m c) from
      (V4_old m outs c main_v29 (by decide) (by decide) (by decide)).trans (V1_v29 m c)] at e
  exact e
theorem b2_1 : @Eq (FVec Ideal S50000x256 .bf16) (Gen.V5 (F := Ideal) m outs c main_v60) (H2 outs c) :=
  (Gen.V5_of m outs c main_v60 (by decide)).trans (Function.update_self ..)
theorem b2_2 : @Eq (FVec Ideal S50000x1 .f32) (Gen.V5 (F := Ideal) m outs c main_v14) (D2 m c) :=
  (V5_old m outs c main_v14 (by decide) (by decide) (by decide) (by decide)).trans (V1_v14 m c)
theorem b2_3 : @Eq (FVec Ideal S256x256 .f32) (Gen.V5 (F := Ideal) m outs c main_arg9) (X9 m c) :=
  (V5_old m outs c main_arg9 (by decide) (by decide) (by decide) (by decide)).trans (V1_arg m c main_arg9 (by decide))
theorem b2_4 : @Eq (FVec Ideal S1x256 .f32) (Gen.V5 (F := Ideal) m outs c main_v75) (biasRow (X10 m c)) :=
  (after2_v75 (Gen.V4 (F := Ideal) m outs c)).trans (congrArg biasRow
    ((V4_old m outs c main_arg10 (by decide) (by decide) (by decide)).trans (V1_arg m c main_arg10 (by decide))))

/-! ## The classifier's windows, and the result -/

theorem b3_0 : @Eq (FVec Ideal S512x768 .f32) (Gen.V7 (F := Ideal) m outs c main_v103)
    (poolCat (H3 outs c) (X2 m c) (X3 m c) (X4 m c)) := by
  have e := after3_v103 (Gen.V6 (F := Ideal) m outs c)
  rw [show @Eq (FVec Ideal S50000x256 .f32) (Gen.V6 (F := Ideal) m outs c main_v76) (H3 outs c) from Function.update_self ..,
    show @Eq (IVec S50000 32) (Gen.V6 (F := Ideal) m outs c main_arg2) (X2 m c) from
      (V6_old m outs c main_arg2 (by decide) (by decide) (by decide) (by decide) (by decide)).trans (V1_arg m c main_arg2 (by decide)),
    show @Eq (IVec S512 32) (Gen.V6 (F := Ideal) m outs c main_arg3) (X3 m c) from
      (V6_old m outs c main_arg3 (by decide) (by decide) (by decide) (by decide) (by decide)).trans (V1_arg m c main_arg3 (by decide)),
    show @Eq (IVec S512 32) (Gen.V6 (F := Ideal) m outs c main_arg4) (X4 m c) from
      (V6_old m outs c main_arg4 (by decide) (by decide) (by decide) (by decide) (by decide)).trans (V1_arg m c main_arg4 (by decide))] at e
  exact e
theorem b3_1 : @Eq (FVec Ideal S768x256 .f32) (Gen.V7 (F := Ideal) m outs c main_arg11) (X11 m c) :=
  (V7_old m outs c main_arg11 (by decide) (by decide) (by decide) (by decide) (by decide) (by decide)).trans (V1_arg m c main_arg11 (by decide))
theorem b3_2 : @Eq (FVec Ideal S1x256 .f32) (Gen.V7 (F := Ideal) m outs c main_v104) (biasRow (X12 m c)) :=
  (after3_v104 (Gen.V6 (F := Ideal) m outs c)).trans (congrArg biasRow
    ((V6_old m outs c main_arg12 (by decide) (by decide) (by decide) (by decide) (by decide)).trans (V1_arg m c main_arg12 (by decide))))
theorem b3_3 : @Eq (FVec Ideal S256x1 .f32) (Gen.V7 (F := Ideal) m outs c main_arg13) (X13 m c) :=
  (V7_old m outs c main_arg13 (by decide) (by decide) (by decide) (by decide) (by decide) (by decide)).trans (V1_arg m c main_arg13 (by decide))
theorem b3_4 : @Eq (FVec Ideal S1x1 .f32) (Gen.V7 (F := Ideal) m outs c main_v105) (biasOne (X14 m c)) :=
  (after3_v105 (Gen.V6 (F := Ideal) m outs c)).trans (congrArg biasOne
    ((V6_old m outs c main_arg14 (by decide) (by decide) (by decide) (by decide) (by decide)).trans (V1_arg m c main_arg14 (by decide))))

/-- The result buffer is the classifier's output column as a vector. -/
theorem result_buf : @Eq (FVec Ideal S512 .f32) (Gen.V9 (F := Ideal) m outs c main_v107)
    (shapeCast S512 (O3 outs c) shapeCasts_S512x1_S512) :=
  (after4_v107 (Gen.V8 (F := Ideal) m outs c)).trans
    (congrArg (fun b : FVec Ideal S512x1 .f32 => shapeCast S512 b shapeCasts_S512x1_S512) (Function.update_self ..))

theorem result_at (r : Fin 512) : (shapeCast S512 (O3 outs c) shapeCasts_S512x1_S512 : FVec Ideal S512 .f32) (ix1 r) = O3 outs c (ix2 r 0) :=
  shapeCast_apply _ shapeCasts_S512x1_S512 (ix1 r) (ix2 r 0)
    (by rewrite [Shape.rowMajor_val_two, Shape.rowMajor_val_one]; show r.val * 1 + 0 = r.val; omega)

end Cert.KerSide

end
-- ==== Proof.RefLayerRead.lean ====
/-
  One graph-convolution layer, written with the host operations the reference uses, read at one element.

  The layer gathers one row of the node features per edge, scales every gathered row by the edge's weight (a vector of
  one number per edge, broadcast first to a column and then along the row), adds the scaled rows into the rows the
  target column names (starting from a constant array), multiplies by the weight matrix, adds the bias row (broadcast to
  every node) and takes the maximum with a constant array. Read at node `p`, output feature `j`, that is

      max ((∑ k, (c + ∑ e ∈ edgesInto tcol p, h (row e, k) · w e) · W (k, j)) + b j) c'

  with `row e` the row the edge's source word is clamped to. The statement is for arbitrary extents; the last layer of
  the network has no maximum and is the same expression without the outer `max`.
-/
import Idealize.ShloMosaic.Lib.ValueIdx
import Idealize.ShloMosaic.PureOps.Ideal.Laws
import Idealize.ShloMosaic.Lib.Pipeline.Value
import proofs.«175804_j6906307412089_2_alg».proof.Proof.LibRowGatherScatter

noncomputable section

open scoped BigOperators

namespace Cert.RefSide

open Idealize.ShloMosaic Idealize.ShloMosaic.ValueIdx Cert.LibRowGatherScatter

/-- A vector `[M]` broadcast to a row `[1, M]` reads element `j` in column `j`. -/
theorem bcast_vec_row_apply {α : Type} {M : Nat}
    (h : (⟨1, ![M]⟩ : Shape).BroadcastsInDim ⟨2, ![1, M]⟩ (![1] : Fin 1 → Fin 2))
    (y : (⟨1, ![M]⟩ : Shape).Idx → α) (z : Fin 1) (j : Fin M) :
    broadcastInDim ⟨2, ![1, M]⟩ ![1] h y (ix2 z j) = y (ix1 j) :=
  broadcastInDim_apply _ h y (ix2 z j) (ix1 j) (fun a => match a with
    | ⟨0, _⟩ => by
      show j.val = if M = 1 then 0 else j.val
      by_cases hM : M = 1
      · rw [if_pos hM]; have := j.isLt; omega
      · rw [if_neg hM])

/-- A row `[1, M]` broadcast along its unit axis to `[N, M]` reads the row's element of column `j` everywhere in column
    `j`. -/
theorem bcast_rows_apply {α : Type} {N M : Nat}
    (h : (⟨2, ![1, M]⟩ : Shape).BroadcastsInDim ⟨2, ![N, M]⟩ (![0, 1] : Fin 2 → Fin 2))
    (y : (⟨2, ![1, M]⟩ : Shape).Idx → α) (p : Fin N) (j : Fin M) :
    broadcastInDim ⟨2, ![N, M]⟩ ![0, 1] h y (ix2 p j) = y (ix2 0 j) :=
  broadcastInDim_apply _ h y (ix2 p j) (ix2 0 j) (fun a => match a with
    | ⟨0, _⟩ => by show 0 = if (1 : Nat) = 1 then 0 else p.val; rw [if_pos rfl]
    | ⟨1, _⟩ => by
      show j.val = if M = 1 then 0 else j.val
      by_cases hM : M = 1
      · rw [if_pos hM]; have := j.isLt; omega
      · rw [if_neg hM])

section Layer

variable {N E C M : Nat}
  (wfg : GatherDims.WF ⟨2, ![N, C]⟩ ⟨2, ![E, 1]⟩ ⟨2, ![E, C]⟩ [1] [0] [] [0] [] 1 ![1, C])
  (wfs : ScatterDims.WF ⟨2, ![N, C]⟩ ⟨2, ![E, 1]⟩ ⟨2, ![E, C]⟩ [1] [0] [0] 1)
  (wfd : DotDims.WF ⟨2, ![N, C]⟩ ⟨2, ![C, M]⟩ ⟨2, ![N, M]⟩ [1] [0] [0] [1] [] [])
  (hcol : (⟨1, ![E]⟩ : Shape).BroadcastsInDim ⟨2, ![E, 1]⟩ (![0] : Fin 1 → Fin 2))
  (hrow : (⟨2, ![E, 1]⟩ : Shape).BroadcastsInDim ⟨2, ![E, C]⟩ (![0, 1] : Fin 2 → Fin 2))
  (hz : (⟨0, ![]⟩ : Shape).BroadcastsInDim ⟨2, ![N, C]⟩ (![] : Fin 0 → Fin 2))
  (hb1 : (⟨1, ![M]⟩ : Shape).BroadcastsInDim ⟨2, ![1, M]⟩ (![1] : Fin 1 → Fin 2))
  (hb2 : (⟨2, ![1, M]⟩ : Shape).BroadcastsInDim ⟨2, ![N, M]⟩ (![0, 1] : Fin 2 → Fin 2))

/-- The rows collected into every node: the gathered rows, each scaled by its edge's weight, scattered by the target
    column and added into a constant array. -/
def gathered (h : FVec Ideal ⟨2, ![N, C]⟩ .f32) (scol tcol : IVec ⟨2, ![E, 1]⟩ 32) (w : FVec Ideal ⟨1, ![E]⟩ .f32)
    (c : FVec Ideal ⟨0, ![]⟩ .f32) : FVec Ideal ⟨2, ![N, C]⟩ .f32 :=
  Host.scatterAdd (F := Ideal) (rowScatterDims N E C wfs) (broadcastInDim ⟨2, ![N, C]⟩ ![] hz c) tcol
    (mulf (Host.gather (rowGatherDims N E C wfg) h scol)
      (broadcastInDim ⟨2, ![E, C]⟩ ![0, 1] hrow (broadcastInDim ⟨2, ![E, 1]⟩ ![0] hcol w)))

/-- THE COLLECTED ROWS READ AT `(p, k)`: the constant plus the sum over the edges that end in `p` of the source row's
    feature `k` times the edge's weight. -/
theorem gathered_apply (hN : 0 < N) (hE : E ≠ 1) (h : FVec Ideal ⟨2, ![N, C]⟩ .f32) (scol tcol : IVec ⟨2, ![E, 1]⟩ 32)
    (w : FVec Ideal ⟨1, ![E]⟩ .f32) (c : FVec Ideal ⟨0, ![]⟩ .f32) (p : Fin N) (k : Fin C) :
    gathered wfg wfs hcol hrow hz h scol tcol w c (ix2 p k)
      = c ix0 + ∑ e ∈ edgesInto tcol p, h (ix2 (rowOf hN scol e) k) * w (ix1 e) := by
  unfold gathered
  rw [scatterAdd_rows_apply, bcast_scalar_apply]
  refine congrArg (c ix0 + ·) (Finset.sum_congr rfl fun e _ => ?_)
  show Host.gather (rowGatherDims N E C wfg) h scol (ix2 e k)
    * broadcastInDim ⟨2, ![E, C]⟩ ![0, 1] hrow (broadcastInDim ⟨2, ![E, 1]⟩ ![0] hcol w) (ix2 e k) = _
  rw [gather_rows_apply hN, bcast_row_apply hE, bcast_col_apply hE]

/-- The layer before its activation: the collected rows times the weight matrix, plus the bias row. -/
def affine (h : FVec Ideal ⟨2, ![N, C]⟩ .f32) (scol tcol : IVec ⟨2, ![E, 1]⟩ 32) (w : FVec Ideal ⟨1, ![E]⟩ .f32)
    (c : FVec Ideal ⟨0, ![]⟩ .f32) (W : FVec Ideal ⟨2, ![C, M]⟩ .f32) (b : FVec Ideal ⟨1, ![M]⟩ .f32) :
    FVec Ideal ⟨2, ![N, M]⟩ .f32 :=
  addf (Host.dotGeneral (rowDotDims N C M wfd) none (gathered wfg wfs hcol hrow hz h scol tcol w c) W)
    (broadcastInDim ⟨2, ![N, M]⟩ ![0, 1] hb2 (broadcastInDim ⟨2, ![1, M]⟩ ![1] hb1 b))

/-- THE LAYER BEFORE ITS ACTIVATION READ AT `(p, j)`. -/
theorem affine_apply (hN : 0 < N) (hE : E ≠ 1) (h : FVec Ideal ⟨2, ![N, C]⟩ .f32) (scol tcol : IVec ⟨2, ![E, 1]⟩ 32)
    (w : FVec Ideal ⟨1, ![E]⟩ .f32) (c : FVec Ideal ⟨0, ![]⟩ .f32) (W : FVec Ideal ⟨2, ![C, M]⟩ .f32)
    (b : FVec Ideal ⟨1, ![M]⟩ .f32) (p : Fin N) (j : Fin M) :
    affine wfg wfs wfd hcol hrow hz hb1 hb2 h scol tcol w c W b (ix2 p j)
      = (∑ k : Fin C, (c ix0 + ∑ e ∈ edgesInto tcol p, h (ix2 (rowOf hN scol e) k) * w (ix1 e)) * W (ix2 k j))
        + b (ix1 j) := by
  unfold affine
  show Host.dotGeneral (rowDotDims N C M wfd) none (gathered wfg wfs hcol hrow hz h scol tcol w c) W (ix2 p j)
    + broadcastInDim ⟨2, ![N, M]⟩ ![0, 1] hb2 (broadcastInDim ⟨2, ![1, M]⟩ ![1] hb1 b) (ix2 p j) = _
  rw [dotGeneral_rows_apply, bcast_rows_apply, bcast_vec_row_apply]
  refine congrArg (· + b (ix1 j)) (Finset.sum_congr rfl fun k _ => ?_)
  rw [gathered_apply wfg wfs hcol hrow hz hN hE]

end Layer

end Cert.RefSide

end
-- ==== Proof.RefCols.lean ====
/-
  The edge columns of the reference, read at an index.

  The reference appends one self-loop per node to the edge list: its source and target vectors of 850000 words are the
  800000 words of the edge list's row followed by the words 0, 1, …, 49999. Every column the three layers use is one of
  three columns of 850000 words, all functions of the edge list alone:

    • the raw target column (the scatter index of the degree count and of every layer): on a real edge the target word of
      the edge list, on the self-loop of node `i` a word whose signed value is `i`;
    • the sign-normalised source and target columns (the gather indices): on a real edge the normalised word of the edge
      list, on the self-loop of node `i` again a word whose signed value is `i`;

  and the per-edge weight is the product of the inverse square-root degree gathered at the edge's two rows: on a real
  edge at the rows of its two normalised words, on the self-loop of node `i` twice at row `i`.
-/
import proofs.«175804_j6906307412089_2_alg».proof.Proof.Gen.ReferenceIdeal.Read
import proofs.«175804_j6906307412089_2_alg».proof.Proof.Spec
import proofs.«175804_j6906307412089_2_alg».proof.Proof.LibSelfLoops

noncomputable section

open scoped BigOperators

namespace Cert.RefSide

open Idealize.ShloMosaic Idealize.ShloMosaic.ValueIdx Cert.LibRowGatherScatter Cert.LibSelfLoops Cert.GcnSpec
open Cert.ReferenceIdeal Cert.ReferenceIdeal.Gen Cert.ReferenceIdeal.Read

/-- The edge list as the reference's argument. -/
abbrev EdgeList : Type := (⟨S2x800000, .i32⟩ : BufTy).Contents (Elt Ideal)

/-- Real edge `e` among the 850000 edges with self-loops. -/
abbrev realE (e : Fin 800000) : Fin 850000 := ⟨e.val, by omega⟩

/-- The self-loop of node `i` among the 850000 edges with self-loops. -/
abbrev loopE (i : Fin 50000) : Fin 850000 := ⟨800000 + i.val, by omega⟩

/-- The row a real edge reads for its source: its normalised source word, clamped. -/
abbrev srow (x1 : EdgeList) (e : Fin 800000) : Fin 50000 := rowOf (by norm_num) (edgeColN 50000#32 x1 0) e

/-- The row a real edge reads for its target: its normalised target word, clamped. -/
abbrev trow (x1 : EdgeList) (e : Fin 800000) : Fin 50000 := rowOf (by norm_num) (edgeColN 50000#32 x1 1) e

/-- The reference's inverse square-root degree of node `q`. -/
abbrev rdis (x1 : EdgeList) (q : Fin 50000) : EReal := val_main_v13 (F := Ideal) x1 (ix1 q)

/-! ## The two concatenated vectors -/

theorem v5_real (x1 : EdgeList) (e : Fin 800000) :
    val_main_v5 (F := Ideal) x1 (ix1 (realE e)) = x1 (ix2 0 e) := by
  unfold val_main_v5
  rw [concat_vec_apply_left, val_main_v1_apply, val_main_v0_apply]
  refine congrArg x1 (funext fun a => Fin.ext ?_)
  match a with
  | ⟨0, _⟩ => rfl
  | ⟨1, _⟩ => exact Nat.mod_eq_of_lt e.isLt

theorem v6_real (x1 : EdgeList) (e : Fin 800000) :
    val_main_v6 (F := Ideal) x1 (ix1 (realE e)) = x1 (ix2 1 e) := by
  unfold val_main_v6
  rw [concat_vec_apply_left, val_main_v3_apply, val_main_v2_apply]
  refine congrArg x1 (funext fun a => Fin.ext ?_)
  match a with
  | ⟨0, _⟩ => rfl
  | ⟨1, _⟩ => exact Nat.mod_eq_of_lt e.isLt

theorem v5_loop (x1 : EdgeList) (i : Fin 50000) :
    (val_main_v5 (F := Ideal) x1 (ix1 (loopE i))).toInt = (i.val : ℤ) := by
  unfold val_main_v5
  rw [concat_vec_apply_right]
  exact iota_vec_toInt (by norm_num) i

theorem v6_loop (x1 : EdgeList) (i : Fin 50000) :
    (val_main_v6 (F := Ideal) x1 (ix1 (loopE i))).toInt = (i.val : ℤ) := by
  unfold val_main_v6
  rw [concat_vec_apply_right]
  exact iota_vec_toInt (by norm_num) i

/-! ## The raw target column -/

/-- The scatter index of every layer and of the degree count is one column. -/
theorem v40_eq (x1 : EdgeList) : val_main_v40 (F := Ideal) x1 = val_main_v9 x1 := rfl
theorem v58_eq (x1 : EdgeList) : val_main_v58 (F := Ideal) x1 = val_main_v9 x1 := rfl
theorem v76_eq (x1 : EdgeList) : val_main_v76 (F := Ideal) x1 = val_main_v9 x1 := rfl

theorem v9_at (x1 : EdgeList) (e : Fin 850000) :
    val_main_v9 (F := Ideal) x1 (ix2 e 0) = val_main_v6 x1 (ix1 e) := by
  rw [val_main_v9_apply]
  refine congrArg (val_main_v6 x1) (funext fun a => Fin.ext ?_)
  match a with
  | ⟨0, _⟩ => rfl

/-- On a real edge the raw target column holds the edge list's target word. -/
theorem v9_real (x1 : EdgeList) (e : Fin 800000) :
    val_main_v9 (F := Ideal) x1 (ix2 (realE e) 0) = edgeCol x1 1 (ix2 e 0) :=
  (v9_at x1 (realE e)).trans (v6_real x1 e)

/-- On the self-loop of node `i` the raw target column reads `i`. -/
theorem v9_loop (x1 : EdgeList) (i : Fin 50000) :
    (val_main_v9 (F := Ideal) x1 (ix2 (loopE i) 0)).toInt = (i.val : ℤ) := by
  rw [v9_at, v6_loop]

/-! ## The normalised columns -/

theorem nrm_of_nonneg (n w : BitVec 32) (h : 0 ≤ w.toInt) : nrm n w = w := by
  unfold nrm
  rw [if_neg (by omega)]

/-- The reference's select on "below zero" is the normalisation of the word. -/
theorem select_eq_nrm (n w : BitVec 32) :
    Scalar.select (IntOp.cmpi .slt w 0#32) (IntOp.addi w n) w = nrm n w := by
  show Scalar.select (BitVec.ofBool (w.slt 0#32)) (w + n) w = _
  rw [select_slt_word, BitVec.toInt_zero]
  rfl

theorem v18_at (x1 : EdgeList) (e : Fin 850000) :
    val_main_v18 (F := Ideal) x1 (ix1 e) = nrm 50000#32 (val_main_v5 x1 (ix1 e)) := by
  rw [val_main_v18_apply, val_main_v15_apply, val_main_v17_apply, val_main_v14_apply, val_main_v16_apply,
    val_main_c_apply, val_main_c_2_apply]
  exact select_eq_nrm _ _

theorem v25_at (x1 : EdgeList) (e : Fin 850000) :
    val_main_v25 (F := Ideal) x1 (ix1 e) = nrm 50000#32 (val_main_v6 x1 (ix1 e)) := by
  rw [val_main_v25_apply, val_main_v22_apply, val_main_v24_apply, val_main_v21_apply, val_main_v23_apply,
    val_main_c_3_apply, val_main_c_4_apply]
  exact select_eq_nrm _ _

theorem v19_at (x1 : EdgeList) (e : Fin 850000) :
    val_main_v19 (F := Ideal) x1 (ix2 e 0) = nrm 50000#32 (val_main_v5 x1 (ix1 e)) := by
  rw [val_main_v19_apply, ← v18_at]
  refine congrArg (val_main_v18 x1) (funext fun a => Fin.ext ?_)
  match a with
  | ⟨0, _⟩ => rfl

theorem v26_at (x1 : EdgeList) (e : Fin 850000) :
    val_main_v26 (F := Ideal) x1 (ix2 e 0) = nrm 50000#32 (val_main_v6 x1 (ix1 e)) := by
  rw [val_main_v26_apply, ← v25_at]
  refine congrArg (val_main_v25 x1) (funext fun a => Fin.ext ?_)
  match a with
  | ⟨0, _⟩ => rfl

/-- The gather index of every layer is the normalised source column. -/
theorem v34_eq (x1 : EdgeList) : val_main_v34 (F := Ideal) x1 = val_main_v19 x1 := rfl
theorem v52_eq (x1 : EdgeList) : val_main_v52 (F := Ideal) x1 = val_main_v19 x1 := rfl
theorem v70_eq (x1 : EdgeList) : val_main_v70 (F := Ideal) x1 = val_main_v19 x1 := rfl

theorem v19_real (x1 : EdgeList) (e : Fin 800000) :
    val_main_v19 (F := Ideal) x1 (ix2 (realE e) 0) = edgeColN 50000#32 x1 0 (ix2 e 0) :=
  (v19_at x1 (realE e)).trans (congrArg (nrm 50000#32) (v5_real x1 e))

theorem v26_real (x1 : EdgeList) (e : Fin 800000) :
    val_main_v26 (F := Ideal) x1 (ix2 (realE e) 0) = edgeColN 50000#32 x1 1 (ix2 e 0) :=
  (v26_at x1 (realE e)).trans (congrArg (nrm 50000#32) (v6_real x1 e))

theorem v19_loop (x1 : EdgeList) (i : Fin 50000) :
    (val_main_v19 (F := Ideal) x1 (ix2 (loopE i) 0)).toInt = (i.val : ℤ) := by
  have h := v5_loop x1 i
  rw [v19_at, nrm_of_nonneg _ _ (by omega), h]

theorem v26_loop (x1 : EdgeList) (i : Fin 50000) :
    (val_main_v26 (F := Ideal) x1 (ix2 (loopE i) 0)).toInt = (i.val : ℤ) := by
  have h := v6_loop x1 i
  rw [v26_at, nrm_of_nonneg _ _ (by omega), h]

/-! ## The rows an edge reads -/

/-- Two columns that hold the same word at two positions send them to the same row. -/
theorem rowOf_congr {N E E' : Nat} (hN : 0 < N) (idx : IVec ⟨2, ![E, 1]⟩ 32) (idx' : IVec ⟨2, ![E', 1]⟩ 32)
    (e : Fin E) (e' : Fin E') (h : idx (ix2 e 0) = idx' (ix2 e' 0)) : rowOf hN idx e = rowOf hN idx' e' := by
  apply Fin.ext
  show min (idx (ix2 e 0)).toInt.toNat (N - 1) = min (idx' (ix2 e' 0)).toInt.toNat (N - 1)
  rw [h]

theorem rowOf_v19_real (x1 : EdgeList) (e : Fin 800000) :
    rowOf (N := 50000) (by norm_num) (val_main_v19 (F := Ideal) x1) (realE e) = srow x1 e :=
  rowOf_congr _ _ _ _ _ (v19_real x1 e)

theorem rowOf_v26_real (x1 : EdgeList) (e : Fin 800000) :
    rowOf (N := 50000) (by norm_num) (val_main_v26 (F := Ideal) x1) (realE e) = trow x1 e :=
  rowOf_congr _ _ _ _ _ (v26_real x1 e)

theorem rowOf_v19_loop (x1 : EdgeList) (i : Fin 50000) :
    rowOf (N := 50000) (by norm_num) (val_main_v19 (F := Ideal) x1) (loopE i) = i :=
  rowOf_of_toInt_eq _ _ _ i (v19_loop x1 i)

theorem rowOf_v26_loop (x1 : EdgeList) (i : Fin 50000) :
    rowOf (N := 50000) (by norm_num) (val_main_v26 (F := Ideal) x1) (loopE i) = i :=
  rowOf_of_toInt_eq _ _ _ i (v26_loop x1 i)

/-! ## The per-edge weight -/

theorem v28_at (x1 : EdgeList) (e : Fin 850000) :
    val_main_v28 (F := Ideal) x1 (ix1 e)
      = rdis x1 (rowOf (by norm_num) (val_main_v19 (F := Ideal) x1) e)
        * rdis x1 (rowOf (by norm_num) (val_main_v26 (F := Ideal) x1) e) := by
  rw [val_main_v28_apply]
  unfold val_main_v20 val_main_v27
  exact congrArg₂ (· * ·)
    (gather_vec_apply (N := 50000) (by norm_num) gather_S50000_S850000x1_S850000_n_0_n_n_0_1_1.wf _ _ e)
    (gather_vec_apply (N := 50000) (by norm_num) gather_S50000_S850000x1_S850000_n_0_n_n_0_1_1.wf _ _ e)

/-- On a real edge the weight is the inverse square-root degree at the edge's two rows. -/
theorem v28_real (x1 : EdgeList) (e : Fin 800000) :
    val_main_v28 (F := Ideal) x1 (ix1 (realE e)) = rdis x1 (srow x1 e) * rdis x1 (trow x1 e) := by
  rw [v28_at, rowOf_v19_real, rowOf_v26_real]

/-- On the self-loop of node `i` the weight is the inverse square-root degree of `i`, twice. -/
theorem v28_loop (x1 : EdgeList) (i : Fin 50000) :
    val_main_v28 (F := Ideal) x1 (ix1 (loopE i)) = rdis x1 i * rdis x1 i := by
  rw [v28_at, rowOf_v19_loop, rowOf_v26_loop]

/-- The weight column of every layer is one vector. -/
theorem v54_eq (x1 : EdgeList) : val_main_v54 (F := Ideal) x1 = val_main_v36 x1 := rfl
theorem v72_eq (x1 : EdgeList) : val_main_v72 (F := Ideal) x1 = val_main_v36 x1 := rfl

end Cert.RefSide

end
-- ==== Proof.RefDis.lean ====
/-
  The reference's inverse square-root degree, read at a node.

  The reference counts, for every node, the edges that end in it — over the 850000 edges with self-loops, by adding a
  one per edge into a vector of zeros — takes the maximum with one and the inverse square root. Over the edges with
  self-loops the count at `p` is the count over the real edges into `p` and one more for the node's self-loop: the
  specification's `degree`.
-/
import proofs.«175804_j6906307412089_2_alg».proof.Proof.RefCols
import proofs.«175804_j6906307412089_2_alg».proof.Proof.LibVecScatter

noncomputable section

open scoped BigOperators

namespace Cert.RefSide

open Idealize.ShloMosaic Idealize.ShloMosaic.ValueIdx Cert.LibRowGatherScatter Cert.LibVecScatter Cert.LibSelfLoops Cert.GcnSpec
open Cert.ReferenceIdeal Cert.ReferenceIdeal.Gen Cert.ReferenceIdeal.Read

/-- The degree count at `p`: one for every real edge into `p`, and one for the self-loop. -/
theorem refDeg (x1 : EdgeList) (p : Fin 50000) :
    val_main_v10 (F := Ideal) x1 (ix1 p) = degree one (edgeCol x1 1) p := by
  unfold val_main_v10
  refine (scatterAdd_vec_apply (N := 50000) (E := 850000) scatter_S50000_S850000x1_S850000_n_0_0_1.wf
    (val_main_v9 (F := Ideal) x1) (val_main_v8 (F := Ideal)) (val_main_v7 (F := Ideal)) p).trans ?_
  rw [val_main_v8_apply, val_main_cst_0_apply, Ideal.ofBits_def, Ideal.ofBits_zero_f32, zero_add]
  refine (sum_edgesInto_concat (N := 50000) (E := 800000) (M := 850000) (by norm_num) (edgeCol x1 1)
    (val_main_v9 (F := Ideal) x1) (v9_real x1) (v9_loop x1) (fun e => val_main_v7 (F := Ideal) (ix1 e)) p).trans ?_
  unfold degree
  simp only [val_main_v7_apply, val_main_cst_apply, Ideal.ofBits_def]

/-- THE INVERSE SQUARE-ROOT DEGREE AT `p`. -/
theorem refDis (x1 : EdgeList) (p : Fin 50000) :
    val_main_v13 (F := Ideal) x1 (ix1 p) = dis (edgeCol x1 1) p := by
  rw [val_main_v13_apply, val_main_v12_apply, val_main_v11_apply, val_main_cst_1_apply, refDeg,
    Ideal.hostUnary_rsqrt_def, Ideal.maximumf_def, Ideal.ofBits_def]
  rfl

/-- The reference's inverse square-root degree vector is the specification's factor over the real edges. -/
theorem rdis_eq (x1 : EdgeList) : rdis x1 = dis (edgeCol x1 1) := funext (refDis x1)

end Cert.RefSide

end
-- ==== Proof.RefLayer.lean ====
/-
  The three graph-convolution layers of the reference, each with its input abstract, read at one element.

  Each layer gathers a feature row per edge (real edges, then one self-loop per node), scales it by the edge's weight,
  adds the rows into their target nodes, multiplies by the layer's matrix and adds its bias; the first two take the
  maximum with zero. Over the 850000 edges the sum into node `p` is the sum over the real edges into `p` plus the
  self-loop's term: the self-loop of `p` reads row `p` and weighs `dis p · dis p`. So each layer at `(p, j)` is the
  specification's `layer` over the real edges.
-/
import proofs.«175804_j6906307412089_2_alg».proof.Proof.RefLayerRead
import proofs.«175804_j6906307412089_2_alg».proof.Proof.RefDis

noncomputable section

open scoped BigOperators

namespace Cert.RefSide

open Idealize.ShloMosaic Idealize.ShloMosaic.ValueIdx Cert.LibRowGatherScatter Cert.LibSelfLoops Cert.GcnSpec
open Cert.ReferenceIdeal Cert.ReferenceIdeal.Gen Cert.ReferenceIdeal.Read

/-! ## What a node collects over the edges with self-loops -/

/-- THE COLLECTED FEATURE: the sum over all 850000 edges into `p` of the gathered feature times the edge's weight is what
    the real edges into `p` bring plus the node's own feature weighted by `dis p · dis p`. The feature width `C` is
    arbitrary. -/
theorem collected_eq {C : Nat} (x1 : EdgeList) (h : FVec Ideal ⟨2, ![50000, C]⟩ .f32) (p : Fin 50000) (k : Fin C) :
    ∑ e ∈ edgesInto (val_main_v9 (F := Ideal) x1) p,
        h (ix2 (rowOf (by norm_num) (val_main_v19 (F := Ideal) x1) e) k) * val_main_v28 (F := Ideal) x1 (ix1 e)
      = collect (edgeCol x1 1) (srow x1) (trow x1) (dis (edgeCol x1 1)) (fun q k => h (ix2 q k)) p k
        + h (ix2 p k) * (dis (edgeCol x1 1) p * dis (edgeCol x1 1) p) := by
  rw [← rdis_eq x1]
  refine (sum_edgesInto_concat (N := 50000) (E := 800000) (M := 850000) (by norm_num) (edgeCol x1 1)
    (val_main_v9 (F := Ideal) x1) (v9_real x1) (v9_loop x1)
    (fun e => h (ix2 (rowOf (by norm_num) (val_main_v19 (F := Ideal) x1) e) k) * val_main_v28 (F := Ideal) x1 (ix1 e))
    p).trans ?_
  show (∑ e ∈ edgesInto (edgeCol x1 1) p,
      h (ix2 (rowOf (by norm_num) (val_main_v19 (F := Ideal) x1) (realE e)) k) * val_main_v28 (F := Ideal) x1 (ix1 (realE e)))
    + h (ix2 (rowOf (by norm_num) (val_main_v19 (F := Ideal) x1) (loopE p)) k) * val_main_v28 (F := Ideal) x1 (ix1 (loopE p))
    = _
  rw [rowOf_v19_loop, v28_loop]
  unfold collect
  refine congrArg (· + h (ix2 p k) * (rdis x1 p * rdis x1 p)) (Finset.sum_congr rfl fun e _ => ?_)
  rw [rowOf_v19_real, v28_real]

/-- A maximum of two arrays at an index. -/
theorem maximumf_at {s : Shape} (a b : FVec Ideal s .f32) (i : s.Idx) : maximumf a b i = max (a i) (b i) := rfl

/-! ## Layer 0: 64 features in, 256 out, rectified -/

/-- The first layer's operations applied to an arbitrary input `h`. -/
def refLayer0 (h : FVec Ideal S50000x64 .f32) (x1 : EdgeList) (x5 : FVec Ideal S64x256 .f32) (x6 : FVec Ideal S256 .f32) :
    FVec Ideal S50000x256 .f32 :=
  maximumf (addf (Host.dotGeneral dot_S50000x64_S64x256_S50000x256_1_0_0_1_n_n none
      (Host.scatterAdd scatter_S50000x64_S850000x1_S850000x64_1_0_0_1 (val_main_v39 (F := Ideal)) (val_main_v40 (F := Ideal) x1)
        (mulf (Host.gather gather_S50000x64_S850000x1_S850000x64_1_0_n_n_0_1_164 h (val_main_v34 (F := Ideal) x1))
          (val_main_v37 (F := Ideal) x1))) x5)
    (val_main_v44 (F := Ideal) x6)) (val_main_call0_v0 (F := Ideal))

/-- The weight of every edge, laid along the 64 features. -/
theorem v37_eq (x1 : EdgeList) : val_main_v37 (F := Ideal) x1
    = broadcastInDim S850000x64 ![0, 1] bcast_S850000x1_S850000x64_0_1
        (broadcastInDim S850000x1 ![0] bcast_S850000_S850000x1_0 (val_main_v28 (F := Ideal) x1)) := rfl

/-- The first layer is the generic layer over the reference's three columns. -/
theorem refLayer0_eq (h : FVec Ideal S50000x64 .f32) (x1 : EdgeList) (x5 : FVec Ideal S64x256 .f32) (x6 : FVec Ideal S256 .f32) :
    refLayer0 h x1 x5 x6
      = maximumf (affine (N := 50000) (E := 850000) (C := 64) (M := 256)
          gather_S50000x64_S850000x1_S850000x64_1_0_n_n_0_1_164_wf scatter_S50000x64_S850000x1_S850000x64_1_0_0_1_wf
          dot_S50000x64_S64x256_S50000x256_1_0_0_1_n_n_wf bcast_S850000_S850000x1_0 bcast_S850000x1_S850000x64_0_1
          bcast_S_S50000x64 bcast_S256_S1x256_1 bcast_S1x256_S50000x256_0_1
          h (val_main_v19 (F := Ideal) x1) (val_main_v9 (F := Ideal) x1) (val_main_v28 (F := Ideal) x1)
          (val_main_cst_7 (F := Ideal)) x5 x6)
        (val_main_call0_v0 (F := Ideal)) := by
  unfold refLayer0 affine gathered
  rw [v40_eq, v34_eq, v37_eq]
  rfl

/-- THE FIRST LAYER AT `(p, j)`. -/
theorem refLayer0_apply (h : FVec Ideal S50000x64 .f32) (x1 : EdgeList) (x5 : FVec Ideal S64x256 .f32)
    (x6 : FVec Ideal S256 .f32) (p : Fin 50000) (j : Fin 256) :
    refLayer0 h x1 x5 x6 (ix2 p j)
      = layer relu (edgeCol x1 1) (srow x1) (trow x1) (dis (edgeCol x1 1)) (fun q k => h (ix2 q k))
          (fun k j => x5 (ix2 k j)) (fun j => x6 (ix1 j)) p j := by
  rw [refLayer0_eq, maximumf_at, affine_apply (hN := by norm_num) (hE := by norm_num), val_main_call0_v0_apply,
    val_main_call0_cst_apply, val_main_cst_7_apply, Ideal.ofBits_def, Ideal.ofBits_zero_f32]
  simp only [zero_add]
  unfold layer relu
  refine congrArg (max · 0) (congrArg (· + x6 (ix1 j)) (Finset.sum_congr rfl fun k _ => ?_))
  rw [collected_eq (C := 64) x1 h p k]

/-- The reference's first layer is these operations on the node features. -/
theorem v46_eq (x0 : FVec Ideal S50000x64 .f32) (x1 : EdgeList) (x5 : FVec Ideal S64x256 .f32) (x6 : FVec Ideal S256 .f32) :
    val_main_v46 (F := Ideal) x0 x1 x5 x6 = refLayer0 x0 x1 x5 x6 := by
  unfold val_main_v46 val_main_v45 val_main_v42 val_main_v41 val_main_v38 val_main_v35 refLayer0
  rfl

/-! ## Layer 1: 256 features in, 256 out, rectified -/

/-- The second layer's operations applied to an arbitrary input `h`. -/
def refLayer1 (h : FVec Ideal S50000x256 .f32) (x1 : EdgeList) (x7 : FVec Ideal S256x256 .f32) (x8 : FVec Ideal S256 .f32) :
    FVec Ideal S50000x256 .f32 :=
  maximumf (addf (Host.dotGeneral dot_S50000x256_S256x256_S50000x256_1_0_0_1_n_n none
      (Host.scatterAdd scatter_S50000x256_S850000x1_S850000x256_1_0_0_1 (val_main_v57 (F := Ideal)) (val_main_v58 (F := Ideal) x1)
        (mulf (Host.gather gather_S50000x256_S850000x1_S850000x256_1_0_n_n_0_1_1256 h (val_main_v52 (F := Ideal) x1))
          (val_main_v55 (F := Ideal) x1))) x7)
    (val_main_v62 (F := Ideal) x8)) (val_main_call1_v0 (F := Ideal))

/-- The weight of every edge, laid along the 256 features. -/
theorem v55_eq (x1 : EdgeList) : val_main_v55 (F := Ideal) x1
    = broadcastInDim S850000x256 ![0, 1] bcast_S850000x1_S850000x256_0_1
        (broadcastInDim S850000x1 ![0] bcast_S850000_S850000x1_0 (val_main_v28 (F := Ideal) x1)) := rfl

/-- The second layer is the generic layer over the reference's three columns. -/
theorem refLayer1_eq (h : FVec Ideal S50000x256 .f32) (x1 : EdgeList) (x7 : FVec Ideal S256x256 .f32) (x8 : FVec Ideal S256 .f32) :
    refLayer1 h x1 x7 x8
      = maximumf (affine (N := 50000) (E := 850000) (C := 256) (M := 256)
          gather_S50000x256_S850000x1_S850000x256_1_0_n_n_0_1_1256_wf scatter_S50000x256_S850000x1_S850000x256_1_0_0_1_wf
          dot_S50000x256_S256x256_S50000x256_1_0_0_1_n_n_wf bcast_S850000_S850000x1_0 bcast_S850000x1_S850000x256_0_1
          bcast_S_S50000x256 bcast_S256_S1x256_1 bcast_S1x256_S50000x256_0_1
          h (val_main_v19 (F := Ideal) x1) (val_main_v9 (F := Ideal) x1) (val_main_v28 (F := Ideal) x1)
          (val_main_cst_10 (F := Ideal)) x7 x8)
        (val_main_call1_v0 (F := Ideal)) := by
  unfold refLayer1 affine gathered
  rw [v58_eq, v52_eq, v55_eq]
  rfl

/-- THE SECOND LAYER AT `(p, j)`. -/
theorem refLayer1_apply (h : FVec Ideal S50000x256 .f32) (x1 : EdgeList) (x7 : FVec Ideal S256x256 .f32)
    (x8 : FVec Ideal S256 .f32) (p : Fin 50000) (j : Fin 256) :
    refLayer1 h x1 x7 x8 (ix2 p j)
      = layer relu (edgeCol x1 1) (srow x1) (trow x1) (dis (edgeCol x1 1)) (fun q k => h (ix2 q k))
          (fun k j => x7 (ix2 k j)) (fun j => x8 (ix1 j)) p j := by
  rw [refLayer1_eq, maximumf_at, affine_apply (hN := by norm_num) (hE := by norm_num), val_main_call1_v0_apply,
    val_main_call1_cst_apply, val_main_cst_10_apply, Ideal.ofBits_def, Ideal.ofBits_zero_f32]
  simp only [zero_add]
  unfold layer relu
  refine congrArg (max · 0) (congrArg (· + x8 (ix1 j)) (Finset.sum_congr rfl fun k _ => ?_))
  rw [collected_eq (C := 256) x1 h p k]

/-- The reference's second layer is these operations on its first layer. -/
theorem v64_eq (x0 : FVec Ideal S50000x64 .f32) (x1 : EdgeList) (x5 : FVec Ideal S64x256 .f32) (x6 : FVec Ideal S256 .f32)
    (x7 : FVec Ideal S256x256 .f32) (x8 : FVec Ideal S256 .f32) :
    val_main_v64 (F := Ideal) x0 x1 x5 x6 x7 x8 = refLayer1 (val_main_v46 (F := Ideal) x0 x1 x5 x6) x1 x7 x8 := by
  unfold val_main_v64 val_main_v63 val_main_v60 val_main_v59 val_main_v56 val_main_v53 refLayer1
  rfl

/-! ## Layer 2: 256 features in, 256 out, not rectified -/

/-- The third layer's operations applied to an arbitrary input `h`. -/
def refLayer2 (h : FVec Ideal S50000x256 .f32) (x1 : EdgeList) (x9 : FVec Ideal S256x256 .f32) (x10 : FVec Ideal S256 .f32) :
    FVec Ideal S50000x256 .f32 :=
  addf (Host.dotGeneral dot_S50000x256_S256x256_S50000x256_1_0_0_1_n_n none
      (Host.scatterAdd scatter_S50000x256_S850000x1_S850000x256_1_0_0_1 (val_main_v75 (F := Ideal)) (val_main_v76 (F := Ideal) x1)
        (mulf (Host.gather gather_S50000x256_S850000x1_S850000x256_1_0_n_n_0_1_1256 h (val_main_v70 (F := Ideal) x1))
          (val_main_v73 (F := Ideal) x1))) x9)
    (val_main_v80 (F := Ideal) x10)

/-- The weight of every edge, laid along the 256 features. -/
theorem v73_eq (x1 : EdgeList) : val_main_v73 (F := Ideal) x1
    = broadcastInDim S850000x256 ![0, 1] bcast_S850000x1_S850000x256_0_1
        (broadcastInDim S850000x1 ![0] bcast_S850000_S850000x1_0 (val_main_v28 (F := Ideal) x1)) := rfl

/-- The third layer is the generic layer over the reference's three columns. -/
theorem refLayer2_eq (h : FVec Ideal S50000x256 .f32) (x1 : EdgeList) (x9 : FVec Ideal S256x256 .f32) (x10 : FVec Ideal S256 .f32) :
    refLayer2 h x1 x9 x10
      = affine (N := 50000) (E := 850000) (C := 256) (M := 256)
          gather_S50000x256_S850000x1_S850000x256_1_0_n_n_0_1_1256_wf scatter_S50000x256_S850000x1_S850000x256_1_0_0_1_wf
          dot_S50000x256_S256x256_S50000x256_1_0_0_1_n_n_wf bcast_S850000_S850000x1_0 bcast_S850000x1_S850000x256_0_1
          bcast_S_S50000x256 bcast_S256_S1x256_1 bcast_S1x256_S50000x256_0_1
          h (val_main_v19 (F := Ideal) x1) (val_main_v9 (F := Ideal) x1) (val_main_v28 (F := Ideal) x1)
          (val_main_cst_13 (F := Ideal)) x9 x10 := by
  unfold refLayer2 affine gathered
  rw [v76_eq, v70_eq, v73_eq]
  rfl

/-- THE THIRD LAYER AT `(p, j)`: no activation. -/
theorem refLayer2_apply (h : FVec Ideal S50000x256 .f32) (x1 : EdgeList) (x9 : FVec Ideal S256x256 .f32)
    (x10 : FVec Ideal S256 .f32) (p : Fin 50000) (j : Fin 256) :
    refLayer2 h x1 x9 x10 (ix2 p j)
      = layer id (edgeCol x1 1) (srow x1) (trow x1) (dis (edgeCol x1 1)) (fun q k => h (ix2 q k))
          (fun k j => x9 (ix2 k j)) (fun j => x10 (ix1 j)) p j := by
  rw [refLayer2_eq, affine_apply (hN := by norm_num) (hE := by norm_num), val_main_cst_13_apply, Ideal.ofBits_def,
    Ideal.ofBits_zero_f32]
  simp only [zero_add]
  unfold layer
  rw [id_eq]
  refine congrArg (· + x10 (ix1 j)) (Finset.sum_congr rfl fun k _ => ?_)
  rw [collected_eq (C := 256) x1 h p k]

/-- The reference's third layer is these operations on its second layer. -/
theorem v81_eq (x0 : FVec Ideal S50000x64 .f32) (x1 : EdgeList) (x5 : FVec Ideal S64x256 .f32) (x6 : FVec Ideal S256 .f32)
    (x7 : FVec Ideal S256x256 .f32) (x8 : FVec Ideal S256 .f32) (x9 : FVec Ideal S256x256 .f32) (x10 : FVec Ideal S256 .f32) :
    val_main_v81 (F := Ideal) x0 x1 x5 x6 x7 x8 x9 x10
      = refLayer2 (val_main_v64 (F := Ideal) x0 x1 x5 x6 x7 x8) x1 x9 x10 := by
  unfold val_main_v81 val_main_v78 val_main_v77 val_main_v74 val_main_v71 refLayer2
  rfl

end Cert.RefSide

end
-- ==== Proof.RefTail.lean ====
/-
  The reference's tail with the encoder's output abstract: pooled and gathered rows laid side by side, then a
  two-layer perceptron, read at one graph.

  From the node features `h3` the reference forms, per graph, the mean of the graph's node rows and the rows of two named
  nodes, lays the three side by side (768 numbers) and applies a perceptron with one hidden layer of 256 rectified
  units and one output. The three pieces are kept as the operations spell them; the perceptron is read at graph `r`.
-/
import proofs.«175804_j6906307412089_2_alg».proof.Proof.Gen.ReferenceIdeal.Read
import proofs.«175804_j6906307412089_2_alg».proof.Proof.Spec

noncomputable section

open scoped BigOperators

namespace Cert.RefSide

open Idealize.ShloMosaic Idealize.ShloMosaic.ValueIdx Cert.LibRowGatherScatter Cert.GcnSpec
open Cert.ReferenceIdeal Cert.ReferenceIdeal.Gen Cert.ReferenceIdeal.Read

/-- The three pieces side by side: the mean of each graph's node rows, and the rows of the two named nodes. -/
def refZ (h3 : FVec Ideal S50000x256 .f32) (x2 : IVec S50000 32) (x3 x4 : IVec S512 32) : FVec Ideal S512x768 .f32 :=
  concatenate S512x768 1
    [⟨S512x256, Host.divf (Host.scatterAdd scatter_S512x256_S50000x1_S50000x256_1_0_0_1 (val_main_v86 (F := Ideal))
        (val_main_v87 (F := Ideal) x2) h3) (val_main_v92 (F := Ideal) x2)⟩,
     ⟨S512x256, Host.gather gather_S50000x256_S512x1_S512x256_1_0_n_n_0_1_1256 h3 (val_main_v99 (F := Ideal) x3)⟩,
     ⟨S512x256, Host.gather gather_S50000x256_S512x1_S512x256_1_0_n_n_0_1_1256 h3 (val_main_v106 (F := Ideal) x4)⟩]
    concatenates_S512x256_S512x256_S512x256_S512x768_d1

/-- The perceptron on an arbitrary `[512, 768]` input. -/
def refHead (z : FVec Ideal S512x768 .f32) (x11 : FVec Ideal S768x256 .f32) (x12 : FVec Ideal S256 .f32)
    (x13 : FVec Ideal S256x1 .f32) (x14 : FVec Ideal S1 .f32) : FVec Ideal S512 .f32 :=
  shapeCast _ (addf (Host.dotGeneral dot_S512x256_S256x1_S512x1_1_0_0_1_n_n none
      (maximumf (addf (Host.dotGeneral dot_S512x768_S768x256_S512x256_1_0_0_1_n_n none z x11) (val_main_v111 (F := Ideal) x12))
        (val_main_call2_v0 (F := Ideal))) x13) (val_main_v116 (F := Ideal) x14)) shapeCasts_S512x1_S512

/-- The tail on an arbitrary encoder output. -/
def refTail (h3 : FVec Ideal S50000x256 .f32) (x2 : IVec S50000 32) (x3 x4 : IVec S512 32)
    (x11 : FVec Ideal S768x256 .f32) (x12 : FVec Ideal S256 .f32) (x13 : FVec Ideal S256x1 .f32) (x14 : FVec Ideal S1 .f32) :
    FVec Ideal S512 .f32 :=
  refHead (refZ h3 x2 x3 x4) x11 x12 x13 x14

/-- The reference's result is the tail on its third layer. -/
theorem v118_eq (x0 : FVec Ideal S50000x64 .f32) (x1 : IVec S2x800000 32) (x2 : IVec S50000 32) (x3 x4 : IVec S512 32)
    (x5 : FVec Ideal S64x256 .f32) (x6 : FVec Ideal S256 .f32) (x7 : FVec Ideal S256x256 .f32) (x8 : FVec Ideal S256 .f32)
    (x9 : FVec Ideal S256x256 .f32) (x10 : FVec Ideal S256 .f32) (x11 : FVec Ideal S768x256 .f32) (x12 : FVec Ideal S256 .f32)
    (x13 : FVec Ideal S256x1 .f32) (x14 : FVec Ideal S1 .f32) :
    val_main_v118 (F := Ideal) x0 x1 x2 x3 x4 x5 x6 x7 x8 x9 x10 x11 x12 x13 x14
      = refTail (val_main_v81 (F := Ideal) x0 x1 x5 x6 x7 x8 x9 x10) x2 x3 x4 x11 x12 x13 x14 := by
  unfold val_main_v118 val_main_v117 val_main_v114 val_main_v113 val_main_v112 val_main_v109 val_main_v108 val_main_v93
    val_main_v88 val_main_v100 val_main_v107 refTail refHead refZ
  rfl

/-- A column `[512, 1]` recast as a vector reads row `r`. -/
theorem cast_col_apply (y : FVec Ideal S512x1 .f32) (r : Fin 512) :
    shapeCast S512 y shapeCasts_S512x1_S512 (ix1 r) = y (ix2 r 0) :=
  shapeCast_apply y shapeCasts_S512x1_S512 (ix1 r) (ix2 r 0)
    (by rewrite [Shape.rowMajor_val_two, Shape.rowMajor_val_one]; show r.val * 1 + 0 = r.val; omega)

/-- THE PERCEPTRON AT GRAPH `r`. -/
theorem refHead_apply (z : FVec Ideal S512x768 .f32) (x11 : FVec Ideal S768x256 .f32) (x12 : FVec Ideal S256 .f32)
    (x13 : FVec Ideal S256x1 .f32) (x14 : FVec Ideal S1 .f32) (r : Fin 512) :
    refHead z x11 x12 x13 x14 (ix1 r)
      = (∑ j : Fin 256, max ((∑ k : Fin 768, z (ix2 r k) * x11 (ix2 k j)) + x12 (ix1 j)) 0 * x13 (ix2 j 0))
        + x14 (ix1 0) := by
  unfold refHead
  rw [cast_col_apply]
  show Host.dotGeneral dot_S512x256_S256x1_S512x1_1_0_0_1_n_n none _ x13 (ix2 r 0) + val_main_v116 (F := Ideal) x14 (ix2 r 0) = _
  rw [val_main_v116_apply, val_main_v115_apply]
  refine congrArg₂ (· + ·) ?_ (congrArg x14 (funext fun a => Fin.ext (by match a with | ⟨0, _⟩ => rfl)))
  refine (dotGeneral_rows_apply (N := 512) (K := 256) (M := 1) dot_S512x256_S256x1_S512x1_1_0_0_1_n_n_wf none _ x13 r 0).trans ?_
  refine Finset.sum_congr rfl fun j _ => congrArg (· * _) ?_
  show max (Host.dotGeneral dot_S512x768_S768x256_S512x256_1_0_0_1_n_n none z x11 (ix2 r j) + val_main_v111 (F := Ideal) x12 (ix2 r j))
    (val_main_call2_v0 (F := Ideal) (ix2 r j)) = _
  rw [val_main_v111_apply, val_main_v110_apply, val_main_call2_v0_apply, val_main_call2_cst_apply, Ideal.ofBits_def,
    Ideal.ofBits_zero_f32]
  refine congrArg (max · 0) (congrArg₂ (· + ·) ?_ (congrArg x12 (funext fun a => Fin.ext (by match a with | ⟨0, _⟩ => rfl))))
  exact dotGeneral_rows_apply (N := 512) (K := 768) (M := 256) dot_S512x768_S768x256_S512x256_1_0_0_1_n_n_wf none z x11 r j

/-- The same with the rectifier named. -/
theorem refHead_apply_relu (z : FVec Ideal S512x768 .f32) (x11 : FVec Ideal S768x256 .f32) (x12 : FVec Ideal S256 .f32)
    (x13 : FVec Ideal S256x1 .f32) (x14 : FVec Ideal S1 .f32) (r : Fin 512) :
    refHead z x11 x12 x13 x14 (ix1 r)
      = (∑ j : Fin 256, relu ((∑ k : Fin 768, z (ix2 r k) * x11 (ix2 k j)) + x12 (ix1 j)) * x13 (ix2 j 0))
        + x14 (ix1 0) := by
  unfold relu
  exact refHead_apply z x11 x12 x13 x14 r

end Cert.RefSide

end
-- ==== Proof.Bridge.lean ====
/-
  The two idealized programs compute one function. On the extended reals the kernel program's three dense layers and
  the reference's three layers are, layer by layer, the specification's `layer` of the same data: the reference sums over
  the real edges and the appended self-loop edges in one scatter, the kernel program sums over the real edges and adds the
  node's own weighted row inside the dense layer — the same finite sum, regrouped. The classifier's input is then the same
  host term of the same array (mean pool, two row gathers, joined), and the classifier itself is the same formula: two
  matrix products, a rectifier between them, and the biases.
-/
import proofs.«175804_j6906307412089_2_alg».proof.Proof.Gen.KernelIdeal.Regions
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value
import proofs.«175804_j6906307412089_2_alg».proof.Proof.KIBufs
import proofs.«175804_j6906307412089_2_alg».proof.Proof.RefLayer
import proofs.«175804_j6906307412089_2_alg».proof.Proof.RefTail

noncomputable section

open scoped BigOperators

namespace Cert.Bridge

open Idealize.ShloMosaic Idealize.ShloMosaic.TcCoe Idealize.ShloMosaic.ValueIdx Idealize.SL.Sem
open Cert.KernelIdeal Cert.KernelIdeal.Gen Cert.KerSide Cert.RefSide Cert.GcnSpec Cert.ReferenceIdeal.Read

variable (m : (ℓ : Loc nD τ sig) → Buf (Elt Ideal) ℓ) (outs : Gen.Outs (F := Ideal)) (c : Dev nD)

/-- The classifier's input is one host term of the third layer's output in both programs: the same operations with the
    same dimension numbers. -/
theorem poolCat_eq_refZ (h : FVec Ideal S50000x256 .f32) (x2 : IVec S50000 32) (x3 x4 : IVec S512 32) :
    poolCat h x2 x3 x4 = refZ h x2 x3 x4 := rfl

variable (H : RegionVals m outs c)
include H

/-- The first layer's outputs agree. -/
theorem h1_eq : H1 outs c = refLayer0 (X0 m c) (X1 m c) (X5 m c) (X6 m c) := by
  funext i
  obtain ⟨p, j, rfl⟩ : ∃ (p : Fin 50000) (j : Fin 256), i = ix2 p j := ⟨i 0, i 1, eq_ix2 i⟩
  rw [layer0 m outs c H p j, refLayer0_apply]

/-- The second layer's outputs agree. -/
theorem h2_eq : H2 outs c = refLayer1 (refLayer0 (X0 m c) (X1 m c) (X5 m c) (X6 m c)) (X1 m c) (X7 m c) (X8 m c) := by
  funext i
  obtain ⟨p, j, rfl⟩ : ∃ (p : Fin 50000) (j : Fin 256), i = ix2 p j := ⟨i 0, i 1, eq_ix2 i⟩
  rw [layer1 m outs c H p j, refLayer1_apply, h1_eq m outs c H]

/-- The third layer's outputs agree. -/
theorem h3_eq : H3 outs c
    = refLayer2 (refLayer1 (refLayer0 (X0 m c) (X1 m c) (X5 m c) (X6 m c)) (X1 m c) (X7 m c) (X8 m c)) (X1 m c) (X9 m c) (X10 m c) := by
  funext i
  obtain ⟨p, j, rfl⟩ : ∃ (p : Fin 50000) (j : Fin 256), i = ix2 p j := ⟨i 0, i 1, eq_ix2 i⟩
  rw [layer2 m outs c H p j, refLayer2_apply, h2_eq m outs c H]
  rfl

/-- The kernel program's result buffer holds the reference's result term of the same arguments. -/
theorem result_eq : @Eq (FVec Ideal S512 .f32) (Gen.V9 (F := Ideal) m outs c main_v107)
    (val_main_v118 (F := Ideal) (X0 m c) (X1 m c) (X2 m c) (X3 m c) (X4 m c) (X5 m c) (X6 m c) (X7 m c) (X8 m c) (X9 m c) (X10 m c) (X11 m c) (X12 m c) (X13 m c) (X14 m c)) := by
  rw [result_buf m outs c, v118_eq, v81_eq, v64_eq, v46_eq]
  funext i
  obtain ⟨r, rfl⟩ : ∃ r : Fin 512, i = ix1 r := ⟨i 0, eq_ix1 i⟩
  rw [result_at, classifier m outs c H r, h3_eq m outs c H, poolCat_eq_refZ]
  unfold refTail
  rw [refHead_apply]
  rfl

end Cert.Bridge

end
-- ==== Proof.Assemble.lean ====
/-
  The assembly. What the kernel program's four regions leave is, by the blocks-to-array lemmas and the identification of
  the arrays their windows read, exactly the four formulas the value chain starts from; with them the kernel program's
  result buffer holds the reference's result term of the same arguments, so the two runs — the kernel program's with its
  result named, the reference's generated one — end with equal results from memories that agree on the arguments.
-/
import proofs.«175804_j6906307412089_2_alg».proof.Proof.Gen.KernelIdeal.Regions
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value
import proofs.«175804_j6906307412089_2_alg».proof.Defs
import proofs.«175804_j6906307412089_2_alg».proof.Proof.Gen.ReferenceIdeal.Run
import proofs.«175804_j6906307412089_2_alg».proof.Proof.Gen.ReferenceIdeal.Read
import proofs.«175804_j6906307412089_2_alg».proof.Proof.Gen.Pre_finite_inputs
import proofs.«175804_j6906307412089_2_alg».proof.Proof.KIRun
import proofs.«175804_j6906307412089_2_alg».proof.Proof.KIFinal0
import proofs.«175804_j6906307412089_2_alg».proof.Proof.KIFinal1
import proofs.«175804_j6906307412089_2_alg».proof.Proof.KIFinal2
import proofs.«175804_j6906307412089_2_alg».proof.Proof.KIFinal3
import proofs.«175804_j6906307412089_2_alg».proof.Proof.Bridge

noncomputable section

open scoped BigOperators

namespace Cert.Assemble

open Idealize.ShloMosaic Idealize.ShloMosaic.TcCoe Idealize.ShloMosaic.ValueIdx Idealize.SL.Sem
open Cert.KernelIdeal Cert.KernelIdeal.Gen Cert.KernelIdeal.Hand Cert.KernelIdeal.FinalAt Cert.KerSide

variable (m : (ℓ : Loc nD τ sig) → Buf (Elt Ideal) ℓ) (c : Dev nD)

/-- What the four regions leave, as their bodies' formulas of the named arrays. -/
theorem regionVals : RegionVals m (Hand.outs (F := Ideal) m) c where
  r0 p j := (congrFun (outs_2 (F := Ideal) m c) (ix2 p j)).trans
    (final0 (entryBufs0 (F := Ideal) m) c _ _ _ _ _ (b0_0 m c) (b0_1 m c) (b0_2 m c) (b0_3 m c) (b0_4 m c) p j)
  r1 p j := (congrFun (outs_4 (F := Ideal) m c) (ix2 p j)).trans
    (final1 (entryBufs1 (F := Ideal) m) c _ _ _ _ _ (b1_0 m (Hand.outs m) c) (b1_1 m (Hand.outs m) c) (b1_2 m (Hand.outs m) c)
      (b1_3 m (Hand.outs m) c) (b1_4 m (Hand.outs m) c) p j)
  r2 p j := (congrFun (outs_6 (F := Ideal) m c) (ix2 p j)).trans
    (final2 (entryBufs2 (F := Ideal) m) c _ _ _ _ _ (b2_0 m (Hand.outs m) c) (b2_1 m (Hand.outs m) c) (b2_2 m (Hand.outs m) c)
      (b2_3 m (Hand.outs m) c) (b2_4 m (Hand.outs m) c) p j)
  r3 r := (congrFun (outs_8 (F := Ideal) m c) (ix2 r 0)).trans
    (final3 (entryBufs3 (F := Ideal) m) c _ _ _ _ _ (b3_0 m (Hand.outs m) c) (b3_1 m (Hand.outs m) c) (b3_2 m (Hand.outs m) c)
      (b3_3 m (Hand.outs m) c) (b3_4 m (Hand.outs m) c) r)

/-- From memories that agree on the arguments both idealized programs run to the end with equal results: the kernel
    program's result buffer holds the reference's result term. -/
theorem algebraic : Cert.algebraic_KernelIdeal_ReferenceIdeal := by
  intro m ρ m' ρ' _ hagree
  refine ⟨fun c => Gen.V9 (F := Ideal) m (Hand.outs m) c main_v107, Hand.run_val m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [Cert.ReferenceIdeal.Read.val_main_v118_eq, e0, e1, e2, e3, e4, e5, e6, e7, e8, e9, e10, e11, e12, e13, e14]
  exact (Cert.Bridge.result_eq m (Hand.outs m) c (regionVals m c)).symm

end Cert.Assemble

end
-- ==== Proof.lean ====
/-
  A three-layer graph convolution with self-loops, a mean pool, two row gathers and a two-layer pair classifier: the
  kernel program against its reference, on the extended reals.

  The reference appends one self-loop edge per node to the edge list and scatters over the long list; the kernel program
  scatters over the real edges only and adds each node's own row, weighted by the square of its normalisation factor,
  inside the dense layer. A scatter-sum over the long list splits into the sum over the real edges and the one self-loop
  term, so each layer of either program is one function of the previous layer's output (Proof/Spec.lean `layer`), the
  degrees and normalisation factors agree, and after the third layer both programs apply the same host operations and the
  same classifier formula. Only regrouping of finite sums in a commutative monoid is used: no finiteness of the inputs.

  The three frames: the two kernel programs' from the four regions' records (the bodies are whole-block loads, one
  payload, one whole-block store) over the generated conditional frame; the reference's from its generated run.
-/
import proofs.«175804_j6906307412089_2_alg».proof.Defs
import proofs.«175804_j6906307412089_2_alg».proof.Proof.Gen.Kernel
import proofs.«175804_j6906307412089_2_alg».proof.Proof.Gen.Kernel.Skeleton
import proofs.«175804_j6906307412089_2_alg».proof.Proof.Gen.Kernel.Launch
import proofs.«175804_j6906307412089_2_alg».proof.Proof.Gen.Kernel.Regions
import proofs.«175804_j6906307412089_2_alg».proof.Proof.Gen.Kernel.Points
import proofs.«175804_j6906307412089_2_alg».proof.Proof.Gen.KernelIdeal
import proofs.«175804_j6906307412089_2_alg».proof.Proof.Gen.KernelIdeal.Skeleton
import proofs.«175804_j6906307412089_2_alg».proof.Proof.Gen.KernelIdeal.Launch
import proofs.«175804_j6906307412089_2_alg».proof.Proof.Gen.KernelIdeal.Regions
import proofs.«175804_j6906307412089_2_alg».proof.Proof.Gen.KernelIdeal.Points
import proofs.«175804_j6906307412089_2_alg».proof.Proof.Gen.ReferenceIdeal
import proofs.«175804_j6906307412089_2_alg».proof.Proof.Gen.ReferenceIdeal.Run
import proofs.«175804_j6906307412089_2_alg».proof.Proof.Gen.ReferenceIdeal.Read
import proofs.«175804_j6906307412089_2_alg».proof.Proof.Gen.Pre_finite_inputs
import proofs.«175804_j6906307412089_2_alg».proof.Proof.KIRun
import proofs.«175804_j6906307412089_2_alg».proof.Proof.KRun
import proofs.«175804_j6906307412089_2_alg».proof.Proof.Assemble
import Idealize.ShloMosaic.Adequacy
import Idealize.ShloMosaic.Init

noncomputable section

namespace Cert.Proof

open Idealize.ShloMosaic Idealize.SL.Sem

/-- The word-level kernel program runs to the end, faults nowhere and leaves its arguments unchanged. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- So does the reference: its generated run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read on the extended reals. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, Cert.Assemble.algebraic⟩

end Cert.Proof

end
